-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg14 : FVec F S128 .f32) (main_arg15 : FVec F S128 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg10 : FVec F S128x128 .f32) (main_arg11 : FVec F S128 .f32) (main_arg12 : FVec F S128x10 .f32) (main_arg13 : FVec F S10 .f32) (main_arg14 : FVec F S128 .f32) (main_arg15 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg12
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg13
  let main_cst_18 : FVec F S_ .f32 := constant S_ .f32 0x7F800000#32
  let main_v50 : FVec F S10 .f32 := broadcastInDim S10 ![] bcast_S_S10 main_cst_18
  fn_part3 (F := F) main_arg14 main_arg15 main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) (main_arg14 : FVec F S128 .f32) (main_arg15 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x128 .f32) (main_arg1 : IVec S800000 32) (main_arg2 : IVec S800000 32) (main_arg3 : IVec S50000 32) (main_arg4 : FVec F S128x256 .f32) (main_arg5 : FVec F S256 .f32) (main_arg6 : FVec F S256x128 .f32) (main_arg7 : FVec F S128 .f32) (main_arg8 : FVec F S128x128 .f32) (main_arg9 : FVec F S128 .f32) (main_arg10 : FVec F S128x128 .f32) (main_arg11 : FVec F S128 .f32) (main_arg12 : FVec F S128x10 .f32) (main_arg13 : FVec F S10 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg6
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg7 main_arg8 main_arg9 main_arg10 main_arg11 main_arg12 main_arg13 main_arg14 main_arg15 main_v13 main_v16
-- ==== Kernel.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S10000x128 : Shape := ⟨2, ![10000, 128]⟩
abbrev S10000x1 : Shape := ⟨2, ![10000, 1]⟩
abbrev S10000x256 : Shape := ⟨2, ![10000, 256]⟩
abbrev S1x128 : Shape := ⟨2, ![1, 128]⟩
abbrev S1x10 : Shape := ⟨2, ![1, 10]⟩
abbrev S128x1 : Shape := ⟨2, ![128, 1]⟩

abbrev nBuf : Space → Nat
  | .hbm => 97
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x10, .f32⟩
  | .hbm, ⟨13, _⟩ => ⟨S10, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S1x256, .f32⟩
  | .hbm, ⟨56, _⟩ => ⟨S50000x256, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S_, .f32⟩
  | .hbm, ⟨89, _⟩ => ⟨S128x128, .f32⟩
  | .hbm, ⟨90, _⟩ => ⟨S50000x1, .i32⟩
  | .hbm, ⟨91, _⟩ => ⟨S128x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x10, .f32⟩
  | .hbm, ⟨96, _⟩ => ⟨S128x10, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S128x256, .f32⟩
  | .local _ .vmem, ⟨5, _⟩ => ⟨S1x256, .f32⟩
  | .local _ .vmem, ⟨6, _⟩ => ⟨S10000x1, .f32⟩
  | .local _ .vmem, ⟨7, _⟩ => ⟨S10000x1, .f32⟩
  | .local _ .vmem, ⟨8, _⟩ => ⟨S10000x256, .f32⟩
  | .local _ .vmem, ⟨9, _⟩ => ⟨S10000x256, .f32⟩
  | .local _ .vmem, ⟨10, _⟩ => ⟨S10000x256, .f32⟩
  | .local _ .vmem, ⟨11, _⟩ => ⟨S10000x256, .f32⟩
  | .local _ .vmem, ⟨12, _⟩ => ⟨S256x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x1, .f32⟩
  | .local _ .vmem, ⟨18, _⟩ => ⟨S10000x1, .f32⟩
  | .local _ .vmem, ⟨19, _⟩ => ⟨S1x128, .f32⟩
  | .local _ .vmem, ⟨20, _⟩ => ⟨S10000x1, .f32⟩
  | .local _ .vmem, ⟨21, _⟩ => ⟨S10000x1, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x1, .f32⟩
  | .local _ .vmem, ⟨27, _⟩ => ⟨S10000x1, .f32⟩
  | .local _ .vmem, ⟨28, _⟩ => ⟨S128x128, .f32⟩
  | .local _ .vmem, ⟨29, _⟩ => ⟨S1x128, .f32⟩
  | .local _ .vmem, ⟨30, _⟩ => ⟨S10000x1, .f32⟩
  | .local _ .vmem, ⟨31, _⟩ => ⟨S10000x1, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S128x10, .f32⟩
  | .local _ .vmem, ⟨40, _⟩ => ⟨S1x10, .f32⟩
  | .local _ .vmem, ⟨41, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_v17 : Ref sig .tc := ⟨.hbm, 44, rfl⟩
abbrev main_c_5 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_6 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_c_8 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c_10 : Ref sig .tc := ⟨.hbm, 73, rfl⟩
abbrev main_v41 : Ref sig .tc := ⟨.hbm, 74, rfl⟩
abbrev main_v42 : Ref sig .tc := ⟨.hbm, 75, rfl⟩
abbrev main_c_11 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_12 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_13 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg7_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc4_sem0_0 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem7_0 : DmaSem sig := 41

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S10000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x10 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  broadcasts_S10000x1_S10000x256 : S10000x1.Broadcasts S10000x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  bcast_S_S128x128 : S_.BroadcastsInDim S128x128 (![] : Fin 0 → Fin S128x128.rank)
  bcast_S50000_S50000x1_0 : S50000.BroadcastsInDim S50000x1 (![0] : Fin 1 → Fin S50000x1.rank)
  shapeCasts_S10_S1x10 : S10.ShapeCasts S1x10
  shapeCasts_S128x128_S128x128 : S128x128.ShapeCasts S128x128
  reduces_S128x128_S128 : S128x128.Reduces [0] S128
  broadcasts_S1x128_S128x128 : S1x128.Broadcasts S128x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x256_S10000x256_1_0_0_1_n_n_wf : DotDims.WF S10000x128 S128x256 S10000x256 [1] [0] [0] [1] [] []
  dot_S10000x256_S256x128_S10000x128_1_0_0_1_n_n_wf : DotDims.WF S10000x256 S256x128 S10000x128 [1] [0] [0] [1] [] []
  dot_S10000x128_S128x128_S10000x128_1_0_0_1_n_n_wf : DotDims.WF S10000x128 S128x128 S10000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S50000x1.size a
  hwx0_4 : ∀ i : grid0.Coords, EltTy.bits .f32 = 32 ∨ (Rect.block (s := S50000x1) S10000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x256.size a ≤ S50000x256.size a
  hwx0_5 : ∀ i : grid0.Coords, EltTy.bits .f32 = 32 ∨ (Rect.block (s := S50000x256) S10000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S50000x256.size a
  hwx1_0 : ∀ i : grid1.Coords, EltTy.bits .f32 = 32 ∨ (Rect.block (s := S50000x256) S10000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S50000x1.size a
  hwx2_1 : ∀ i : grid2.Coords, EltTy.bits .f32 = 32 ∨ (Rect.block (s := S50000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S50000x1.size a
  hwx2_3 : ∀ i : grid2.Coords, EltTy.bits .f32 = 32 ∨ (Rect.block (s := S50000x1) S10000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S50000x128.size a
  hwx2_4 : ∀ i : grid2.Coords, EltTy.bits .f32 = 32 ∨ (Rect.block (s := S50000x128) S10000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S50000x1.size a
  hwx3_1 : ∀ i : grid3.Coords, EltTy.bits .f32 = 32 ∨ (Rect.block (s := S50000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x1.size a ≤ S50000x1.size a
  hwx3_4 : ∀ i : grid3.Coords, EltTy.bits .f32 = 32 ∨ (Rect.block (s := S50000x1) S10000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x128.size a ≤ S128x128.size a
  hwx4_0 : ∀ i : grid4.Coords, EltTy.bits .f32 = 32 ∨ (Rect.block (s := S128x128) S128x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x10.size a ≤ S128x10.size a
  hwx4_5 : ∀ i : grid4.Coords, EltTy.bits .f32 = 32 ∨ (Rect.block (s := S128x10) S128x10.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x10.size a ≤ S1x10.size a
  hwx4_6 : ∀ i : grid4.Coords, EltTy.bits .f32 = 32 ∨ (Rect.block (s := S1x10) S1x10.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x10.size a ≤ S128x10.size a
  hwx4_7 : ∀ i : grid4.Coords, EltTy.bits .f32 = 32 ∨ (Rect.block (s := S128x10) S128x10.size (cc4_transform_7 i) (hinb4_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v25) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S10000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S10000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S10000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v13) S10000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v52) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S128x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v56) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v58) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S128x10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v59) S1x10.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v60) S128x10.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S1x10 : Shape := ⟨2, ![1, 10]⟩
abbrev S128x1 : Shape := ⟨2, ![128, 1]⟩

abbrev nBuf : Space → Nat
  | .hbm => 174
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S50000, .i32⟩
  | 4 => ⟨S128x256, .f32⟩
  | 5 => ⟨S256, .f32⟩
  | 6 => ⟨S256x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x10, .f32⟩
  | 13 => ⟨S10, .f32⟩
  | 14 => ⟨S128, .f32⟩
  | 15 => ⟨S128, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x1, .f32⟩
  | 53 => ⟨S50000x128, .f32⟩
  | 54 => ⟨S50000x128, .f32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S50000x1, .f32⟩
  | 63 => ⟨S50000x256, .f32⟩
  | 64 => ⟨S50000x256, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x256, .f32⟩
  | 74 => ⟨S_, .f32⟩
  | 75 => ⟨S50000x256, .f32⟩
  | 76 => ⟨S800000x1, .i32⟩
  | 77 => ⟨S50000x256, .f32⟩
  | 78 => ⟨S50000x1, .f32⟩
  | 79 => ⟨S50000x256, .f32⟩
  | 80 => ⟨S50000x256, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x1, .f32⟩
  | 89 => ⟨S50000x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x1, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .f32⟩
  | 115 => ⟨S128x128, .f32⟩
  | 116 => ⟨S50000x1, .i32⟩
  | 117 => ⟨S128x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S128x128, .f32⟩
  | 125 => ⟨S128x128, .f32⟩
  | 126 => ⟨S128x128, .f32⟩
  | 127 => ⟨S_, .f32⟩
  | _ => ⟨S50000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S128x128, .f32⟩
  | 6 => ⟨S128x128, .f32⟩
  | 7 => ⟨S_, .f32⟩
  | 8 => ⟨S128, .f32⟩
  | 9 => ⟨S128, .f32⟩
  | 10 => ⟨S128, .f32⟩
  | 11 => ⟨S1x128, .f32⟩
  | 12 => ⟨S128x128, .f32⟩
  | 13 => ⟨S128x128, .f32⟩
  | 14 => ⟨S1x128, .f32⟩
  | 15 => ⟨S128x128, .f32⟩
  | 16 => ⟨S128x128, .f32⟩
  | 17 => ⟨S1x128, .f32⟩
  | 18 => ⟨S128x128, .f32⟩
  | 19 => ⟨S128x128, .f32⟩
  | 20 => ⟨S128x128, .f32⟩
  | 21 => ⟨S1x128, .f32⟩
  | 22 => ⟨S128x128, .f32⟩
  | 23 => ⟨S128x128, .f32⟩
  | 24 => ⟨S_, .f32⟩
  | 25 => ⟨S128x128, .f32⟩
  | 26 => ⟨S128x128, .f32⟩
  | 27 => ⟨S128x10, .f32⟩
  | 28 => ⟨S1x10, .f32⟩
  | 29 => ⟨S128x10, .f32⟩
  | 30 => ⟨S128x10, .f32⟩
  | 31 => ⟨S_, .f32⟩
  | 32 => ⟨S128, .f32⟩
  | 33 => ⟨S_, .f32⟩
  | 34 => ⟨S128, .f32⟩
  | 35 => ⟨S128, .f32⟩
  | 36 => ⟨S128x1, .f32⟩
  | 37 => ⟨S128x10, .f32⟩
  | 38 => ⟨S128x10, .f32⟩
  | 39 => ⟨S128x10, .f32⟩
  | 40 => ⟨S_, .f32⟩
  | 41 => ⟨S128, .f32⟩
  | 42 => ⟨S128x1, .f32⟩
  | 43 => ⟨S128x1, .f32⟩
  | 44 => ⟨S128x10, .f32⟩
  | 45 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v7 : Ref sig .tc := ⟨.hbm, 29, rfl⟩
abbrev main_v8 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call2_cst : Ref sig .tc := ⟨.hbm, 59, rfl⟩
abbrev main_call2_v0 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_6 : Ref sig .tc := ⟨.hbm, 65, rfl⟩
abbrev main_v35 : Ref sig .tc := ⟨.hbm, 66, rfl⟩
abbrev main_v36 : Ref sig .tc := ⟨.hbm, 67, rfl⟩
abbrev main_c_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call3_cst : Ref sig .tc := ⟨.hbm, 85, rfl⟩
abbrev main_call3_v0 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_9 : Ref sig .tc := ⟨.hbm, 91, rfl⟩
abbrev main_v56 : Ref sig .tc := ⟨.hbm, 92, rfl⟩
abbrev main_v57 : Ref sig .tc := ⟨.hbm, 93, rfl⟩
abbrev main_c_10 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_11 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call4_cst : Ref sig .tc := ⟨.hbm, 111, rfl⟩
abbrev main_call4_v0 : Ref sig .tc := ⟨.hbm, 112, rfl⟩
abbrev main_v73 : Ref sig .tc := ⟨.hbm, 113, rfl⟩
abbrev main_cst_12 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_13 : Ref sig .tc := ⟨.hbm, 118, rfl⟩
abbrev main_v77 : Ref sig .tc := ⟨.hbm, 119, rfl⟩
abbrev main_cst_14 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_15 : Ref sig .tc := ⟨.hbm, 127, rfl⟩
abbrev main_v84 : Ref sig .tc := ⟨.hbm, 128, rfl⟩
abbrev main_cst_16 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_17 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_call5_cst : Ref sig .tc := ⟨.hbm, 152, rfl⟩
abbrev main_call5_v0 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_call6_cst : Ref sig .tc := ⟨.hbm, 159, rfl⟩
abbrev main_call6_v0 : Ref sig .tc := ⟨.hbm, 160, rfl⟩
abbrev main_call6_cst_0 : Ref sig .tc := ⟨.hbm, 161, rfl⟩
abbrev main_call6_v1 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_v6 : Ref sig .tc := ⟨.hbm, 167, rfl⟩
abbrev main_call6_cst_1 : Ref sig .tc := ⟨.hbm, 168, rfl⟩
abbrev main_call6_v7 : Ref sig .tc := ⟨.hbm, 169, rfl⟩
abbrev main_call6_v8 : Ref sig .tc := ⟨.hbm, 170, rfl⟩
abbrev main_call6_v9 : Ref sig .tc := ⟨.hbm, 171, rfl⟩
abbrev main_call6_v10 : Ref sig .tc := ⟨.hbm, 172, rfl⟩
abbrev main_v111 : Ref sig .tc := ⟨.hbm, 173, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  reducesTo_S128x128_S128_d0 : S128x128.ReducesTo [0] S128
  h_S_ : 0 < S_.numel
  bcast_S_S128 : S_.BroadcastsInDim S128 (![] : Fin 0 → Fin S128.rank)
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KernelRun.lean ====
/-
  The idealized kernel program's run with its two results named.  The program is thirteen segments: host
  stretches and five kernel regions.  Its run ends with every unscoped buffer at the last boundary's contents;
  read at the two result buffers — the per-graph sums and the log-probabilities — this names what the program
  returns, beside the sixteen arguments, which end as launched.
-/
import proofs.«180929_j77764677861851_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; its two result buffers end at the last
    boundary's contents and its arguments as launched. -/
theorem run_results : θ_run defs (onTc (τ := τ) (main (F := F))) ⟨m, fun _ => 0, ρ⟩ (fun r => ∀ c : Dev nD,
      r.2.mem ((c.tc : Thread nD τ).loc main_v55) = W13 m ρ c (Proc.devRef .tc main_v55)
      ∧ r.2.mem ((c.tc : Thread nD τ).loc main_v60) = W13 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v55 (by decide)),
       h c _ (mem_uc main_v60 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c)⟩)

end Cert.KernelIdeal.Results

end
-- ==== Proof.ChainDefs.lean ====
/-
  The arrays the idealized kernel program's host operations compute, named once: the two degree normalisations
  (a scatter-add of ones along the source, resp. destination, index words, clamped below at one, reciprocal square
  root, stood up as a column), the message-passing aggregate (rows gathered along the normalised source indices and
  summed at the destination indices), the per-graph pooling (rows summed at their graph index) and the reshapes of
  the bias vectors into rows.
-/
import proofs.«180929_j77764677861851_2_alg».proof.Proof.Gen.KernelIdeal
import Idealize.ShloMosaic.PureOps.Ideal

set_option maxRecDepth 16384

noncomputable section

namespace Cert.KernelIdeal.Chain

open Cert.KernelIdeal Cert.KernelIdeal.Gen
open Idealize.ShloMosaic

/-- A [50000] vector stood up as a [50000,1] column. -/
def colOf (x : S50000.Idx → EReal) : S50000x1.Idx → EReal := shapeCast S50000x1 x shapeCasts_S50000_S50000x1
/-- A [256] vector laid down as a [1,256] row. -/
def rowOf256 (x : S256.Idx → EReal) : S1x256.Idx → EReal := shapeCast S1x256 x shapeCasts_S256_S1x256
/-- A [128] vector laid down as a [1,128] row. -/
def rowOf128 (x : S128.Idx → EReal) : S1x128.Idx → EReal := shapeCast S1x128 x shapeCasts_S128_S1x128
/-- A [10] vector laid down as a [1,10] row. -/
def rowOf10 (x : S10.Idx → EReal) : S1x10.Idx → EReal := shapeCast S1x10 x shapeCasts_S10_S1x10
/-- The column of ones the last layer's outgoing scale is. -/
def onesCol : S50000x1.Idx → EReal := broadcastInDim S50000x1 ![] bcast_S_S50000x1 (constant (F := Ideal) S_ .f32 0x3F800000#32)

/-- A degree normalisation: the number of edges whose index word `x` names each node (a scatter-add of ones into
    zeros), clamped below at one, reciprocal square root. -/
def normK (x : S800000.Idx → BitVec 32) : S50000.Idx → EReal :=
  Host.rsqrt (F := Ideal) (maximumf (broadcastInDim S50000 ![] bcast_S_S50000 (id (constant (F := Ideal) S_ .f32 0x3F800000#32)))
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 x)
      (broadcastInDim S800000 ![] bcast_S_S800000 (constant (F := Ideal) S_ .f32 0x3F800000#32))))

/-- The source index words with the negative ones wrapped into the node range, as an [800000,1] array. -/
def srcIdxK (x1 : S800000.Idx → BitVec 32) : S800000x1.Idx → BitVec 32 :=
  broadcastInDim S800000x1 ![0] bcast_S800000_S800000x1_0
    (select (cmpi CmpIPredicate.slt x1 (broadcastInDim S800000 ![] bcast_S_S800000 (constantI S_ 32 0#32)))
      (addi x1 (broadcastInDim S800000 ![] bcast_S_S800000 (constantI S_ 32 50000#32))) x1)
/-- The destination index words as an [800000,1] array. -/
def dstIdxK (x2 : S800000.Idx → BitVec 32) : S800000x1.Idx → BitVec 32 :=
  broadcastInDim S800000x1 ![0] bcast_S800000_S800000x1_0 x2

/-- A message-passing aggregate: the rows of `X` gathered along the source indices, summed at the destination indices. -/
def aggK (X : S50000x128.Idx → EReal) (x1 x2 : S800000.Idx → BitVec 32) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (dstIdxK x2)
    (Host.gather gather_S50000x128_S800000x1_S800000x128_1_0_n_n_0_1_1128 X (srcIdxK x1))

/-- The per-graph pooling: the rows of `X` summed at their graph index. -/
def poolK (x3 : S50000.Idx → BitVec 32) (X : S50000x128.Idx → EReal) : S128x128.Idx → EReal :=
  Host.scatterAdd (F := Ideal) scatter_S128x128_S50000x1_S50000x128_1_0_0_1
    (broadcastInDim S128x128 ![] bcast_S_S128x128 (constant (F := Ideal) S_ .f32 0x00000000#32))
    (broadcastInDim S50000x1 ![0] bcast_S50000_S50000x1_0 x3) X

/-- The node features scaled row by row by a column. -/
def scaledK (x0 : S50000x128.Idx → EReal) (d : S50000x1.Idx → EReal) : S50000x128.Idx → EReal :=
  mulf (F := Ideal) (φ := .f32) x0 (broadcastInDim S50000x128 ![0, 1] bcast_S50000x1_S50000x128_0_1 d)

end Cert.KernelIdeal.Chain

end
-- ==== Proof.Stretches.lean ====
/-
  The idealized kernel program's host stretches, one at a time: what each stretch writes into each buffer a kernel
  region later reads, as a function of the contents it starts from, and which buffers it leaves alone.
-/
import proofs.«180929_j77764677861851_2_alg».proof.Proof.Gen.KernelIdeal.Frame
import proofs.«180929_j77764677861851_2_alg».proof.Proof.ChainDefs
import Idealize.ShloMosaic.Lib.StableHlo.Run

set_option maxRecDepth 16384
set_option maxHeartbeats 1000000

noncomputable section

namespace Cert.KernelIdeal.Chain

open Cert.KernelIdeal Cert.KernelIdeal.Gen
open Idealize.ShloMosaic Idealize.ShloMosaic.TcCoe Idealize.SL.Sem Idealize.ShloMosaic.StableHlo

/-! ## The degree counts and the constant one -/

/-- The out-degree counts: ones summed at the source index words. -/
theorem s0_v3 (U : Valuation τ sig (Elt Ideal)) : StableHlo.after hostOps0 U (Proc.devRef .tc main_v3)
    = Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (U (Proc.devRef .tc main_arg1)))
        (broadcastInDim S800000 ![] bcast_S_S800000 (constant (F := Ideal) S_ .f32 0x3F800000#32)) := by
  after_results_simp
  all_goals rfl
/-- The in-degree counts: ones summed at the destination index words. -/
theorem s0_v6 (U : Valuation τ sig (Elt Ideal)) : StableHlo.after hostOps0 U (Proc.devRef .tc main_v6)
    = Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 (U (Proc.devRef .tc main_arg2)))
        (broadcastInDim S800000 ![] bcast_S_S800000 (constant (F := Ideal) S_ .f32 0x3F800000#32)) := by
  after_results_simp
  all_goals rfl
theorem s0_cst2 (U : Valuation τ sig (Elt Ideal)) : StableHlo.after hostOps0 U (Proc.devRef .tc main_cst_2) = constant (F := Ideal) S_ .f32 0x3F800000#32 := by
  after_results_simp
  all_goals rfl

/-! ## The source-side clamp -/

theorem s01_v7 (U : Valuation τ sig (Elt Ideal)) : StableHlo.after hostOps0_1 U (Proc.devRef .tc main_v7)
    = maximumf (F := Ideal) (φ := .f32) (broadcastInDim S50000 ![] bcast_S_S50000 (id (U (Proc.devRef .tc main_cst_2)))) (U (Proc.devRef .tc main_v3)) := by
  after_results
  all_goals rfl
theorem unw01_v6 (U : Valuation τ sig (Elt Ideal)) : StableHlo.after hostOps0_1 U (Proc.devRef .tc main_v6) = U (Proc.devRef .tc main_v6) := by
  after_results_simp

/-! ## The source-side normalisation column -/

theorem s02_v9 (U : Valuation τ sig (Elt Ideal)) : StableHlo.after hostOps0_2 U (Proc.devRef .tc main_v9) = colOf (Host.rsqrt (F := Ideal) (φ := .f32) (U (Proc.devRef .tc main_v7))) := by
  after_results
  all_goals rfl
theorem s02_cst3 (U : Valuation τ sig (Elt Ideal)) : StableHlo.after hostOps0_2 U (Proc.devRef .tc main_cst_3) = constant (F := Ideal) S_ .f32 0x3F800000#32 := by
  after_results
  all_goals rfl
theorem unw02_v6 (U : Valuation τ sig (Elt Ideal)) : StableHlo.after hostOps0_2 U (Proc.devRef .tc main_v6) = U (Proc.devRef .tc main_v6) := by
  after_results_simp

/-! ## The destination-side clamp -/

theorem s03_v10 (U : Valuation τ sig (Elt Ideal)) : StableHlo.after hostOps0_3 U (Proc.devRef .tc main_v10)
    = maximumf (F := Ideal) (φ := .f32) (broadcastInDim S50000 ![] bcast_S_S50000 (id (U (Proc.devRef .tc main_cst_3)))) (U (Proc.devRef .tc main_v6)) := by
  after_results
  all_goals rfl
theorem unw03_v9 (U : Valuation τ sig (Elt Ideal)) : StableHlo.after hostOps0_3 U (Proc.devRef .tc main_v9) = U (Proc.devRef .tc main_v9) := by
  after_results_simp

/-! ## The stretch before the first region -/

theorem s04_v12 (U : Valuation τ sig (Elt Ideal)) : StableHlo.after hostOps0_4 U (Proc.devRef .tc main_v12) = colOf (Host.rsqrt (F := Ideal) (φ := .f32) (U (Proc.devRef .tc main_v10))) := by
  after_results_simp
  all_goals rfl
theorem s04_v13 (U : Valuation τ sig (Elt Ideal)) : StableHlo.after hostOps0_4 U (Proc.devRef .tc main_v13) = onesCol := by
  after_results_simp
  all_goals rfl
/-- The first aggregate: the scaled node features gathered and summed. -/
theorem s04_v25 (U : Valuation τ sig (Elt Ideal)) : StableHlo.after hostOps0_4 U (Proc.devRef .tc main_v25)
    = aggK (scaledK (U (Proc.devRef .tc main_arg0)) (U (Proc.devRef .tc main_v9))) (U (Proc.devRef .tc main_arg1)) (U (Proc.devRef .tc main_arg2)) := by
  after_results_simp
  all_goals rfl
theorem s04_v26 (U : Valuation τ sig (Elt Ideal)) : StableHlo.after hostOps0_4 U (Proc.devRef .tc main_v26) = rowOf256 (U (Proc.devRef .tc main_arg5)) := by
  after_results_simp
  all_goals rfl
theorem unw04_v9 (U : Valuation τ sig (Elt Ideal)) : StableHlo.after hostOps0_4 U (Proc.devRef .tc main_v9) = U (Proc.devRef .tc main_v9) := by
  after_results_simp

/-! ## The stretch before the third region -/

/-- The second aggregate: the rows of the second region's product gathered and summed. -/
theorem s2_v38 (U : Valuation τ sig (Elt Ideal)) : StableHlo.after hostOps2 U (Proc.devRef .tc main_v38)
    = aggK (U (Proc.devRef .tc main_v28)) (U (Proc.devRef .tc main_arg1)) (U (Proc.devRef .tc main_arg2)) := by
  after_results_simp
  all_goals rfl
theorem s2_v39 (U : Valuation τ sig (Elt Ideal)) : StableHlo.after hostOps2 U (Proc.devRef .tc main_v39) = rowOf128 (U (Proc.devRef .tc main_arg7)) := by
  after_results_simp
  all_goals rfl
theorem unw2_v12 (U : Valuation τ sig (Elt Ideal)) : StableHlo.after hostOps2 U (Proc.devRef .tc main_v12) = U (Proc.devRef .tc main_v12) := by
  after_results_simp
theorem unw2_v9 (U : Valuation τ sig (Elt Ideal)) : StableHlo.after hostOps2 U (Proc.devRef .tc main_v9) = U (Proc.devRef .tc main_v9) := by
  after_results_simp
theorem unw2_v13 (U : Valuation τ sig (Elt Ideal)) : StableHlo.after hostOps2 U (Proc.devRef .tc main_v13) = U (Proc.devRef .tc main_v13) := by
  after_results_simp

/-! ## The stretch before the fourth region -/

/-- The third aggregate: the rows of the third region's output gathered and summed. -/
theorem s3_v50 (U : Valuation τ sig (Elt Ideal)) : StableHlo.after hostOps3 U (Proc.devRef .tc main_v50)
    = aggK (U (Proc.devRef .tc main_v40)) (U (Proc.devRef .tc main_arg1)) (U (Proc.devRef .tc main_arg2)) := by
  after_results_simp
  all_goals rfl
theorem s3_v51 (U : Valuation τ sig (Elt Ideal)) : StableHlo.after hostOps3 U (Proc.devRef .tc main_v51) = rowOf128 (U (Proc.devRef .tc main_arg9)) := by
  after_results_simp
  all_goals rfl
theorem unw3_v12 (U : Valuation τ sig (Elt Ideal)) : StableHlo.after hostOps3 U (Proc.devRef .tc main_v12) = U (Proc.devRef .tc main_v12) := by
  after_results_simp
theorem unw3_v13 (U : Valuation τ sig (Elt Ideal)) : StableHlo.after hostOps3 U (Proc.devRef .tc main_v13) = U (Proc.devRef .tc main_v13) := by
  after_results_simp

/-! ## The stretch before the last region -/

/-- The per-graph sums of the fourth region's rows. -/
theorem s4_v55 (U : Valuation τ sig (Elt Ideal)) : StableHlo.after hostOps4 U (Proc.devRef .tc main_v55) = poolK (U (Proc.devRef .tc main_arg3)) (U (Proc.devRef .tc main_v52)) := by
  after_results_simp
  all_goals rfl
theorem s4_v56 (U : Valuation τ sig (Elt Ideal)) : StableHlo.after hostOps4 U (Proc.devRef .tc main_v56) = rowOf128 (U (Proc.devRef .tc main_arg14)) := by
  after_results_simp
  all_goals rfl
theorem s4_v57 (U : Valuation τ sig (Elt Ideal)) : StableHlo.after hostOps4 U (Proc.devRef .tc main_v57) = rowOf128 (U (Proc.devRef .tc main_arg15)) := by
  after_results_simp
  all_goals rfl
theorem s4_v58 (U : Valuation τ sig (Elt Ideal)) : StableHlo.after hostOps4 U (Proc.devRef .tc main_v58) = rowOf128 (U (Proc.devRef .tc main_arg11)) := by
  after_results_simp
  all_goals rfl
theorem s4_v59 (U : Valuation τ sig (Elt Ideal)) : StableHlo.after hostOps4 U (Proc.devRef .tc main_v59) = rowOf10 (U (Proc.devRef .tc main_arg13)) := by
  after_results_simp
  all_goals rfl

end Cert.KernelIdeal.Chain

end
-- ==== Proof.Spec.lean ====
/-
  The network both programs compute, written index by index on the extended reals.

  A node's features pass through three graph-convolution layers.  In one layer the rows gathered along the
  edges are summed at their destination nodes; row p of that aggregate is scaled by the destination
  normalisation I p, multiplied into the weight matrix, shifted by the bias and clamped below at zero
  (`convEntry`).  The per-graph sums of the last layer's rows are the first result.  The second result
  normalises those sums column by column with the batch mean and variance, applies the affine pair
  (gamma, beta), two dense layers and a row-wise log-softmax (`head`).

  The float literals are kept as their words: the same word stands on both sides and is never evaluated.
-/
import Idealize.ShloMosaic.PureOps.Ideal
import Idealize.ShloMosaic.Lib.ValueIdx

noncomputable section

namespace Cert.Spec

open Idealize.ShloMosaic Idealize.ShloMosaic.ValueIdx

/-- The word of +0.0. -/
abbrev zeroW : EReal := Ideal.ofBits .f32 0x00000000#32
/-- The word of 128.0, the number of graphs the batch statistics average over. -/
abbrev n128W : EReal := Ideal.ofBits .f32 0x43000000#32
/-- The word of the variance's stabiliser, the float nearest 1e-5. -/
abbrev epsW : EReal := Ideal.ofBits .f32 0x3727C5AC#32
/-- The word of -inf, where a row maximum starts. -/
abbrev negInfW : EReal := Ideal.ofBits .f32 0xFF800000#32

/-- Entry (p, q) of a dense layer applied to a row-scaled aggregate: the sum over k of (A(p,k) · s) · W(k,q),
    plus the bias, clamped below at the zero word.  `s` is the row's scale and `bq` the bias entry. -/
def convEntry {n c d : Nat} (A : (⟨2, ![n, c]⟩ : Shape).Idx → EReal) (s : EReal)
    (W : (⟨2, ![c, d]⟩ : Shape).Idx → EReal) (bq : EReal) (p : Fin n) (q : Fin d) : EReal :=
  max ((∑ k : Fin c, (A (ix2 p k) * s) * W (ix2 k q)) + bq) zeroW

section Head

variable (E : (⟨2, ![128, 128]⟩ : Shape).Idx → EReal) (g b : Fin 128 → EReal)
  (Wf1 : (⟨2, ![128, 128]⟩ : Shape).Idx → EReal) (bf1 : Fin 128 → EReal)
  (Wf2 : (⟨2, ![128, 10]⟩ : Shape).Idx → EReal) (bf2 : Fin 10 → EReal)

/-- Column c's mean over the 128 graphs. -/
def colMean (c : Fin 128) : EReal := Ideal.div (∑ r : Fin 128, E (ix2 r c)) n128W
/-- Entry (r, c) less its column's mean. -/
def centred (r c : Fin 128) : EReal := E (ix2 r c) - colMean E c
/-- Column c's (biased) variance. -/
def colVar (c : Fin 128) : EReal := Ideal.div (∑ r : Fin 128, centred E r c * centred E r c) n128W
/-- The batch-normalised entry with its affine pair. -/
def normed (r c : Fin 128) : EReal := centred E r c * Ideal.rsqrt (colVar E c + epsW) * g c + b c
/-- The hidden layer: a dense layer on the normalised rows, clamped below at zero. -/
def hidden (r j : Fin 128) : EReal := max ((∑ c : Fin 128, normed E g b r c * Wf1 (ix2 c j)) + bf1 j) zeroW
/-- The ten logits of a row. -/
def logit (r : Fin 128) (o : Fin 10) : EReal := (∑ j : Fin 128, hidden E g b Wf1 bf1 r j * Wf2 (ix2 j o)) + bf2 o
/-- A row's largest logit, folded from -inf. -/
def rowMax (r : Fin 128) : EReal := (Finset.univ : Finset (Fin 10)).fold max negInfW (fun o => logit E g b Wf1 bf1 Wf2 bf2 r o)
/-- A logit less its row's maximum. -/
def shifted (r : Fin 128) (o : Fin 10) : EReal := logit E g b Wf1 bf1 Wf2 bf2 r o - rowMax E g b Wf1 bf1 Wf2 bf2 r
/-- The log-softmax of the logits: the shifted logit less the log of the row's sum of exponentials. -/
def head (r : Fin 128) (o : Fin 10) : EReal :=
  shifted E g b Wf1 bf1 Wf2 bf2 r o - Ideal.log (∑ o' : Fin 10, Ideal.exp (shifted E g b Wf1 bf1 Wf2 bf2 r o'))

end Head

end Cert.Spec

end
-- ==== Proof.Region0.lean ====
/-
  The first kernel region: the dense half of the first graph-convolution layer, tiled over the rows.  Each grid
  point takes 10000 rows of the aggregate, scales them by the destination normalisation, multiplies them into the
  whole weight matrix, adds the bias row, clamps below at zero and scales by the source normalisation.  Row p of the
  result depends only on row p of the row-tiled operands, so the five blocks written back are the restrictions of
  one [50000,256] array, and they tile its rows.
-/
import proofs.«180929_j77764677861851_2_alg».proof.Proof.Gen.KernelIdeal.Frame
import proofs.«180929_j77764677861851_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- A graph-convolution layer's dense half on whole arrays: entry (p, q) is the clamped affine image of row p of the
    aggregate `A` scaled by the destination normalisation `I p`, times the row's outgoing scale `O p`. -/
def conv0 (A : S50000x128.Idx → EReal) (I : S50000x1.Idx → EReal) (W : S128x256.Idx → EReal) (b : S1x256.Idx → EReal) (O : S50000x1.Idx → EReal) : S50000x256.Idx → EReal := fun i =>
  Cert.Spec.convEntry A (I (ix2 (n0 := 50000) (n1 := 1) (i 0) 0)) W (b (ix2 (n0 := 1) (n1 := 256) 0 (i 1))) (i 0) (i 1) * O (ix2 (n0 := 50000) (n1 := 1) (i 0) 0)

/-- The index maps, decided over the five grid points: a row-tiled operand's block moves with the output's along the
    rows, a whole operand's block stays at the origin, and the output's row-block index is below five. -/
theorem idx_facts0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = win0_5.index t (0 : Fin 2)
    ∧ win0_4.index t (1 : Fin 2) = 0
    ∧ win0_5.index t (1 : Fin 2) = 0
    ∧ win0_5.index t (0 : Fin 2) ≤ 4 :=
  (by decide +kernel : ∀ t : Fin grid0.N, _)

/-- Every row block is some grid point's. -/
theorem idx_onto0 : ∀ q0 : Fin 5, ∃ t : Fin cfg0.N, win0_5.index t = ![q0.val, 0] :=
  (by decide +kernel : ∀ q0 : Fin 5, ∃ t : Fin grid0.N, win0_5.index t = ![q0.val, 0])

/-- What grid point `t` writes back is block `t` of that one array: the body's entry at a row inside the block reads
    the operands at the same row of the whole arrays. -/
theorem flushed0
    (hpay : ∀ (a : Vec Ideal S10000x128 .f32) (i : Vec Ideal S10000x1 .f32) (w : Vec Ideal S128x256 .f32) (b : Vec Ideal S1x256 .f32) (o : Vec Ideal S10000x1 .f32) (r : Fin 10000) (q : Fin 256),
      k0_pay1 (F := Ideal) a i w b o (ix2 r q) = Cert.Spec.convEntry a (i (ix2 r 0)) w (b (ix2 0 q)) r q * o (ix2 r 0))
    (c : Dev nD) (t : Fin cfg0.N) :
    (dat0 (F := Ideal) V c).flushed 5 t = ((cfg0.win 5).blk t).view.read (Elt Ideal) (conv0 (V c main_v25) (V c main_v12) (V c main_arg4) (V c main_v26) (V c main_v9)) := by
  show (cfg0.win 5).cut (grid0.coords t) ((dat0 V c).after 5 t) = _
  rw [after0_5]
  unfold out0_5
  rw [View.canon_unit_zero hz0]
  simp only [View.ld_unit_zero (S := S10000x128) hz0, View.ld_unit_zero (S := S10000x1) hz0, View.ld_unit_zero (S := S128x256) hz0, View.ld_unit_zero (S := S1x256) hz0]
  obtain ⟨e0, e1, e2, e3, e4, e5, e6, e7, e8, e9, e10, e11⟩ := idx_facts0 t
  funext j
  obtain ⟨r, q, rfl⟩ : ∃ (r : Fin 10000) (q : Fin 256), j = ix2 r q := ⟨j 0, j 1, eq_ix2 j⟩
  refine (hpay _ _ _ _ _ r q).trans ?_
  show _ = conv0 (V c main_v25) (V c main_v12) (V c main_arg4) (V c main_v26) (V c main_v9) (((cfg0.win 5).blk t).view.emb (ix2 r q))
  unfold conv0 Cert.Spec.convEntry
  have h0 : ∀ k : Fin 128, iblk0 V c 0 t (ix2 r k) = (V c main_v25 : S50000x128.Idx → EReal) (ix2 (n0 := 50000) (n1 := 128) ((((cfg0.win 5).blk t).view.emb (ix2 r q)) 0) k) := by
    intro k
    show V c main_v25 (((cfg0.win 0).blk t).view.emb (ix2 r k)) = _
    refine congrArg _ ?_
    funext a; apply Fin.ext
    match a with
    | ⟨0, _⟩ => show win0_0.index t (0 : Fin 2) * 10000 + 1 * (r : Fin 10000).val = win0_5.index t (0 : Fin 2) * 10000 + 1 * r.val; first | omega | (simp only [Fin.val_zero]; omega)
    | ⟨1, _⟩ => show win0_0.index t (1 : Fin 2) * 128 + 1 * (k : Fin 128).val = (k : Fin 128).val; first | omega | (simp only [Fin.val_zero]; omega)
  have h1 : iblk0 V c 1 t (ix2 r 0) = (V c main_v12 : S50000x1.Idx → EReal) (ix2 (n0 := 50000) (n1 := 1) ((((cfg0.win 5).blk t).view.emb (ix2 r q)) 0) 0) := by
    show V c main_v12 (((cfg0.win 1).blk t).view.emb (ix2 r 0)) = _
    refine congrArg _ ?_
    funext a; apply Fin.ext
    match a with
    | ⟨0, _⟩ => show win0_1.index t (0 : Fin 2) * 10000 + 1 * (r : Fin 10000).val = win0_5.index t (0 : Fin 2) * 10000 + 1 * r.val; first | omega | (simp only [Fin.val_zero]; omega)
    | ⟨1, _⟩ => show win0_1.index t (1 : Fin 2) * 1 + 1 * (0 : Fin 1).val = (0 : Fin 1).val; first | omega | (simp only [Fin.val_zero]; omega)
  have h2 : ∀ k : Fin 128, iblk0 V c 2 t (ix2 k q) = (V c main_arg4 : S128x256.Idx → EReal) (ix2 (n0 := 128) (n1 := 256) k ((((cfg0.win 5).blk t).view.emb (ix2 r q)) 1)) := by
    intro k
    show V c main_arg4 (((cfg0.win 2).blk t).view.emb (ix2 k q)) = _
    refine congrArg _ ?_
    funext a; apply Fin.ext
    match a with
    | ⟨0, _⟩ => show win0_2.index t (0 : Fin 2) * 128 + 1 * (k : Fin 128).val = (k : Fin 128).val; first | omega | (simp only [Fin.val_zero]; omega)
    | ⟨1, _⟩ => show win0_2.index t (1 : Fin 2) * 256 + 1 * (q : Fin 256).val = win0_5.index t (1 : Fin 2) * 256 + 1 * q.val; first | omega | (simp only [Fin.val_zero]; omega)
  have h3 : iblk0 V c 3 t (ix2 0 q) = (V c main_v26 : S1x256.Idx → EReal) (ix2 (n0 := 1) (n1 := 256) 0 ((((cfg0.win 5).blk t).view.emb (ix2 r q)) 1)) := by
    show V c main_v26 (((cfg0.win 3).blk t).view.emb (ix2 0 q)) = _
    refine congrArg _ ?_
    funext a; apply Fin.ext
    match a with
    | ⟨0, _⟩ => show win0_3.index t (0 : Fin 2) * 1 + 1 * (0 : Fin 1).val = (0 : Fin 1).val; first | omega | (simp only [Fin.val_zero]; omega)
    | ⟨1, _⟩ => show win0_3.index t (1 : Fin 2) * 256 + 1 * (q : Fin 256).val = win0_5.index t (1 : Fin 2) * 256 + 1 * q.val; first | omega | (simp only [Fin.val_zero]; omega)
  have h4 : iblk0 V c 4 t (ix2 r 0) = (V c main_v9 : S50000x1.Idx → EReal) (ix2 (n0 := 50000) (n1 := 1) ((((cfg0.win 5).blk t).view.emb (ix2 r q)) 0) 0) := by
    show V c main_v9 (((cfg0.win 4).blk t).view.emb (ix2 r 0)) = _
    refine congrArg _ ?_
    funext a; apply Fin.ext
    match a with
    | ⟨0, _⟩ => show win0_4.index t (0 : Fin 2) * 10000 + 1 * (r : Fin 10000).val = win0_5.index t (0 : Fin 2) * 10000 + 1 * r.val; first | omega | (simp only [Fin.val_zero]; omega)
    | ⟨1, _⟩ => show win0_4.index t (1 : Fin 2) * 1 + 1 * (0 : Fin 1).val = (0 : Fin 1).val; first | omega | (simp only [Fin.val_zero]; omega)
  rw [h1, h3, h4]
  simp only [h0, h2]

/-- An index of the result array is in point `t`'s block iff each coordinate is in the block's range on its axis. -/
theorem mem_blk0 (t : Fin cfg0.N) (i : S50000x256.Idx) :
    i ∈ ((cfg0.win 5).blk t).view.set ↔ ∀ a : Fin 2, win0_5.index t a * S10000x256.size a ≤ (i a).val ∧ (i a).val < win0_5.index t a * S10000x256.size a + S10000x256.size a := by
  show i ∈ ((View.whole main_v27).slice (win0_5.rect t)).set ↔ _
  rw [View.set_slice_whole, Rect.mem_set_unit]
  exact Iff.rfl

/-- The five row blocks cover the result array. -/
theorem cover0 (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 256 ≤ (i 1).val ∧ (i 1).val < win0_5.index t (1 : Fin 2) * 256 + 256; omega

/-- The result array after the region. -/
theorem array0
    (hpay : ∀ (a : Vec Ideal S10000x128 .f32) (i : Vec Ideal S10000x1 .f32) (w : Vec Ideal S128x256 .f32) (b : Vec Ideal S1x256 .f32) (o : Vec Ideal S10000x1 .f32) (r : Fin 10000) (q : Fin 256),
      k0_pay1 (F := Ideal) a i w b o (ix2 r q) = Cert.Spec.convEntry a (i (ix2 r 0)) w (b (ix2 0 q)) r q * o (ix2 r 0))
    (c : Dev nD) : (dat0 (F := Ideal) V c).arrAt 5 cfg0.N = conv0 (V c main_v25) (V c main_v12) (V c main_arg4) (V c main_v26) (V c main_v9) :=
  (dat0 (F := Ideal) V c).arrAt_eq_of_cover 5 _ (fun t _ => flushed0 V hpay c t) cover0

end Cert.KernelIdeal.Regions

end
-- ==== Proof.Region1.lean ====
/-
  The second kernel region: a plain matrix product, tiled over the rows.  The [50000,256] left operand is cut
  into five blocks of 10000 rows; each grid point multiplies its block into the whole [256,128] right operand and
  writes back its block of the [50000,128] result.  Since a row of a product depends only on that row of the left
  operand, the blocks written back are the restrictions of ONE array: entry (p, q) is the sum over k of
  left(p, k) · right(k, q).  The blocks tile the rows, so the result array ends holding exactly that.
-/
import proofs.«180929_j77764677861851_2_alg».proof.Proof.Gen.KernelIdeal.Frame
import proofs.«180929_j77764677861851_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The product of a [50000,256] array and a [256,128] array, entry by entry. -/
def product (A : S50000x256.Idx → EReal) (W : S256x128.Idx → EReal) : S50000x128.Idx → EReal := fun i =>
  ∑ k : Fin 256, A (ix2 (n0 := 50000) (n1 := 256) (i 0) k) * W (ix2 (n0 := 256) (n1 := 128) k (i 1))

/-- The whole-array function region 1 leaves in its output: the product of the two arrays the region finds. -/
def product1 (c : Dev nD) : S50000x128.Idx → EReal := product (V c main_v27) (V c main_arg6)

/-- The index maps, decided over the five grid points: the left operand's block moves with the output's along the
    rows, the right operand's block stays at the origin, and the output's row-block index is below five. -/
theorem idx_facts1 : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 4 :=
  (by decide +kernel : ∀ t : Fin grid1.N, _)

/-- Every row block is some grid point's. -/
theorem idx_onto1 : ∀ q0 : Fin 5, ∃ t : Fin cfg1.N, win1_2.index t = ![q0.val, 0] :=
  (by decide +kernel : ∀ q0 : Fin 5, ∃ t : Fin grid1.N, win1_2.index t = ![q0.val, 0])

/-- What grid point `t` writes back is block `t` of the product. -/
theorem flushed1
    (hpay : ∀ (x : Vec Ideal S10000x256 .f32) (w : Vec Ideal S256x128 .f32) (r : Fin 10000) (q : Fin 128),
      k1_pay1 (F := Ideal) x w (ix2 r q) = ∑ k : Fin 256, x (ix2 r k) * w (ix2 k q))
    (c : Dev nD) (t : Fin cfg1.N) :
    (dat1 (F := Ideal) V c).flushed 2 t = ((cfg1.win 2).blk t).view.read (Elt Ideal) (product1 V c) := by
  show (cfg1.win 2).cut (grid1.coords t) ((dat1 V c).after 2 t) = _
  rw [after1_2]
  unfold out1_2
  rw [View.canon_unit_zero hz1]
  simp only [View.ld_unit_zero (S := S10000x256) hz1, View.ld_unit_zero (S := S256x128) hz1]
  obtain ⟨e0, e1, e2, e3, e4, e5⟩ := idx_facts1 t
  funext j
  obtain ⟨r, q, rfl⟩ : ∃ (r : Fin 10000) (q : Fin 128), j = ix2 r q := ⟨j 0, j 1, eq_ix2 j⟩
  refine (hpay _ _ r q).trans ?_
  show _ = product (V c main_v27) (V c main_arg6) (((cfg1.win 2).blk t).view.emb (ix2 r q))
  unfold product
  refine Finset.sum_congr rfl fun k _ => ?_
  have h0 : iblk1 V c 0 t (ix2 r k) = (V c main_v27 : S50000x256.Idx → EReal) (ix2 (n0 := 50000) (n1 := 256) ((((cfg1.win 2).blk t).view.emb (ix2 r q)) 0) k) := by
    show V c main_v27 (((cfg1.win 0).blk t).view.emb (ix2 r k)) = _
    refine congrArg _ ?_
    funext a; apply Fin.ext
    match a with
    | ⟨0, _⟩ => show win1_0.index t (0 : Fin 2) * 10000 + 1 * r.val = win1_2.index t (0 : Fin 2) * 10000 + 1 * r.val; omega
    | ⟨1, _⟩ => show win1_0.index t (1 : Fin 2) * 256 + 1 * k.val = k.val; omega
  have h1 : iblk1 V c 1 t (ix2 k q) = (V c main_arg6 : S256x128.Idx → EReal) (ix2 (n0 := 256) (n1 := 128) k ((((cfg1.win 2).blk t).view.emb (ix2 r q)) 1)) := by
    show V c main_arg6 (((cfg1.win 1).blk t).view.emb (ix2 k q)) = _
    refine congrArg _ ?_
    funext a; apply Fin.ext
    match a with
    | ⟨0, _⟩ => show win1_1.index t (0 : Fin 2) * 256 + 1 * k.val = k.val; omega
    | ⟨1, _⟩ => show win1_1.index t (1 : Fin 2) * 128 + 1 * q.val = win1_2.index t (1 : Fin 2) * 128 + 1 * q.val; omega
  rw [h0, h1]

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v28).slice (win1_2.rect t)).set ↔ _
  rw [View.set_slice_whole, Rect.mem_set_unit]
  exact Iff.rfl

/-- The five row blocks cover the result array. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The result array after the region: the product of the arrays the region finds. -/
theorem array1
    (hpay : ∀ (x : Vec Ideal S10000x256 .f32) (w : Vec Ideal S256x128 .f32) (r : Fin 10000) (q : Fin 128),
      k1_pay1 (F := Ideal) x w (ix2 r q) = ∑ k : Fin 256, x (ix2 r k) * w (ix2 k q))
    (c : Dev nD) : (dat1 (F := Ideal) V c).arrAt 2 cfg1.N = product1 V c :=
  (dat1 (F := Ideal) V c).arrAt_eq_of_cover 2 _ (fun t _ => flushed1 V hpay c t) cover1

end Cert.KernelIdeal.Regions

end
-- ==== Proof.Region2.lean ====
/-
  The third kernel region: what is left of the second layer after its matrix product has been moved before the
  aggregation — entry (p, q) of the aggregate is scaled by the destination normalisation, shifted by the bias,
  clamped below at zero and scaled by the source normalisation.  The body is pointwise in the row, so the five blocks
  written back are the restrictions of one [50000,128] array, and they tile its rows.
-/
import proofs.«180929_j77764677861851_2_alg».proof.Proof.Gen.KernelIdeal.Frame
import proofs.«180929_j77764677861851_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The second layer's epilogue on whole arrays. -/
def post2 (R : S50000x128.Idx → EReal) (I : S50000x1.Idx → EReal) (b : S1x128.Idx → EReal) (O : S50000x1.Idx → EReal) : S50000x128.Idx → EReal := fun i =>
  max (R (ix2 (n0 := 50000) (n1 := 128) (i 0) (i 1)) * I (ix2 (n0 := 50000) (n1 := 1) (i 0) 0) + b (ix2 (n0 := 1) (n1 := 128) 0 (i 1))) Cert.Spec.zeroW * O (ix2 (n0 := 50000) (n1 := 1) (i 0) 0)

/-- The index maps, decided over the five grid points: a row-tiled operand's block moves with the output's along the
    rows, a whole operand's block stays at the origin, and the output's row-block index is below five. -/
theorem idx_facts2 : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0
    ∧ win2_2.index t (1 : Fin 2) = 0
    ∧ win2_3.index t (0 : Fin 2) = win2_4.index t (0 : Fin 2)
    ∧ win2_3.index t (1 : Fin 2) = 0
    ∧ win2_4.index t (1 : Fin 2) = 0
    ∧ win2_4.index t (0 : Fin 2) ≤ 4 :=
  (by decide +kernel : ∀ t : Fin grid2.N, _)

/-- Every row block is some grid point's. -/
theorem idx_onto2 : ∀ q0 : Fin 5, ∃ t : Fin cfg2.N, win2_4.index t = ![q0.val, 0] :=
  (by decide +kernel : ∀ q0 : Fin 5, ∃ t : Fin grid2.N, win2_4.index t = ![q0.val, 0])

/-- What grid point `t` writes back is block `t` of that one array: the body's entry at a row inside the block reads
    the operands at the same row of the whole arrays. -/
theorem flushed2
    (hpay : ∀ (raw : Vec Ideal S10000x128 .f32) (i : Vec Ideal S10000x1 .f32) (b : Vec Ideal S1x128 .f32) (o : Vec Ideal S10000x1 .f32) (r : Fin 10000) (q : Fin 128),
      k2_pay1 (F := Ideal) raw i b o (ix2 r q) = max (raw (ix2 r q) * i (ix2 r 0) + b (ix2 0 q)) Cert.Spec.zeroW * o (ix2 r 0))
    (c : Dev nD) (t : Fin cfg2.N) :
    (dat2 (F := Ideal) V c).flushed 4 t = ((cfg2.win 4).blk t).view.read (Elt Ideal) (post2 (V c main_v38) (V c main_v12) (V c main_v39) (V c main_v9)) := by
  show (cfg2.win 4).cut (grid2.coords t) ((dat2 V c).after 4 t) = _
  rw [after2_4]
  unfold out2_4
  rw [View.canon_unit_zero hz2]
  simp only [View.ld_unit_zero (S := S10000x128) hz2, View.ld_unit_zero (S := S10000x1) hz2, View.ld_unit_zero (S := S1x128) hz2]
  obtain ⟨e0, e1, e2, e3, e4, e5, e6, e7, e8, e9⟩ := idx_facts2 t
  funext j
  obtain ⟨r, q, rfl⟩ : ∃ (r : Fin 10000) (q : Fin 128), j = ix2 r q := ⟨j 0, j 1, eq_ix2 j⟩
  refine (hpay _ _ _ _ r q).trans ?_
  show _ = post2 (V c main_v38) (V c main_v12) (V c main_v39) (V c main_v9) (((cfg2.win 4).blk t).view.emb (ix2 r q))
  unfold post2
  have h0 : iblk2 V c 0 t (ix2 r q) = (V c main_v38 : S50000x128.Idx → EReal) (ix2 (n0 := 50000) (n1 := 128) ((((cfg2.win 4).blk t).view.emb (ix2 r q)) 0) ((((cfg2.win 4).blk t).view.emb (ix2 r q)) 1)) := by
    show V c main_v38 (((cfg2.win 0).blk t).view.emb (ix2 r q)) = _
    refine congrArg _ ?_
    funext a; apply Fin.ext
    match a with
    | ⟨0, _⟩ => show win2_0.index t (0 : Fin 2) * 10000 + 1 * (r : Fin 10000).val = win2_4.index t (0 : Fin 2) * 10000 + 1 * r.val; first | omega | (simp only [Fin.val_zero]; omega)
    | ⟨1, _⟩ => show win2_0.index t (1 : Fin 2) * 128 + 1 * (q : Fin 128).val = win2_4.index t (1 : Fin 2) * 128 + 1 * q.val; first | omega | (simp only [Fin.val_zero]; omega)
  have h1 : iblk2 V c 1 t (ix2 r 0) = (V c main_v12 : S50000x1.Idx → EReal) (ix2 (n0 := 50000) (n1 := 1) ((((cfg2.win 4).blk t).view.emb (ix2 r q)) 0) 0) := by
    show V c main_v12 (((cfg2.win 1).blk t).view.emb (ix2 r 0)) = _
    refine congrArg _ ?_
    funext a; apply Fin.ext
    match a with
    | ⟨0, _⟩ => show win2_1.index t (0 : Fin 2) * 10000 + 1 * (r : Fin 10000).val = win2_4.index t (0 : Fin 2) * 10000 + 1 * r.val; first | omega | (simp only [Fin.val_zero]; omega)
    | ⟨1, _⟩ => show win2_1.index t (1 : Fin 2) * 1 + 1 * (0 : Fin 1).val = (0 : Fin 1).val; first | omega | (simp only [Fin.val_zero]; omega)
  have h2 : iblk2 V c 2 t (ix2 0 q) = (V c main_v39 : S1x128.Idx → EReal) (ix2 (n0 := 1) (n1 := 128) 0 ((((cfg2.win 4).blk t).view.emb (ix2 r q)) 1)) := by
    show V c main_v39 (((cfg2.win 2).blk t).view.emb (ix2 0 q)) = _
    refine congrArg _ ?_
    funext a; apply Fin.ext
    match a with
    | ⟨0, _⟩ => show win2_2.index t (0 : Fin 2) * 1 + 1 * (0 : Fin 1).val = (0 : Fin 1).val; first | omega | (simp only [Fin.val_zero]; omega)
    | ⟨1, _⟩ => show win2_2.index t (1 : Fin 2) * 128 + 1 * (q : Fin 128).val = win2_4.index t (1 : Fin 2) * 128 + 1 * q.val; first | omega | (simp only [Fin.val_zero]; omega)
  have h3 : iblk2 V c 3 t (ix2 r 0) = (V c main_v9 : S50000x1.Idx → EReal) (ix2 (n0 := 50000) (n1 := 1) ((((cfg2.win 4).blk t).view.emb (ix2 r q)) 0) 0) := by
    show V c main_v9 (((cfg2.win 3).blk t).view.emb (ix2 r 0)) = _
    refine congrArg _ ?_
    funext a; apply Fin.ext
    match a with
    | ⟨0, _⟩ => show win2_3.index t (0 : Fin 2) * 10000 + 1 * (r : Fin 10000).val = win2_4.index t (0 : Fin 2) * 10000 + 1 * r.val; first | omega | (simp only [Fin.val_zero]; omega)
    | ⟨1, _⟩ => show win2_3.index t (1 : Fin 2) * 1 + 1 * (0 : Fin 1).val = (0 : Fin 1).val; first | omega | (simp only [Fin.val_zero]; omega)
  rw [h0, h1, h2, h3]

/-- An index of the result array is in point `t`'s block iff each coordinate is in the block's range on its axis. -/
theorem mem_blk2 (t : Fin cfg2.N) (i : S50000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v40).slice (win2_4.rect t)).set ↔ _
  rw [View.set_slice_whole, Rect.mem_set_unit]
  exact Iff.rfl

/-- The five row blocks cover the result array. -/
theorem cover2 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto2 ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 128 ≤ (i 1).val ∧ (i 1).val < win2_4.index t (1 : Fin 2) * 128 + 128; omega

/-- The result array after the region. -/
theorem array2
    (hpay : ∀ (raw : Vec Ideal S10000x128 .f32) (i : Vec Ideal S10000x1 .f32) (b : Vec Ideal S1x128 .f32) (o : Vec Ideal S10000x1 .f32) (r : Fin 10000) (q : Fin 128),
      k2_pay1 (F := Ideal) raw i b o (ix2 r q) = max (raw (ix2 r q) * i (ix2 r 0) + b (ix2 0 q)) Cert.Spec.zeroW * o (ix2 r 0))
    (c : Dev nD) : (dat2 (F := Ideal) V c).arrAt 4 cfg2.N = post2 (V c main_v38) (V c main_v12) (V c main_v39) (V c main_v9) :=
  (dat2 (F := Ideal) V c).arrAt_eq_of_cover 4 _ (fun t _ => flushed2 V hpay c t) cover2

end Cert.KernelIdeal.Regions

end
-- ==== Proof.Region3.lean ====
/-
  The fourth kernel region: the dense half of the third graph-convolution layer, tiled over the rows, with the same
  body as the first layer's (its outgoing scale is a column of ones here).  Row p of the result depends only on row p
  of the row-tiled operands, so the five blocks written back are the restrictions of one [50000,128] array, and they
  tile its rows.
-/
import proofs.«180929_j77764677861851_2_alg».proof.Proof.Gen.KernelIdeal.Frame
import proofs.«180929_j77764677861851_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- A graph-convolution layer's dense half on whole arrays: entry (p, q) is the clamped affine image of row p of the
    aggregate `A` scaled by the destination normalisation `I p`, times the row's outgoing scale `O p`. -/
def conv3 (A : S50000x128.Idx → EReal) (I : S50000x1.Idx → EReal) (W : S128x128.Idx → EReal) (b : S1x128.Idx → EReal) (O : S50000x1.Idx → EReal) : S50000x128.Idx → EReal := fun i =>
  Cert.Spec.convEntry A (I (ix2 (n0 := 50000) (n1 := 1) (i 0) 0)) W (b (ix2 (n0 := 1) (n1 := 128) 0 (i 1))) (i 0) (i 1) * O (ix2 (n0 := 50000) (n1 := 1) (i 0) 0)

/-- The index maps, decided over the five grid points: a row-tiled operand's block moves with the output's along the
    rows, a whole operand's block stays at the origin, and the output's row-block index is below five. -/
theorem idx_facts3 : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = win3_5.index t (0 : Fin 2)
    ∧ win3_4.index t (1 : Fin 2) = 0
    ∧ win3_5.index t (1 : Fin 2) = 0
    ∧ win3_5.index t (0 : Fin 2) ≤ 4 :=
  (by decide +kernel : ∀ t : Fin grid3.N, _)

/-- Every row block is some grid point's. -/
theorem idx_onto3 : ∀ q0 : Fin 5, ∃ t : Fin cfg3.N, win3_5.index t = ![q0.val, 0] :=
  (by decide +kernel : ∀ q0 : Fin 5, ∃ t : Fin grid3.N, win3_5.index t = ![q0.val, 0])

set_option maxHeartbeats 1000000 in
/-- What grid point `t` writes back is block `t` of that one array: the body's entry at a row inside the block reads
    the operands at the same row of the whole arrays. -/
theorem flushed3
    (hpay : ∀ (a : Vec Ideal S10000x128 .f32) (i : Vec Ideal S10000x1 .f32) (w : Vec Ideal S128x128 .f32) (b : Vec Ideal S1x128 .f32) (o : Vec Ideal S10000x1 .f32) (r : Fin 10000) (q : Fin 128),
      k3_pay1 (F := Ideal) a i w b o (ix2 r q) = Cert.Spec.convEntry a (i (ix2 r 0)) w (b (ix2 0 q)) r q * o (ix2 r 0))
    (c : Dev nD) (t : Fin cfg3.N) :
    (dat3 (F := Ideal) V c).flushed 5 t = ((cfg3.win 5).blk t).view.read (Elt Ideal) (conv3 (V c main_v50) (V c main_v12) (V c main_arg8) (V c main_v51) (V c main_v13)) := by
  show (cfg3.win 5).cut (grid3.coords t) ((dat3 V c).after 5 t) = _
  rw [after3_5]
  unfold out3_5
  rw [View.canon_unit_zero hz3]
  simp only [View.ld_unit_zero (S := S10000x128) hz3, View.ld_unit_zero (S := S10000x1) hz3, View.ld_unit_zero (S := S128x128) hz3, View.ld_unit_zero (S := S1x128) hz3]
  obtain ⟨e0, e1, e2, e3, e4, e5, e6, e7, e8, e9, e10, e11⟩ := idx_facts3 t
  funext j
  obtain ⟨r, q, rfl⟩ : ∃ (r : Fin 10000) (q : Fin 128), j = ix2 r q := ⟨j 0, j 1, eq_ix2 j⟩
  refine (hpay _ _ _ _ _ r q).trans ?_
  show _ = conv3 (V c main_v50) (V c main_v12) (V c main_arg8) (V c main_v51) (V c main_v13) (((cfg3.win 5).blk t).view.emb (ix2 r q))
  unfold conv3 Cert.Spec.convEntry
  have h0 : ∀ k : Fin 128, iblk3 V c 0 t (ix2 r k) = (V c main_v50 : S50000x128.Idx → EReal) (ix2 (n0 := 50000) (n1 := 128) ((((cfg3.win 5).blk t).view.emb (ix2 r q)) 0) k) := by
    intro k
    show V c main_v50 (((cfg3.win 0).blk t).view.emb (ix2 r k)) = _
    refine congrArg _ ?_
    funext a; apply Fin.ext
    match a with
    | ⟨0, _⟩ => show win3_0.index t (0 : Fin 2) * 10000 + 1 * (r : Fin 10000).val = win3_5.index t (0 : Fin 2) * 10000 + 1 * r.val; first | omega | (simp only [Fin.val_zero]; omega)
    | ⟨1, _⟩ => show win3_0.index t (1 : Fin 2) * 128 + 1 * (k : Fin 128).val = (k : Fin 128).val; first | omega | (simp only [Fin.val_zero]; omega)
  have h1 : iblk3 V c 1 t (ix2 r 0) = (V c main_v12 : S50000x1.Idx → EReal) (ix2 (n0 := 50000) (n1 := 1) ((((cfg3.win 5).blk t).view.emb (ix2 r q)) 0) 0) := by
    show V c main_v12 (((cfg3.win 1).blk t).view.emb (ix2 r 0)) = _
    refine congrArg _ ?_
    funext a; apply Fin.ext
    match a with
    | ⟨0, _⟩ => show win3_1.index t (0 : Fin 2) * 10000 + 1 * (r : Fin 10000).val = win3_5.index t (0 : Fin 2) * 10000 + 1 * r.val; first | omega | (simp only [Fin.val_zero]; omega)
    | ⟨1, _⟩ => show win3_1.index t (1 : Fin 2) * 1 + 1 * (0 : Fin 1).val = (0 : Fin 1).val; first | omega | (simp only [Fin.val_zero]; omega)
  have h2 : ∀ k : Fin 128, iblk3 V c 2 t (ix2 k q) = (V c main_arg8 : S128x128.Idx → EReal) (ix2 (n0 := 128) (n1 := 128) k ((((cfg3.win 5).blk t).view.emb (ix2 r q)) 1)) := by
    intro k
    show V c main_arg8 (((cfg3.win 2).blk t).view.emb (ix2 k q)) = _
    refine congrArg _ ?_
    funext a; apply Fin.ext
    match a with
    | ⟨0, _⟩ => show win3_2.index t (0 : Fin 2) * 128 + 1 * (k : Fin 128).val = (k : Fin 128).val; first | omega | (simp only [Fin.val_zero]; omega)
    | ⟨1, _⟩ => show win3_2.index t (1 : Fin 2) * 128 + 1 * (q : Fin 128).val = win3_5.index t (1 : Fin 2) * 128 + 1 * q.val; first | omega | (simp only [Fin.val_zero]; omega)
  have h3 : iblk3 V c 3 t (ix2 0 q) = (V c main_v51 : S1x128.Idx → EReal) (ix2 (n0 := 1) (n1 := 128) 0 ((((cfg3.win 5).blk t).view.emb (ix2 r q)) 1)) := by
    show V c main_v51 (((cfg3.win 3).blk t).view.emb (ix2 0 q)) = _
    refine congrArg _ ?_
    funext a; apply Fin.ext
    match a with
    | ⟨0, _⟩ => show win3_3.index t (0 : Fin 2) * 1 + 1 * (0 : Fin 1).val = (0 : Fin 1).val; first | omega | (simp only [Fin.val_zero]; omega)
    | ⟨1, _⟩ => show win3_3.index t (1 : Fin 2) * 128 + 1 * (q : Fin 128).val = win3_5.index t (1 : Fin 2) * 128 + 1 * q.val; first | omega | (simp only [Fin.val_zero]; omega)
  have h4 : iblk3 V c 4 t (ix2 r 0) = (V c main_v13 : S50000x1.Idx → EReal) (ix2 (n0 := 50000) (n1 := 1) ((((cfg3.win 5).blk t).view.emb (ix2 r q)) 0) 0) := by
    show V c main_v13 (((cfg3.win 4).blk t).view.emb (ix2 r 0)) = _
    refine congrArg _ ?_
    funext a; apply Fin.ext
    match a with
    | ⟨0, _⟩ => show win3_4.index t (0 : Fin 2) * 10000 + 1 * (r : Fin 10000).val = win3_5.index t (0 : Fin 2) * 10000 + 1 * r.val; first | omega | (simp only [Fin.val_zero]; omega)
    | ⟨1, _⟩ => show win3_4.index t (1 : Fin 2) * 1 + 1 * (0 : Fin 1).val = (0 : Fin 1).val; first | omega | (simp only [Fin.val_zero]; omega)
  rw [h1, h3, h4]
  simp only [h0, h2]

/-- An index of the result array is in point `t`'s block iff each coordinate is in the block's range on its axis. -/
theorem mem_blk3 (t : Fin cfg3.N) (i : S50000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v52).slice (win3_5.rect t)).set ↔ _
  rw [View.set_slice_whole, Rect.mem_set_unit]
  exact Iff.rfl

/-- The five row blocks cover the result array. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := idx_onto3 ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 128 ≤ (i 1).val ∧ (i 1).val < win3_5.index t (1 : Fin 2) * 128 + 128; omega

/-- The result array after the region. -/
theorem array3
    (hpay : ∀ (a : Vec Ideal S10000x128 .f32) (i : Vec Ideal S10000x1 .f32) (w : Vec Ideal S128x128 .f32) (b : Vec Ideal S1x128 .f32) (o : Vec Ideal S10000x1 .f32) (r : Fin 10000) (q : Fin 128),
      k3_pay1 (F := Ideal) a i w b o (ix2 r q) = Cert.Spec.convEntry a (i (ix2 r 0)) w (b (ix2 0 q)) r q * o (ix2 r 0))
    (c : Dev nD) : (dat3 (F := Ideal) V c).arrAt 5 cfg3.N = conv3 (V c main_v50) (V c main_v12) (V c main_arg8) (V c main_v51) (V c main_v13) :=
  (dat3 (F := Ideal) V c).arrAt_eq_of_cover 5 _ (fun t _ => flushed3 V hpay c t) cover3

end Cert.KernelIdeal.Regions

end
-- ==== Proof.Region4.lean ====
/-
  The last kernel region: the classification head, run at ONE grid point.  Every window's block is its whole
  array (all index maps are (0, 0)), so the blocks the body reads are the arrays the region finds, and the one
  block it writes back is the whole result array: the body's stored value of those seven arrays.
-/
import proofs.«180929_j77764677861851_2_alg».proof.Proof.Gen.KernelIdeal.Frame
import proofs.«180929_j77764677861851_2_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The whole-array function region 4 leaves in its output: the body's stored value of the seven arrays the
    region finds. -/
def stored4 (c : Dev nD) : S128x10.Idx → EReal :=
  k4_pay1 (F := Ideal) (k4_pay2 (F := Ideal) (V c main_v55) (V c main_v56) (V c main_v57) (V c main_arg10)
    (V c main_v58) (V c main_arg12)) (V c main_v59)

/-- The index maps, decided over the one grid point: every window's block sits at the origin on both axes. -/
theorem idx_facts4 : ∀ (t : Fin cfg4.N) (a : Fin 2), win4_0.index t a = 0 ∧ win4_1.index t a = 0 ∧ win4_2.index t a = 0
    ∧ win4_3.index t a = 0 ∧ win4_4.index t a = 0 ∧ win4_5.index t a = 0 ∧ win4_6.index t a = 0 ∧ win4_7.index t a = 0 :=
  (by decide +kernel : ∀ (t : Fin grid4.N) (a : Fin 2), _)

/-- Window 0's block at the one grid point is the whole array the region finds. -/
theorem iblk4_0 (c : Dev nD) (t : Fin cfg4.N) : (iblk4 V c 0 t : S128x128.Idx → EReal) = V c main_v55 := by
  funext y
  show V c main_v55 (((cfg4.win 0).blk t).view.emb y) = V c main_v55 y
  refine congrArg _ ?_
  funext a; apply Fin.ext
  have e0 := (idx_facts4 t 0).1
  have e1 := (idx_facts4 t 1).1
  match a with
  | ⟨0, _⟩ => show win4_0.index t (0 : Fin 2) * 128 + 1 * (y 0).val = (y 0).val; omega
  | ⟨1, _⟩ => show win4_0.index t (1 : Fin 2) * 128 + 1 * (y 1).val = (y 1).val; omega

/-- Window 1's block at the one grid point is the whole array the region finds. -/
theorem iblk4_1 (c : Dev nD) (t : Fin cfg4.N) : (iblk4 V c 1 t : S1x128.Idx → EReal) = V c main_v56 := by
  funext y
  show V c main_v56 (((cfg4.win 1).blk t).view.emb y) = V c main_v56 y
  refine congrArg _ ?_
  funext a; apply Fin.ext
  have e0 := (idx_facts4 t 0).2.1
  have e1 := (idx_facts4 t 1).2.1
  match a with
  | ⟨0, _⟩ => show win4_1.index t (0 : Fin 2) * 1 + 1 * (y 0).val = (y 0).val; omega
  | ⟨1, _⟩ => show win4_1.index t (1 : Fin 2) * 128 + 1 * (y 1).val = (y 1).val; omega

/-- Window 2's block at the one grid point is the whole array the region finds. -/
theorem iblk4_2 (c : Dev nD) (t : Fin cfg4.N) : (iblk4 V c 2 t : S1x128.Idx → EReal) = V c main_v57 := by
  funext y
  show V c main_v57 (((cfg4.win 2).blk t).view.emb y) = V c main_v57 y
  refine congrArg _ ?_
  funext a; apply Fin.ext
  have e0 := (idx_facts4 t 0).2.2.1
  have e1 := (idx_facts4 t 1).2.2.1
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- Window 3's block at the one grid point is the whole array the region finds. -/
theorem iblk4_3 (c : Dev nD) (t : Fin cfg4.N) : (iblk4 V c 3 t : S128x128.Idx → EReal) = V c main_arg10 := by
  funext y
  show V c main_arg10 (((cfg4.win 3).blk t).view.emb y) = V c main_arg10 y
  refine congrArg _ ?_
  funext a; apply Fin.ext
  have e0 := (idx_facts4 t 0).2.2.2.1
  have e1 := (idx_facts4 t 1).2.2.2.1
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- Window 4's block at the one grid point is the whole array the region finds. -/
theorem iblk4_4 (c : Dev nD) (t : Fin cfg4.N) : (iblk4 V c 4 t : S1x128.Idx → EReal) = V c main_v58 := by
  funext y
  show V c main_v58 (((cfg4.win 4).blk t).view.emb y) = V c main_v58 y
  refine congrArg _ ?_
  funext a; apply Fin.ext
  have e0 := (idx_facts4 t 0).2.2.2.2.1
  have e1 := (idx_facts4 t 1).2.2.2.2.1
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Window 5's block at the one grid point is the whole array the region finds. -/
theorem iblk4_5 (c : Dev nD) (t : Fin cfg4.N) : (iblk4 V c 5 t : S128x10.Idx → EReal) = V c main_arg12 := by
  funext y
  show V c main_arg12 (((cfg4.win 5).blk t).view.emb y) = V c main_arg12 y
  refine congrArg _ ?_
  funext a; apply Fin.ext
  have e0 := (idx_facts4 t 0).2.2.2.2.2.1
  have e1 := (idx_facts4 t 1).2.2.2.2.2.1
  match a with
  | ⟨0, _⟩ => show win4_5.index t (0 : Fin 2) * 128 + 1 * (y 0).val = (y 0).val; omega
  | ⟨1, _⟩ => show win4_5.index t (1 : Fin 2) * 10 + 1 * (y 1).val = (y 1).val; omega

/-- Window 6's block at the one grid point is the whole array the region finds. -/
theorem iblk4_6 (c : Dev nD) (t : Fin cfg4.N) : (iblk4 V c 6 t : S1x10.Idx → EReal) = V c main_v59 := by
  funext y
  show V c main_v59 (((cfg4.win 6).blk t).view.emb y) = V c main_v59 y
  refine congrArg _ ?_
  funext a; apply Fin.ext
  have e0 := (idx_facts4 t 0).2.2.2.2.2.2.1
  have e1 := (idx_facts4 t 1).2.2.2.2.2.2.1
  match a with
  | ⟨0, _⟩ => show win4_6.index t (0 : Fin 2) * 1 + 1 * (y 0).val = (y 0).val; omega
  | ⟨1, _⟩ => show win4_6.index t (1 : Fin 2) * 10 + 1 * (y 1).val = (y 1).val; omega

/-- The output window's block at the one grid point reads a whole-array function as itself. -/
theorem read4_7 (G : S128x10.Idx → EReal) (t : Fin cfg4.N) :
    (((cfg4.win 7).blk t).view.read (Elt Ideal) G : S128x10.Idx → EReal) = G := by
  funext y
  show G (((cfg4.win 7).blk t).view.emb y) = G y
  refine congrArg _ ?_
  funext a; apply Fin.ext
  have e0 := (idx_facts4 t 0).2.2.2.2.2.2.2
  have e1 := (idx_facts4 t 1).2.2.2.2.2.2.2
  match a with
  | ⟨0, _⟩ => show win4_7.index t (0 : Fin 2) * 128 + 1 * (y 0).val = (y 0).val; omega
  | ⟨1, _⟩ => show win4_7.index t (1 : Fin 2) * 10 + 1 * (y 1).val = (y 1).val; omega

/-- What the grid point writes back is its block of the stored value. -/
theorem flushed4 (c : Dev nD) (t : Fin cfg4.N) :
    (dat4 (F := Ideal) V c).flushed 7 t = ((cfg4.win 7).blk t).view.read (Elt Ideal) (stored4 V c) := by
  show (cfg4.win 7).cut (grid4.coords t) ((dat4 V c).after 7 t) = _
  rw [after4_7]
  unfold out4_7
  rw [View.canon_unit_zero hz4]
  simp only [View.ld_unit_zero (S := S128x128) hz4, View.ld_unit_zero (S := S1x128) hz4,
    View.ld_unit_zero (S := S128x10) hz4, View.ld_unit_zero (S := S1x10) hz4]
  rw [iblk4_0 V c t, iblk4_1 V c t, iblk4_2 V c t, iblk4_3 V c t, iblk4_4 V c t, iblk4_5 V c t, iblk4_6 V c t,
    read4_7 (stored4 V c) t]
  rfl

/-- An index of the result array is in point `t`'s block iff each coordinate is in the block's range on its axis. -/
theorem mem_blk4 (t : Fin cfg4.N) (i : S128x10.Idx) :
    i ∈ ((cfg4.win 7).blk t).view.set ↔ ∀ a : Fin 2, win4_7.index t a * S128x10.size a ≤ (i a).val ∧ (i a).val < win4_7.index t a * S128x10.size a + S128x10.size a := by
  show i ∈ ((View.whole main_v60).slice (win4_7.rect t)).set ↔ _
  rw [View.set_slice_whole, Rect.mem_set_unit]
  exact Iff.rfl

/-- The one grid point's block covers the result array. -/
theorem cover4 (i : S128x10.Idx) : ∃ t : Fin cfg4.N, (cfg4.win 7).flush t = true ∧ i ∈ ((cfg4.win 7).blk t).view.set := by
  have hi0 : (i 0).val < 128 := (i 0).isLt
  have hi1 : (i 1).val < 10 := (i 1).isLt
  have q0 : win4_7.index t4_0 (0 : Fin 2) = 0 := (idx_facts4 t4_0 0).2.2.2.2.2.2.2
  have q1 : win4_7.index t4_0 (1 : Fin 2) = 0 := (idx_facts4 t4_0 1).2.2.2.2.2.2.2
  refine ⟨t4_0, flush4_7 t4_0, ?_⟩
  rw [mem_blk4]
  intro a
  match a with
  | ⟨0, _⟩ => show win4_7.index t4_0 (0 : Fin 2) * 128 ≤ (i 0).val ∧ (i 0).val < win4_7.index t4_0 (0 : Fin 2) * 128 + 128; omega
  | ⟨1, _⟩ => show win4_7.index t4_0 (1 : Fin 2) * 10 ≤ (i 1).val ∧ (i 1).val < win4_7.index t4_0 (1 : Fin 2) * 10 + 10; omega

/-- What the last region leaves in its output array: the body's stored value of the seven arrays the region finds. -/
theorem array4 (c : Dev nD) : (dat4 (F := Ideal) V c).arrAt 7 cfg4.N
    = k4_pay1 (F := Ideal) (k4_pay2 (F := Ideal) (V c main_v55) (V c main_v56) (V c main_v57) (V c main_arg10)
        (V c main_v58) (V c main_arg12)) (V c main_v59) :=
  (dat4 (F := Ideal) V c).arrAt_eq_of_cover 7 (stored4 V c) (fun t _ => flushed4 V c t) cover4

end Cert.KernelIdeal.Regions

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.KernelEntries.lean ====
/-
  The four row-block kernel bodies, read at one entry.

  Each body stores one array computed from the arrays it loaded.  Read at an entry (r, q) that stored value is
  a closed expression in the loaded arrays' entries: a dense layer of the row-scaled aggregate, clamped below
  at zero and scaled by the row's outgoing normalisation (the two convolution bodies); a plain matrix product
  (the second body); the scaled, shifted, clamped and re-scaled entry (the third body).
-/
import proofs.«180929_j77764677861851_2_alg».proof.Proof.Gen.KernelIdeal.Skeleton
import proofs.«180929_j77764677861851_2_alg».proof.Proof.Spec
import proofs.«180929_j77764677861851_2_alg».proof.Proof.LibMatmulAt
import proofs.«180929_j77764677861851_2_alg».proof.Proof.LibColBroadcast
import Idealize.ShloMosaic.Lib.ValueIdx
import Idealize.ShloMosaic.Lib.Pipeline.Value
import Idealize.ShloMosaic.Lib.ValueLayout
import Idealize.ShloMosaic.PureOps.Ideal.Laws

noncomputable section

namespace Cert.KernelEntries

open Idealize.ShloMosaic Idealize.ShloMosaic.ValueIdx
open Cert.KernelIdeal Cert.KernelIdeal.Gen
open Idealize.ShloMosaic.MatmulAt Cert.LibColBroadcast

/-! ### Where the two operand indices of the 10000x128 by 128x256 product sit -/

/-- The left operand's index reads the result's row on its first axis. -/
theorem lhs0_c256 (i : S10000x256.Idx) (q : dot_S10000x128_S128x256_S10000x256_1_0_0_1_n_n.contr.Idx) :
    (dot_S10000x128_S128x256_S10000x256_1_0_0_1_n_n.lhsIdx i q (0 : Fin 2)).val = (i (0 : Fin 2)).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
/-- The left operand's index reads the contraction position on its second axis. -/
theorem lhs1_c256 (i : S10000x256.Idx) (q : dot_S10000x128_S128x256_S10000x256_1_0_0_1_n_n.contr.Idx) :
    (dot_S10000x128_S128x256_S10000x256_1_0_0_1_n_n.lhsIdx i q (1 : Fin 2)).val = (q ⟨0, by decide⟩).val :=
  dot_S10000x128_S128x256_S10000x256_1_0_0_1_n_n.lhsIdx_val_of_single rfl i q
/-- The right operand's index reads the contraction position on its first axis. -/
theorem rhs0_c256 (i : S10000x256.Idx) (q : dot_S10000x128_S128x256_S10000x256_1_0_0_1_n_n.contr.Idx) :
    (dot_S10000x128_S128x256_S10000x256_1_0_0_1_n_n.rhsIdx i q (0 : Fin 2)).val = (q ⟨0, by decide⟩).val :=
  dot_S10000x128_S128x256_S10000x256_1_0_0_1_n_n.rhsIdx_val_of_single rfl i q
/-- The right operand's index reads the result's column on its second axis. -/
theorem rhs1_c256 (i : S10000x256.Idx) (q : dot_S10000x128_S128x256_S10000x256_1_0_0_1_n_n.contr.Idx) :
    (dot_S10000x128_S128x256_S10000x256_1_0_0_1_n_n.rhsIdx i q (1 : Fin 2)).val = (i (1 : Fin 2)).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-! ### Where the two operand indices of the 10000x256 by 256x128 product sit -/

/-- The left operand's index reads the result's row on its first axis. -/
theorem lhs0_mm (i : S10000x128.Idx) (q : dot_S10000x256_S256x128_S10000x128_1_0_0_1_n_n.contr.Idx) :
    (dot_S10000x256_S256x128_S10000x128_1_0_0_1_n_n.lhsIdx i q (0 : Fin 2)).val = (i (0 : Fin 2)).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
/-- The left operand's index reads the contraction position on its second axis. -/
theorem lhs1_mm (i : S10000x128.Idx) (q : dot_S10000x256_S256x128_S10000x128_1_0_0_1_n_n.contr.Idx) :
    (dot_S10000x256_S256x128_S10000x128_1_0_0_1_n_n.lhsIdx i q (1 : Fin 2)).val = (q ⟨0, by decide⟩).val :=
  dot_S10000x256_S256x128_S10000x128_1_0_0_1_n_n.lhsIdx_val_of_single rfl i q
/-- The right operand's index reads the contraction position on its first axis. -/
theorem rhs0_mm (i : S10000x128.Idx) (q : dot_S10000x256_S256x128_S10000x128_1_0_0_1_n_n.contr.Idx) :
    (dot_S10000x256_S256x128_S10000x128_1_0_0_1_n_n.rhsIdx i q (0 : Fin 2)).val = (q ⟨0, by decide⟩).val :=
  dot_S10000x256_S256x128_S10000x128_1_0_0_1_n_n.rhsIdx_val_of_single rfl i q
/-- The right operand's index reads the result's column on its second axis. -/
theorem rhs1_mm (i : S10000x128.Idx) (q : dot_S10000x256_S256x128_S10000x128_1_0_0_1_n_n.contr.Idx) :
    (dot_S10000x256_S256x128_S10000x128_1_0_0_1_n_n.rhsIdx i q (1 : Fin 2)).val = (i (1 : Fin 2)).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-! ### Where the two operand indices of the 10000x128 by 128x128 product sit -/

/-- The left operand's index reads the result's row on its first axis. -/
theorem lhs0_c128 (i : S10000x128.Idx) (q : dot_S10000x128_S128x128_S10000x128_1_0_0_1_n_n.contr.Idx) :
    (dot_S10000x128_S128x128_S10000x128_1_0_0_1_n_n.lhsIdx i q (0 : Fin 2)).val = (i (0 : Fin 2)).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's index reads the contraction position on its second axis. -/
theorem lhs1_c128 (i : S10000x128.Idx) (q : dot_S10000x128_S128x128_S10000x128_1_0_0_1_n_n.contr.Idx) :
    (dot_S10000x128_S128x128_S10000x128_1_0_0_1_n_n.lhsIdx i q (1 : Fin 2)).val = (q ⟨0, by decide⟩).val :=
  dot_S10000x128_S128x128_S10000x128_1_0_0_1_n_n.lhsIdx_val_of_single rfl i q
/-- The right operand's index reads the contraction position on its first axis. -/
theorem rhs0_c128 (i : S10000x128.Idx) (q : dot_S10000x128_S128x128_S10000x128_1_0_0_1_n_n.contr.Idx) :
    (dot_S10000x128_S128x128_S10000x128_1_0_0_1_n_n.rhsIdx i q (0 : Fin 2)).val = (q ⟨0, by decide⟩).val :=
  dot_S10000x128_S128x128_S10000x128_1_0_0_1_n_n.rhsIdx_val_of_single rfl i q
/-- The right operand's index reads the result's column on its second axis. -/
theorem rhs1_c128 (i : S10000x128.Idx) (q : dot_S10000x128_S128x128_S10000x128_1_0_0_1_n_n.contr.Idx) :
    (dot_S10000x128_S128x128_S10000x128_1_0_0_1_n_n.rhsIdx i q (1 : Fin 2)).val = (i (1 : Fin 2)).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The first body's stored value at (r, q): the dense layer of the row-scaled aggregate, clamped below at zero,
    times the row's outgoing normalisation. -/
theorem conv256_entry (a : Vec Ideal S10000x128 .f32) (i : Vec Ideal S10000x1 .f32) (w : Vec Ideal S128x256 .f32)
    (b : Vec Ideal S1x256 .f32) (o : Vec Ideal S10000x1 .f32) (r : Fin 10000) (q : Fin 256) :
    k0_pay1 (F := Ideal) a i w b o (ix2 r q)
      = Cert.Spec.convEntry a (i (ix2 r 0)) w (b (ix2 0 q)) r q * o (ix2 r 0) := by
  have e2 : broadcastTo S10000x256 b broadcasts_S1x256_S10000x256 (ix2 r q) = b (ix2 0 q) :=
    broadcastTo_1b_ab_apply b _ r q
  have e3 : broadcastTo S10000x256 o broadcasts_S10000x1_S10000x256 (ix2 r q) = o (ix2 r 0) :=
    broadcastTo_a1_ab_apply o _ r q
  have em : matmul (F := Ideal) (φ₁ := .f32) (φ₂ := .f32) dot_S10000x128_S128x256_S10000x256_1_0_0_1_n_n none (mulf (F := Ideal) (φ := .f32) a (broadcastTo S10000x128 i broadcasts_S10000x1_S10000x128)) w
      (constant S10000x256 .f32 0x00000000#32) (ix2 r q)
      = ∑ k : Fin 128, (a (ix2 r k) * i (ix2 r 0)) * w (ix2 k q) := by
    refine (matmul_zero_ix2 dot_S10000x128_S128x256_S10000x256_1_0_0_1_n_n rfl rfl lhs0_c256 lhs1_c256 rhs0_c256 rhs1_c256 none
      (mulf (F := Ideal) (φ := .f32) a (broadcastTo S10000x128 i broadcasts_S10000x1_S10000x128)) w r q).trans ?_
    refine Finset.sum_congr rfl fun k _ => ?_
    show (a (ix2 r k) * broadcastTo S10000x128 i broadcasts_S10000x1_S10000x128 (ix2 r k)) * w (ix2 k q) = _
    rw [broadcastTo_a1_ab_apply i _ r k]
  unfold k0_pay1
  simp only [shapeCast_self]
  show max (matmul (F := Ideal) (φ₁ := .f32) (φ₂ := .f32) dot_S10000x128_S128x256_S10000x256_1_0_0_1_n_n none (mulf (F := Ideal) (φ := .f32) a (broadcastTo S10000x128 i broadcasts_S10000x1_S10000x128)) w
      (constant S10000x256 .f32 0x00000000#32) (ix2 r q)
      + broadcastTo S10000x256 b broadcasts_S1x256_S10000x256 (ix2 r q)) Cert.Spec.zeroW
      * broadcastTo S10000x256 o broadcasts_S10000x1_S10000x256 (ix2 r q) = _
  rw [em, e2, e3]
  rfl

/-- The second body's stored value at (r, q): the sum over k of x (r, k) · w (k, q). -/
theorem matmul_entry (x : Vec Ideal S10000x256 .f32) (w : Vec Ideal S256x128 .f32) (r : Fin 10000) (q : Fin 128) :
    k1_pay1 (F := Ideal) x w (ix2 r q) = ∑ k : Fin 256, x (ix2 r k) * w (ix2 k q) := by
  unfold k1_pay1
  rw [shapeCast_self]
  exact matmul_zero_ix2 dot_S10000x256_S256x128_S10000x128_1_0_0_1_n_n rfl rfl lhs0_mm lhs1_mm rhs0_mm rhs1_mm none x w r q

/-- The third body's stored value at (r, q): the entry scaled by the row's incoming normalisation, shifted by the
    bias, clamped below at zero and scaled by the row's outgoing normalisation. -/
theorem postagg_entry (raw : Vec Ideal S10000x128 .f32) (i : Vec Ideal S10000x1 .f32) (b : Vec Ideal S1x128 .f32)
    (o : Vec Ideal S10000x1 .f32) (r : Fin 10000) (q : Fin 128) :
    k2_pay1 (F := Ideal) raw i b o (ix2 r q)
      = max (raw (ix2 r q) * i (ix2 r 0) + b (ix2 0 q)) Cert.Spec.zeroW * o (ix2 r 0) := by
  have e1 : broadcastTo S10000x128 i broadcasts_S10000x1_S10000x128 (ix2 r q) = i (ix2 r 0) :=
    broadcastTo_a1_ab_apply i _ r q
  have e2 : broadcastTo S10000x128 b broadcasts_S1x128_S10000x128 (ix2 r q) = b (ix2 0 q) :=
    broadcastTo_1b_ab_apply b _ r q
  have e3 : broadcastTo S10000x128 o broadcasts_S10000x1_S10000x128 (ix2 r q) = o (ix2 r 0) :=
    broadcastTo_a1_ab_apply o _ r q
  unfold k2_pay1
  simp only [shapeCast_self]
  show max (raw (ix2 r q) * broadcastTo S10000x128 i broadcasts_S10000x1_S10000x128 (ix2 r q)
      + broadcastTo S10000x128 b broadcasts_S1x128_S10000x128 (ix2 r q)) Cert.Spec.zeroW
      * broadcastTo S10000x128 o broadcasts_S10000x1_S10000x128 (ix2 r q) = _
  rw [e1, e2, e3]

/-- The fourth body's stored value at (r, q): the dense layer of the row-scaled aggregate, clamped below at zero,
    times the row's outgoing normalisation. -/
theorem conv128_entry (a : Vec Ideal S10000x128 .f32) (i : Vec Ideal S10000x1 .f32) (w : Vec Ideal S128x128 .f32)
    (b : Vec Ideal S1x128 .f32) (o : Vec Ideal S10000x1 .f32) (r : Fin 10000) (q : Fin 128) :
    k3_pay1 (F := Ideal) a i w b o (ix2 r q)
      = Cert.Spec.convEntry a (i (ix2 r 0)) w (b (ix2 0 q)) r q * o (ix2 r 0) := by
  have e2 : broadcastTo S10000x128 b broadcasts_S1x128_S10000x128 (ix2 r q) = b (ix2 0 q) :=
    broadcastTo_1b_ab_apply b _ r q
  have e3 : broadcastTo S10000x128 o broadcasts_S10000x1_S10000x128 (ix2 r q) = o (ix2 r 0) :=
    broadcastTo_a1_ab_apply o _ r q
  have em : matmul (F := Ideal) (φ₁ := .f32) (φ₂ := .f32) dot_S10000x128_S128x128_S10000x128_1_0_0_1_n_n none (mulf (F := Ideal) (φ := .f32) a (broadcastTo S10000x128 i broadcasts_S10000x1_S10000x128)) w
      (constant S10000x128 .f32 0x00000000#32) (ix2 r q)
      = ∑ k : Fin 128, (a (ix2 r k) * i (ix2 r 0)) * w (ix2 k q) := by
    refine (matmul_zero_ix2 dot_S10000x128_S128x128_S10000x128_1_0_0_1_n_n rfl rfl lhs0_c128 lhs1_c128 rhs0_c128 rhs1_c128 none
      (mulf (F := Ideal) (φ := .f32) a (broadcastTo S10000x128 i broadcasts_S10000x1_S10000x128)) w r q).trans ?_
    refine Finset.sum_congr rfl fun k _ => ?_
    show (a (ix2 r k) * broadcastTo S10000x128 i broadcasts_S10000x1_S10000x128 (ix2 r k)) * w (ix2 k q) = _
    rw [broadcastTo_a1_ab_apply i _ r k]
  unfold k3_pay1
  simp only [shapeCast_self]
  show max (matmul (F := Ideal) (φ₁ := .f32) (φ₂ := .f32) dot_S10000x128_S128x128_S10000x128_1_0_0_1_n_n none (mulf (F := Ideal) (φ := .f32) a (broadcastTo S10000x128 i broadcasts_S10000x1_S10000x128)) w
      (constant S10000x128 .f32 0x00000000#32) (ix2 r q)
      + broadcastTo S10000x128 b broadcasts_S1x128_S10000x128 (ix2 r q)) Cert.Spec.zeroW
      * broadcastTo S10000x128 o broadcasts_S10000x1_S10000x128 (ix2 r q) = _
  rw [em, e2, e3]
  rfl

end Cert.KernelEntries

end
-- ==== Proof.HostChain.lean ====
/-
  The idealized kernel program's values, boundary by boundary.  The program alternates host stretches and kernel
  regions; at each boundary every buffer a later region reads is named here as a term of the sixteen argument
  arrays: the argument buffers themselves are never written; the two normalisation columns and the column of ones
  are carried unchanged from the first stretch to the regions that read them; each region leaves in its output
  the whole-array function of what it finds (the five region theorems), and each later stretch aggregates or pools
  that.  The last two theorems name the program's two results.
-/
import proofs.«180929_j77764677861851_2_alg».proof.Proof.Stretches
import proofs.«180929_j77764677861851_2_alg».proof.Proof.Region0
import proofs.«180929_j77764677861851_2_alg».proof.Proof.Region1
import proofs.«180929_j77764677861851_2_alg».proof.Proof.Region2
import proofs.«180929_j77764677861851_2_alg».proof.Proof.Region3
import proofs.«180929_j77764677861851_2_alg».proof.Proof.Region4
import proofs.«180929_j77764677861851_2_alg».proof.Proof.KernelEntries

set_option maxRecDepth 16384
set_option maxHeartbeats 1000000

noncomputable section

namespace Cert.KernelIdeal.Chain

open Cert.KernelIdeal Cert.KernelIdeal.Gen
open Idealize.ShloMosaic Idealize.ShloMosaic.TcCoe Idealize.SL.Sem Idealize.ShloMosaic.StableHlo

/-- A host stretch leaves alone a buffer none of its operations writes. -/
macro "not_written" ops:ident : tactic => `(tactic| exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg)

/-! ## The argument buffers hold the launched arrays at every boundary where they are read -/

theorem W4_arg0 (c : Dev nD) : W4 (F := Ideal) m ρ c (Proc.devRef .tc main_arg0) = m ((c : Thread nD τ).loc main_arg0) :=
  ((((show W4 (F := Ideal) m ρ c (Proc.devRef .tc main_arg0) = W3 (F := Ideal) m ρ c (Proc.devRef .tc main_arg0) from by show StableHlo.after hostOps0_3 (W3 (F := Ideal) m ρ c) (Proc.devRef .tc main_arg0) = W3 m ρ c (Proc.devRef .tc main_arg0); not_written hostOps0_3).trans (show W3 (F := Ideal) m ρ c (Proc.devRef .tc main_arg0) = W2 (F := Ideal) m ρ c (Proc.devRef .tc main_arg0) from by show StableHlo.after hostOps0_2 (W2 (F := Ideal) m ρ c) (Proc.devRef .tc main_arg0) = W2 m ρ c (Proc.devRef .tc main_arg0); not_written hostOps0_2)).trans (show W2 (F := Ideal) m ρ c (Proc.devRef .tc main_arg0) = W1 (F := Ideal) m ρ c (Proc.devRef .tc main_arg0) from by show StableHlo.after hostOps0_1 (W1 (F := Ideal) m ρ c) (Proc.devRef .tc main_arg0) = W1 m ρ c (Proc.devRef .tc main_arg0); not_written hostOps0_1)).trans (show W1 (F := Ideal) m ρ c (Proc.devRef .tc main_arg0) = W0 (F := Ideal) m ρ c (Proc.devRef .tc main_arg0) from by show StableHlo.after hostOps0 (W0 (F := Ideal) m ρ c) (Proc.devRef .tc main_arg0) = W0 m ρ c (Proc.devRef .tc main_arg0); not_written hostOps0)).trans rfl
theorem W4_arg1 (c : Dev nD) : W4 (F := Ideal) m ρ c (Proc.devRef .tc main_arg1) = m ((c : Thread nD τ).loc main_arg1) :=
  ((((show W4 (F := Ideal) m ρ c (Proc.devRef .tc main_arg1) = W3 (F := Ideal) m ρ c (Proc.devRef .tc main_arg1) from by show StableHlo.after hostOps0_3 (W3 (F := Ideal) m ρ c) (Proc.devRef .tc main_arg1) = W3 m ρ c (Proc.devRef .tc main_arg1); not_written hostOps0_3).trans (show W3 (F := Ideal) m ρ c (Proc.devRef .tc main_arg1) = W2 (F := Ideal) m ρ c (Proc.devRef .tc main_arg1) from by show StableHlo.after hostOps0_2 (W2 (F := Ideal) m ρ c) (Proc.devRef .tc main_arg1) = W2 m ρ c (Proc.devRef .tc main_arg1); not_written hostOps0_2)).trans (show W2 (F := Ideal) m ρ c (Proc.devRef .tc main_arg1) = W1 (F := Ideal) m ρ c (Proc.devRef .tc main_arg1) from by show StableHlo.after hostOps0_1 (W1 (F := Ideal) m ρ c) (Proc.devRef .tc main_arg1) = W1 m ρ c (Proc.devRef .tc main_arg1); not_written hostOps0_1)).trans (show W1 (F := Ideal) m ρ c (Proc.devRef .tc main_arg1) = W0 (F := Ideal) m ρ c (Proc.devRef .tc main_arg1) from by show StableHlo.after hostOps0 (W0 (F := Ideal) m ρ c) (Proc.devRef .tc main_arg1) = W0 m ρ c (Proc.devRef .tc main_arg1); not_written hostOps0)).trans rfl
theorem W7_arg1 (c : Dev nD) : W7 (F := Ideal) m ρ c (Proc.devRef .tc main_arg1) = m ((c : Thread nD τ).loc main_arg1) :=
  (((W7_of_ne m ρ c main_arg1 (by decide)).trans (W6_of_ne m ρ c main_arg1 (by decide))).trans (show W5 (F := Ideal) m ρ c (Proc.devRef .tc main_arg1) = W4 (F := Ideal) m ρ c (Proc.devRef .tc main_arg1) from by show StableHlo.after hostOps0_4 (W4 (F := Ideal) m ρ c) (Proc.devRef .tc main_arg1) = W4 m ρ c (Proc.devRef .tc main_arg1); not_written hostOps0_4)).trans (W4_arg1 m ρ c)
theorem W9_arg1 (c : Dev nD) : W9 (F := Ideal) m ρ c (Proc.devRef .tc main_arg1) = m ((c : Thread nD τ).loc main_arg1) :=
  ((W9_of_ne m ρ c main_arg1 (by decide)).trans (show W8 (F := Ideal) m ρ c (Proc.devRef .tc main_arg1) = W7 (F := Ideal) m ρ c (Proc.devRef .tc main_arg1) from by show StableHlo.after hostOps2 (W7 (F := Ideal) m ρ c) (Proc.devRef .tc main_arg1) = W7 m ρ c (Proc.devRef .tc main_arg1); not_written hostOps2)).trans (W7_arg1 m ρ c)
theorem W4_arg2 (c : Dev nD) : W4 (F := Ideal) m ρ c (Proc.devRef .tc main_arg2) = m ((c : Thread nD τ).loc main_arg2) :=
  ((((show W4 (F := Ideal) m ρ c (Proc.devRef .tc main_arg2) = W3 (F := Ideal) m ρ c (Proc.devRef .tc main_arg2) from by show StableHlo.after hostOps0_3 (W3 (F := Ideal) m ρ c) (Proc.devRef .tc main_arg2) = W3 m ρ c (Proc.devRef .tc main_arg2); not_written hostOps0_3).trans (show W3 (F := Ideal) m ρ c (Proc.devRef .tc main_arg2) = W2 (F := Ideal) m ρ c (Proc.devRef .tc main_arg2) from by show StableHlo.after hostOps0_2 (W2 (F := Ideal) m ρ c) (Proc.devRef .tc main_arg2) = W2 m ρ c (Proc.devRef .tc main_arg2); not_written hostOps0_2)).trans (show W2 (F := Ideal) m ρ c (Proc.devRef .tc main_arg2) = W1 (F := Ideal) m ρ c (Proc.devRef .tc main_arg2) from by show StableHlo.after hostOps0_1 (W1 (F := Ideal) m ρ c) (Proc.devRef .tc main_arg2) = W1 m ρ c (Proc.devRef .tc main_arg2); not_written hostOps0_1)).trans (show W1 (F := Ideal) m ρ c (Proc.devRef .tc main_arg2) = W0 (F := Ideal) m ρ c (Proc.devRef .tc main_arg2) from by show StableHlo.after hostOps0 (W0 (F := Ideal) m ρ c) (Proc.devRef .tc main_arg2) = W0 m ρ c (Proc.devRef .tc main_arg2); not_written hostOps0)).trans rfl
theorem W7_arg2 (c : Dev nD) : W7 (F := Ideal) m ρ c (Proc.devRef .tc main_arg2) = m ((c : Thread nD τ).loc main_arg2) :=
  (((W7_of_ne m ρ c main_arg2 (by decide)).trans (W6_of_ne m ρ c main_arg2 (by decide))).trans (show W5 (F := Ideal) m ρ c (Proc.devRef .tc main_arg2) = W4 (F := Ideal) m ρ c (Proc.devRef .tc main_arg2) from by show StableHlo.after hostOps0_4 (W4 (F := Ideal) m ρ c) (Proc.devRef .tc main_arg2) = W4 m ρ c (Proc.devRef .tc main_arg2); not_written hostOps0_4)).trans (W4_arg2 m ρ c)
theorem W9_arg2 (c : Dev nD) : W9 (F := Ideal) m ρ c (Proc.devRef .tc main_arg2) = m ((c : Thread nD τ).loc main_arg2) :=
  ((W9_of_ne m ρ c main_arg2 (by decide)).trans (show W8 (F := Ideal) m ρ c (Proc.devRef .tc main_arg2) = W7 (F := Ideal) m ρ c (Proc.devRef .tc main_arg2) from by show StableHlo.after hostOps2 (W7 (F := Ideal) m ρ c) (Proc.devRef .tc main_arg2) = W7 m ρ c (Proc.devRef .tc main_arg2); not_written hostOps2)).trans (W7_arg2 m ρ c)
theorem W11_arg3 (c : Dev nD) : W11 (F := Ideal) m ρ c (Proc.devRef .tc main_arg3) = m ((c : Thread nD τ).loc main_arg3) :=
  (((((((((((W11_of_ne m ρ c main_arg3 (by decide)).trans (show W10 (F := Ideal) m ρ c (Proc.devRef .tc main_arg3) = W9 (F := Ideal) m ρ c (Proc.devRef .tc main_arg3) from by show StableHlo.after hostOps3 (W9 (F := Ideal) m ρ c) (Proc.devRef .tc main_arg3) = W9 m ρ c (Proc.devRef .tc main_arg3); not_written hostOps3)).trans (W9_of_ne m ρ c main_arg3 (by decide))).trans (show W8 (F := Ideal) m ρ c (Proc.devRef .tc main_arg3) = W7 (F := Ideal) m ρ c (Proc.devRef .tc main_arg3) from by show StableHlo.after hostOps2 (W7 (F := Ideal) m ρ c) (Proc.devRef .tc main_arg3) = W7 m ρ c (Proc.devRef .tc main_arg3); not_written hostOps2)).trans (W7_of_ne m ρ c main_arg3 (by decide))).trans (W6_of_ne m ρ c main_arg3 (by decide))).trans (show W5 (F := Ideal) m ρ c (Proc.devRef .tc main_arg3) = W4 (F := Ideal) m ρ c (Proc.devRef .tc main_arg3) from by show StableHlo.after hostOps0_4 (W4 (F := Ideal) m ρ c) (Proc.devRef .tc main_arg3) = W4 m ρ c (Proc.devRef .tc main_arg3); not_written hostOps0_4)).trans (show W4 (F := Ideal) m ρ c (Proc.devRef .tc main_arg3) = W3 (F := Ideal) m ρ c (Proc.devRef .tc main_arg3) from by show StableHlo.after hostOps0_3 (W3 (F := Ideal) m ρ c) (Proc.devRef .tc main_arg3) = W3 m ρ c (Proc.devRef .tc main_arg3); not_written hostOps0_3)).trans (show W3 (F := Ideal) m ρ c (Proc.devRef .tc main_arg3) = W2 (F := Ideal) m ρ c (Proc.devRef .tc main_arg3) from by show StableHlo.after hostOps0_2 (W2 (F := Ideal) m ρ c) (Proc.devRef .tc main_arg3) = W2 m ρ c (Proc.devRef .tc main_arg3); not_written hostOps0_2)).trans (show W2 (F := Ideal) m ρ c (Proc.devRef .tc main_arg3) = W1 (F := Ideal) m ρ c (Proc.devRef .tc main_arg3) from by show StableHlo.after hostOps0_1 (W1 (F := Ideal) m ρ c) (Proc.devRef .tc main_arg3) = W1 m ρ c (Proc.devRef .tc main_arg3); not_written hostOps0_1)).trans (show W1 (F := Ideal) m ρ c (Proc.devRef .tc main_arg3) = W0 (F := Ideal) m ρ c (Proc.devRef .tc main_arg3) from by show StableHlo.after hostOps0 (W0 (F := Ideal) m ρ c) (Proc.devRef .tc main_arg3) = W0 m ρ c (Proc.devRef .tc main_arg3); not_written hostOps0)).trans rfl
theorem W5_arg4 (c : Dev nD) : W5 (F := Ideal) m ρ c (Proc.devRef .tc main_arg4) = m ((c : Thread nD τ).loc main_arg4) :=
  (((((show W5 (F := Ideal) m ρ c (Proc.devRef .tc main_arg4) = W4 (F := Ideal) m ρ c (Proc.devRef .tc main_arg4) from by show StableHlo.after hostOps0_4 (W4 (F := Ideal) m ρ c) (Proc.devRef .tc main_arg4) = W4 m ρ c (Proc.devRef .tc main_arg4); not_written hostOps0_4).trans (show W4 (F := Ideal) m ρ c (Proc.devRef .tc main_arg4) = W3 (F := Ideal) m ρ c (Proc.devRef .tc main_arg4) from by show StableHlo.after hostOps0_3 (W3 (F := Ideal) m ρ c) (Proc.devRef .tc main_arg4) = W3 m ρ c (Proc.devRef .tc main_arg4); not_written hostOps0_3)).trans (show W3 (F := Ideal) m ρ c (Proc.devRef .tc main_arg4) = W2 (F := Ideal) m ρ c (Proc.devRef .tc main_arg4) from by show StableHlo.after hostOps0_2 (W2 (F := Ideal) m ρ c) (Proc.devRef .tc main_arg4) = W2 m ρ c (Proc.devRef .tc main_arg4); not_written hostOps0_2)).trans (show W2 (F := Ideal) m ρ c (Proc.devRef .tc main_arg4) = W1 (F := Ideal) m ρ c (Proc.devRef .tc main_arg4) from by show StableHlo.after hostOps0_1 (W1 (F := Ideal) m ρ c) (Proc.devRef .tc main_arg4) = W1 m ρ c (Proc.devRef .tc main_arg4); not_written hostOps0_1)).trans (show W1 (F := Ideal) m ρ c (Proc.devRef .tc main_arg4) = W0 (F := Ideal) m ρ c (Proc.devRef .tc main_arg4) from by show StableHlo.after hostOps0 (W0 (F := Ideal) m ρ c) (Proc.devRef .tc main_arg4) = W0 m ρ c (Proc.devRef .tc main_arg4); not_written hostOps0)).trans rfl
theorem W4_arg5 (c : Dev nD) : W4 (F := Ideal) m ρ c (Proc.devRef .tc main_arg5) = m ((c : Thread nD τ).loc main_arg5) :=
  ((((show W4 (F := Ideal) m ρ c (Proc.devRef .tc main_arg5) = W3 (F := Ideal) m ρ c (Proc.devRef .tc main_arg5) from by show StableHlo.after hostOps0_3 (W3 (F := Ideal) m ρ c) (Proc.devRef .tc main_arg5) = W3 m ρ c (Proc.devRef .tc main_arg5); not_written hostOps0_3).trans (show W3 (F := Ideal) m ρ c (Proc.devRef .tc main_arg5) = W2 (F := Ideal) m ρ c (Proc.devRef .tc main_arg5) from by show StableHlo.after hostOps0_2 (W2 (F := Ideal) m ρ c) (Proc.devRef .tc main_arg5) = W2 m ρ c (Proc.devRef .tc main_arg5); not_written hostOps0_2)).trans (show W2 (F := Ideal) m ρ c (Proc.devRef .tc main_arg5) = W1 (F := Ideal) m ρ c (Proc.devRef .tc main_arg5) from by show StableHlo.after hostOps0_1 (W1 (F := Ideal) m ρ c) (Proc.devRef .tc main_arg5) = W1 m ρ c (Proc.devRef .tc main_arg5); not_written hostOps0_1)).trans (show W1 (F := Ideal) m ρ c (Proc.devRef .tc main_arg5) = W0 (F := Ideal) m ρ c (Proc.devRef .tc main_arg5) from by show StableHlo.after hostOps0 (W0 (F := Ideal) m ρ c) (Proc.devRef .tc main_arg5) = W0 m ρ c (Proc.devRef .tc main_arg5); not_written hostOps0)).trans rfl
theorem W6_arg6 (c : Dev nD) : W6 (F := Ideal) m ρ c (Proc.devRef .tc main_arg6) = m ((c : Thread nD τ).loc main_arg6) :=
  ((((((W6_of_ne m ρ c main_arg6 (by decide)).trans (show W5 (F := Ideal) m ρ c (Proc.devRef .tc main_arg6) = W4 (F := Ideal) m ρ c (Proc.devRef .tc main_arg6) from by show StableHlo.after hostOps0_4 (W4 (F := Ideal) m ρ c) (Proc.devRef .tc main_arg6) = W4 m ρ c (Proc.devRef .tc main_arg6); not_written hostOps0_4)).trans (show W4 (F := Ideal) m ρ c (Proc.devRef .tc main_arg6) = W3 (F := Ideal) m ρ c (Proc.devRef .tc main_arg6) from by show StableHlo.after hostOps0_3 (W3 (F := Ideal) m ρ c) (Proc.devRef .tc main_arg6) = W3 m ρ c (Proc.devRef .tc main_arg6); not_written hostOps0_3)).trans (show W3 (F := Ideal) m ρ c (Proc.devRef .tc main_arg6) = W2 (F := Ideal) m ρ c (Proc.devRef .tc main_arg6) from by show StableHlo.after hostOps0_2 (W2 (F := Ideal) m ρ c) (Proc.devRef .tc main_arg6) = W2 m ρ c (Proc.devRef .tc main_arg6); not_written hostOps0_2)).trans (show W2 (F := Ideal) m ρ c (Proc.devRef .tc main_arg6) = W1 (F := Ideal) m ρ c (Proc.devRef .tc main_arg6) from by show StableHlo.after hostOps0_1 (W1 (F := Ideal) m ρ c) (Proc.devRef .tc main_arg6) = W1 m ρ c (Proc.devRef .tc main_arg6); not_written hostOps0_1)).trans (show W1 (F := Ideal) m ρ c (Proc.devRef .tc main_arg6) = W0 (F := Ideal) m ρ c (Proc.devRef .tc main_arg6) from by show StableHlo.after hostOps0 (W0 (F := Ideal) m ρ c) (Proc.devRef .tc main_arg6) = W0 m ρ c (Proc.devRef .tc main_arg6); not_written hostOps0)).trans rfl
theorem W7_arg7 (c : Dev nD) : W7 (F := Ideal) m ρ c (Proc.devRef .tc main_arg7) = m ((c : Thread nD τ).loc main_arg7) :=
  (((((((W7_of_ne m ρ c main_arg7 (by decide)).trans (W6_of_ne m ρ c main_arg7 (by decide))).trans (show W5 (F := Ideal) m ρ c (Proc.devRef .tc main_arg7) = W4 (F := Ideal) m ρ c (Proc.devRef .tc main_arg7) from by show StableHlo.after hostOps0_4 (W4 (F := Ideal) m ρ c) (Proc.devRef .tc main_arg7) = W4 m ρ c (Proc.devRef .tc main_arg7); not_written hostOps0_4)).trans (show W4 (F := Ideal) m ρ c (Proc.devRef .tc main_arg7) = W3 (F := Ideal) m ρ c (Proc.devRef .tc main_arg7) from by show StableHlo.after hostOps0_3 (W3 (F := Ideal) m ρ c) (Proc.devRef .tc main_arg7) = W3 m ρ c (Proc.devRef .tc main_arg7); not_written hostOps0_3)).trans (show W3 (F := Ideal) m ρ c (Proc.devRef .tc main_arg7) = W2 (F := Ideal) m ρ c (Proc.devRef .tc main_arg7) from by show StableHlo.after hostOps0_2 (W2 (F := Ideal) m ρ c) (Proc.devRef .tc main_arg7) = W2 m ρ c (Proc.devRef .tc main_arg7); not_written hostOps0_2)).trans (show W2 (F := Ideal) m ρ c (Proc.devRef .tc main_arg7) = W1 (F := Ideal) m ρ c (Proc.devRef .tc main_arg7) from by show StableHlo.after hostOps0_1 (W1 (F := Ideal) m ρ c) (Proc.devRef .tc main_arg7) = W1 m ρ c (Proc.devRef .tc main_arg7); not_written hostOps0_1)).trans (show W1 (F := Ideal) m ρ c (Proc.devRef .tc main_arg7) = W0 (F := Ideal) m ρ c (Proc.devRef .tc main_arg7) from by show StableHlo.after hostOps0 (W0 (F := Ideal) m ρ c) (Proc.devRef .tc main_arg7) = W0 m ρ c (Proc.devRef .tc main_arg7); not_written hostOps0)).trans rfl
theorem W10_arg8 (c : Dev nD) : W10 (F := Ideal) m ρ c (Proc.devRef .tc main_arg8) = m ((c : Thread nD τ).loc main_arg8) :=
  ((((((((((show W10 (F := Ideal) m ρ c (Proc.devRef .tc main_arg8) = W9 (F := Ideal) m ρ c (Proc.devRef .tc main_arg8) from by show StableHlo.after hostOps3 (W9 (F := Ideal) m ρ c) (Proc.devRef .tc main_arg8) = W9 m ρ c (Proc.devRef .tc main_arg8); not_written hostOps3).trans (W9_of_ne m ρ c main_arg8 (by decide))).trans (show W8 (F := Ideal) m ρ c (Proc.devRef .tc main_arg8) = W7 (F := Ideal) m ρ c (Proc.devRef .tc main_arg8) from by show StableHlo.after hostOps2 (W7 (F := Ideal) m ρ c) (Proc.devRef .tc main_arg8) = W7 m ρ c (Proc.devRef .tc main_arg8); not_written hostOps2)).trans (W7_of_ne m ρ c main_arg8 (by decide))).trans (W6_of_ne m ρ c main_arg8 (by decide))).trans (show W5 (F := Ideal) m ρ c (Proc.devRef .tc main_arg8) = W4 (F := Ideal) m ρ c (Proc.devRef .tc main_arg8) from by show StableHlo.after hostOps0_4 (W4 (F := Ideal) m ρ c) (Proc.devRef .tc main_arg8) = W4 m ρ c (Proc.devRef .tc main_arg8); not_written hostOps0_4)).trans (show W4 (F := Ideal) m ρ c (Proc.devRef .tc main_arg8) = W3 (F := Ideal) m ρ c (Proc.devRef .tc main_arg8) from by show StableHlo.after hostOps0_3 (W3 (F := Ideal) m ρ c) (Proc.devRef .tc main_arg8) = W3 m ρ c (Proc.devRef .tc main_arg8); not_written hostOps0_3)).trans (show W3 (F := Ideal) m ρ c (Proc.devRef .tc main_arg8) = W2 (F := Ideal) m ρ c (Proc.devRef .tc main_arg8) from by show StableHlo.after hostOps0_2 (W2 (F := Ideal) m ρ c) (Proc.devRef .tc main_arg8) = W2 m ρ c (Proc.devRef .tc main_arg8); not_written hostOps0_2)).trans (show W2 (F := Ideal) m ρ c (Proc.devRef .tc main_arg8) = W1 (F := Ideal) m ρ c (Proc.devRef .tc main_arg8) from by show StableHlo.after hostOps0_1 (W1 (F := Ideal) m ρ c) (Proc.devRef .tc main_arg8) = W1 m ρ c (Proc.devRef .tc main_arg8); not_written hostOps0_1)).trans (show W1 (F := Ideal) m ρ c (Proc.devRef .tc main_arg8) = W0 (F := Ideal) m ρ c (Proc.devRef .tc main_arg8) from by show StableHlo.after hostOps0 (W0 (F := Ideal) m ρ c) (Proc.devRef .tc main_arg8) = W0 m ρ c (Proc.devRef .tc main_arg8); not_written hostOps0)).trans rfl
theorem W9_arg9 (c : Dev nD) : W9 (F := Ideal) m ρ c (Proc.devRef .tc main_arg9) = m ((c : Thread nD τ).loc main_arg9) :=
  (((((((((W9_of_ne m ρ c main_arg9 (by decide)).trans (show W8 (F := Ideal) m ρ c (Proc.devRef .tc main_arg9) = W7 (F := Ideal) m ρ c (Proc.devRef .tc main_arg9) from by show StableHlo.after hostOps2 (W7 (F := Ideal) m ρ c) (Proc.devRef .tc main_arg9) = W7 m ρ c (Proc.devRef .tc main_arg9); not_written hostOps2)).trans (W7_of_ne m ρ c main_arg9 (by decide))).trans (W6_of_ne m ρ c main_arg9 (by decide))).trans (show W5 (F := Ideal) m ρ c (Proc.devRef .tc main_arg9) = W4 (F := Ideal) m ρ c (Proc.devRef .tc main_arg9) from by show StableHlo.after hostOps0_4 (W4 (F := Ideal) m ρ c) (Proc.devRef .tc main_arg9) = W4 m ρ c (Proc.devRef .tc main_arg9); not_written hostOps0_4)).trans (show W4 (F := Ideal) m ρ c (Proc.devRef .tc main_arg9) = W3 (F := Ideal) m ρ c (Proc.devRef .tc main_arg9) from by show StableHlo.after hostOps0_3 (W3 (F := Ideal) m ρ c) (Proc.devRef .tc main_arg9) = W3 m ρ c (Proc.devRef .tc main_arg9); not_written hostOps0_3)).trans (show W3 (F := Ideal) m ρ c (Proc.devRef .tc main_arg9) = W2 (F := Ideal) m ρ c (Proc.devRef .tc main_arg9) from by show StableHlo.after hostOps0_2 (W2 (F := Ideal) m ρ c) (Proc.devRef .tc main_arg9) = W2 m ρ c (Proc.devRef .tc main_arg9); not_written hostOps0_2)).trans (show W2 (F := Ideal) m ρ c (Proc.devRef .tc main_arg9) = W1 (F := Ideal) m ρ c (Proc.devRef .tc main_arg9) from by show StableHlo.after hostOps0_1 (W1 (F := Ideal) m ρ c) (Proc.devRef .tc main_arg9) = W1 m ρ c (Proc.devRef .tc main_arg9); not_written hostOps0_1)).trans (show W1 (F := Ideal) m ρ c (Proc.devRef .tc main_arg9) = W0 (F := Ideal) m ρ c (Proc.devRef .tc main_arg9) from by show StableHlo.after hostOps0 (W0 (F := Ideal) m ρ c) (Proc.devRef .tc main_arg9) = W0 m ρ c (Proc.devRef .tc main_arg9); not_written hostOps0)).trans rfl
theorem W12_arg10 (c : Dev nD) : W12 (F := Ideal) m ρ c (Proc.devRef .tc main_arg10) = m ((c : Thread nD τ).loc main_arg10) :=
  ((((((((((((show W12 (F := Ideal) m ρ c (Proc.devRef .tc main_arg10) = W11 (F := Ideal) m ρ c (Proc.devRef .tc main_arg10) from by show StableHlo.after hostOps4 (W11 (F := Ideal) m ρ c) (Proc.devRef .tc main_arg10) = W11 m ρ c (Proc.devRef .tc main_arg10); not_written hostOps4).trans (W11_of_ne m ρ c main_arg10 (by decide))).trans (show W10 (F := Ideal) m ρ c (Proc.devRef .tc main_arg10) = W9 (F := Ideal) m ρ c (Proc.devRef .tc main_arg10) from by show StableHlo.after hostOps3 (W9 (F := Ideal) m ρ c) (Proc.devRef .tc main_arg10) = W9 m ρ c (Proc.devRef .tc main_arg10); not_written hostOps3)).trans (W9_of_ne m ρ c main_arg10 (by decide))).trans (show W8 (F := Ideal) m ρ c (Proc.devRef .tc main_arg10) = W7 (F := Ideal) m ρ c (Proc.devRef .tc main_arg10) from by show StableHlo.after hostOps2 (W7 (F := Ideal) m ρ c) (Proc.devRef .tc main_arg10) = W7 m ρ c (Proc.devRef .tc main_arg10); not_written hostOps2)).trans (W7_of_ne m ρ c main_arg10 (by decide))).trans (W6_of_ne m ρ c main_arg10 (by decide))).trans (show W5 (F := Ideal) m ρ c (Proc.devRef .tc main_arg10) = W4 (F := Ideal) m ρ c (Proc.devRef .tc main_arg10) from by show StableHlo.after hostOps0_4 (W4 (F := Ideal) m ρ c) (Proc.devRef .tc main_arg10) = W4 m ρ c (Proc.devRef .tc main_arg10); not_written hostOps0_4)).trans (show W4 (F := Ideal) m ρ c (Proc.devRef .tc main_arg10) = W3 (F := Ideal) m ρ c (Proc.devRef .tc main_arg10) from by show StableHlo.after hostOps0_3 (W3 (F := Ideal) m ρ c) (Proc.devRef .tc main_arg10) = W3 m ρ c (Proc.devRef .tc main_arg10); not_written hostOps0_3)).trans (show W3 (F := Ideal) m ρ c (Proc.devRef .tc main_arg10) = W2 (F := Ideal) m ρ c (Proc.devRef .tc main_arg10) from by show StableHlo.after hostOps0_2 (W2 (F := Ideal) m ρ c) (Proc.devRef .tc main_arg10) = W2 m ρ c (Proc.devRef .tc main_arg10); not_written hostOps0_2)).trans (show W2 (F := Ideal) m ρ c (Proc.devRef .tc main_arg10) = W1 (F := Ideal) m ρ c (Proc.devRef .tc main_arg10) from by show StableHlo.after hostOps0_1 (W1 (F := Ideal) m ρ c) (Proc.devRef .tc main_arg10) = W1 m ρ c (Proc.devRef .tc main_arg10); not_written hostOps0_1)).trans (show W1 (F := Ideal) m ρ c (Proc.devRef .tc main_arg10) = W0 (F := Ideal) m ρ c (Proc.devRef .tc main_arg10) from by show StableHlo.after hostOps0 (W0 (F := Ideal) m ρ c) (Proc.devRef .tc main_arg10) = W0 m ρ c (Proc.devRef .tc main_arg10); not_written hostOps0)).trans rfl
theorem W11_arg11 (c : Dev nD) : W11 (F := Ideal) m ρ c (Proc.devRef .tc main_arg11) = m ((c : Thread nD τ).loc main_arg11) :=
  (((((((((((W11_of_ne m ρ c main_arg11 (by decide)).trans (show W10 (F := Ideal) m ρ c (Proc.devRef .tc main_arg11) = W9 (F := Ideal) m ρ c (Proc.devRef .tc main_arg11) from by show StableHlo.after hostOps3 (W9 (F := Ideal) m ρ c) (Proc.devRef .tc main_arg11) = W9 m ρ c (Proc.devRef .tc main_arg11); not_written hostOps3)).trans (W9_of_ne m ρ c main_arg11 (by decide))).trans (show W8 (F := Ideal) m ρ c (Proc.devRef .tc main_arg11) = W7 (F := Ideal) m ρ c (Proc.devRef .tc main_arg11) from by show StableHlo.after hostOps2 (W7 (F := Ideal) m ρ c) (Proc.devRef .tc main_arg11) = W7 m ρ c (Proc.devRef .tc main_arg11); not_written hostOps2)).trans (W7_of_ne m ρ c main_arg11 (by decide))).trans (W6_of_ne m ρ c main_arg11 (by decide))).trans (show W5 (F := Ideal) m ρ c (Proc.devRef .tc main_arg11) = W4 (F := Ideal) m ρ c (Proc.devRef .tc main_arg11) from by show StableHlo.after hostOps0_4 (W4 (F := Ideal) m ρ c) (Proc.devRef .tc main_arg11) = W4 m ρ c (Proc.devRef .tc main_arg11); not_written hostOps0_4)).trans (show W4 (F := Ideal) m ρ c (Proc.devRef .tc main_arg11) = W3 (F := Ideal) m ρ c (Proc.devRef .tc main_arg11) from by show StableHlo.after hostOps0_3 (W3 (F := Ideal) m ρ c) (Proc.devRef .tc main_arg11) = W3 m ρ c (Proc.devRef .tc main_arg11); not_written hostOps0_3)).trans (show W3 (F := Ideal) m ρ c (Proc.devRef .tc main_arg11) = W2 (F := Ideal) m ρ c (Proc.devRef .tc main_arg11) from by show StableHlo.after hostOps0_2 (W2 (F := Ideal) m ρ c) (Proc.devRef .tc main_arg11) = W2 m ρ c (Proc.devRef .tc main_arg11); not_written hostOps0_2)).trans (show W2 (F := Ideal) m ρ c (Proc.devRef .tc main_arg11) = W1 (F := Ideal) m ρ c (Proc.devRef .tc main_arg11) from by show StableHlo.after hostOps0_1 (W1 (F := Ideal) m ρ c) (Proc.devRef .tc main_arg11) = W1 m ρ c (Proc.devRef .tc main_arg11); not_written hostOps0_1)).trans (show W1 (F := Ideal) m ρ c (Proc.devRef .tc main_arg11) = W0 (F := Ideal) m ρ c (Proc.devRef .tc main_arg11) from by show StableHlo.after hostOps0 (W0 (F := Ideal) m ρ c) (Proc.devRef .tc main_arg11) = W0 m ρ c (Proc.devRef .tc main_arg11); not_written hostOps0)).trans rfl
theorem W12_arg12 (c : Dev nD) : W12 (F := Ideal) m ρ c (Proc.devRef .tc main_arg12) = m ((c : Thread nD τ).loc main_arg12) :=
  ((((((((((((show W12 (F := Ideal) m ρ c (Proc.devRef .tc main_arg12) = W11 (F := Ideal) m ρ c (Proc.devRef .tc main_arg12) from by show StableHlo.after hostOps4 (W11 (F := Ideal) m ρ c) (Proc.devRef .tc main_arg12) = W11 m ρ c (Proc.devRef .tc main_arg12); not_written hostOps4).trans (W11_of_ne m ρ c main_arg12 (by decide))).trans (show W10 (F := Ideal) m ρ c (Proc.devRef .tc main_arg12) = W9 (F := Ideal) m ρ c (Proc.devRef .tc main_arg12) from by show StableHlo.after hostOps3 (W9 (F := Ideal) m ρ c) (Proc.devRef .tc main_arg12) = W9 m ρ c (Proc.devRef .tc main_arg12); not_written hostOps3)).trans (W9_of_ne m ρ c main_arg12 (by decide))).trans (show W8 (F := Ideal) m ρ c (Proc.devRef .tc main_arg12) = W7 (F := Ideal) m ρ c (Proc.devRef .tc main_arg12) from by show StableHlo.after hostOps2 (W7 (F := Ideal) m ρ c) (Proc.devRef .tc main_arg12) = W7 m ρ c (Proc.devRef .tc main_arg12); not_written hostOps2)).trans (W7_of_ne m ρ c main_arg12 (by decide))).trans (W6_of_ne m ρ c main_arg12 (by decide))).trans (show W5 (F := Ideal) m ρ c (Proc.devRef .tc main_arg12) = W4 (F := Ideal) m ρ c (Proc.devRef .tc main_arg12) from by show StableHlo.after hostOps0_4 (W4 (F := Ideal) m ρ c) (Proc.devRef .tc main_arg12) = W4 m ρ c (Proc.devRef .tc main_arg12); not_written hostOps0_4)).trans (show W4 (F := Ideal) m ρ c (Proc.devRef .tc main_arg12) = W3 (F := Ideal) m ρ c (Proc.devRef .tc main_arg12) from by show StableHlo.after hostOps0_3 (W3 (F := Ideal) m ρ c) (Proc.devRef .tc main_arg12) = W3 m ρ c (Proc.devRef .tc main_arg12); not_written hostOps0_3)).trans (show W3 (F := Ideal) m ρ c (Proc.devRef .tc main_arg12) = W2 (F := Ideal) m ρ c (Proc.devRef .tc main_arg12) from by show StableHlo.after hostOps0_2 (W2 (F := Ideal) m ρ c) (Proc.devRef .tc main_arg12) = W2 m ρ c (Proc.devRef .tc main_arg12); not_written hostOps0_2)).trans (show W2 (F := Ideal) m ρ c (Proc.devRef .tc main_arg12) = W1 (F := Ideal) m ρ c (Proc.devRef .tc main_arg12) from by show StableHlo.after hostOps0_1 (W1 (F := Ideal) m ρ c) (Proc.devRef .tc main_arg12) = W1 m ρ c (Proc.devRef .tc main_arg12); not_written hostOps0_1)).trans (show W1 (F := Ideal) m ρ c (Proc.devRef .tc main_arg12) = W0 (F := Ideal) m ρ c (Proc.devRef .tc main_arg12) from by show StableHlo.after hostOps0 (W0 (F := Ideal) m ρ c) (Proc.devRef .tc main_arg12) = W0 m ρ c (Proc.devRef .tc main_arg12); not_written hostOps0)).trans rfl
theorem W11_arg13 (c : Dev nD) : W11 (F := Ideal) m ρ c (Proc.devRef .tc main_arg13) = m ((c : Thread nD τ).loc main_arg13) :=
  (((((((((((W11_of_ne m ρ c main_arg13 (by decide)).trans (show W10 (F := Ideal) m ρ c (Proc.devRef .tc main_arg13) = W9 (F := Ideal) m ρ c (Proc.devRef .tc main_arg13) from by show StableHlo.after hostOps3 (W9 (F := Ideal) m ρ c) (Proc.devRef .tc main_arg13) = W9 m ρ c (Proc.devRef .tc main_arg13); not_written hostOps3)).trans (W9_of_ne m ρ c main_arg13 (by decide))).trans (show W8 (F := Ideal) m ρ c (Proc.devRef .tc main_arg13) = W7 (F := Ideal) m ρ c (Proc.devRef .tc main_arg13) from by show StableHlo.after hostOps2 (W7 (F := Ideal) m ρ c) (Proc.devRef .tc main_arg13) = W7 m ρ c (Proc.devRef .tc main_arg13); not_written hostOps2)).trans (W7_of_ne m ρ c main_arg13 (by decide))).trans (W6_of_ne m ρ c main_arg13 (by decide))).trans (show W5 (F := Ideal) m ρ c (Proc.devRef .tc main_arg13) = W4 (F := Ideal) m ρ c (Proc.devRef .tc main_arg13) from by show StableHlo.after hostOps0_4 (W4 (F := Ideal) m ρ c) (Proc.devRef .tc main_arg13) = W4 m ρ c (Proc.devRef .tc main_arg13); not_written hostOps0_4)).trans (show W4 (F := Ideal) m ρ c (Proc.devRef .tc main_arg13) = W3 (F := Ideal) m ρ c (Proc.devRef .tc main_arg13) from by show StableHlo.after hostOps0_3 (W3 (F := Ideal) m ρ c) (Proc.devRef .tc main_arg13) = W3 m ρ c (Proc.devRef .tc main_arg13); not_written hostOps0_3)).trans (show W3 (F := Ideal) m ρ c (Proc.devRef .tc main_arg13) = W2 (F := Ideal) m ρ c (Proc.devRef .tc main_arg13) from by show StableHlo.after hostOps0_2 (W2 (F := Ideal) m ρ c) (Proc.devRef .tc main_arg13) = W2 m ρ c (Proc.devRef .tc main_arg13); not_written hostOps0_2)).trans (show W2 (F := Ideal) m ρ c (Proc.devRef .tc main_arg13) = W1 (F := Ideal) m ρ c (Proc.devRef .tc main_arg13) from by show StableHlo.after hostOps0_1 (W1 (F := Ideal) m ρ c) (Proc.devRef .tc main_arg13) = W1 m ρ c (Proc.devRef .tc main_arg13); not_written hostOps0_1)).trans (show W1 (F := Ideal) m ρ c (Proc.devRef .tc main_arg13) = W0 (F := Ideal) m ρ c (Proc.devRef .tc main_arg13) from by show StableHlo.after hostOps0 (W0 (F := Ideal) m ρ c) (Proc.devRef .tc main_arg13) = W0 m ρ c (Proc.devRef .tc main_arg13); not_written hostOps0)).trans rfl
theorem W11_arg14 (c : Dev nD) : W11 (F := Ideal) m ρ c (Proc.devRef .tc main_arg14) = m ((c : Thread nD τ).loc main_arg14) :=
  (((((((((((W11_of_ne m ρ c main_arg14 (by decide)).trans (show W10 (F := Ideal) m ρ c (Proc.devRef .tc main_arg14) = W9 (F := Ideal) m ρ c (Proc.devRef .tc main_arg14) from by show StableHlo.after hostOps3 (W9 (F := Ideal) m ρ c) (Proc.devRef .tc main_arg14) = W9 m ρ c (Proc.devRef .tc main_arg14); not_written hostOps3)).trans (W9_of_ne m ρ c main_arg14 (by decide))).trans (show W8 (F := Ideal) m ρ c (Proc.devRef .tc main_arg14) = W7 (F := Ideal) m ρ c (Proc.devRef .tc main_arg14) from by show StableHlo.after hostOps2 (W7 (F := Ideal) m ρ c) (Proc.devRef .tc main_arg14) = W7 m ρ c (Proc.devRef .tc main_arg14); not_written hostOps2)).trans (W7_of_ne m ρ c main_arg14 (by decide))).trans (W6_of_ne m ρ c main_arg14 (by decide))).trans (show W5 (F := Ideal) m ρ c (Proc.devRef .tc main_arg14) = W4 (F := Ideal) m ρ c (Proc.devRef .tc main_arg14) from by show StableHlo.after hostOps0_4 (W4 (F := Ideal) m ρ c) (Proc.devRef .tc main_arg14) = W4 m ρ c (Proc.devRef .tc main_arg14); not_written hostOps0_4)).trans (show W4 (F := Ideal) m ρ c (Proc.devRef .tc main_arg14) = W3 (F := Ideal) m ρ c (Proc.devRef .tc main_arg14) from by show StableHlo.after hostOps0_3 (W3 (F := Ideal) m ρ c) (Proc.devRef .tc main_arg14) = W3 m ρ c (Proc.devRef .tc main_arg14); not_written hostOps0_3)).trans (show W3 (F := Ideal) m ρ c (Proc.devRef .tc main_arg14) = W2 (F := Ideal) m ρ c (Proc.devRef .tc main_arg14) from by show StableHlo.after hostOps0_2 (W2 (F := Ideal) m ρ c) (Proc.devRef .tc main_arg14) = W2 m ρ c (Proc.devRef .tc main_arg14); not_written hostOps0_2)).trans (show W2 (F := Ideal) m ρ c (Proc.devRef .tc main_arg14) = W1 (F := Ideal) m ρ c (Proc.devRef .tc main_arg14) from by show StableHlo.after hostOps0_1 (W1 (F := Ideal) m ρ c) (Proc.devRef .tc main_arg14) = W1 m ρ c (Proc.devRef .tc main_arg14); not_written hostOps0_1)).trans (show W1 (F := Ideal) m ρ c (Proc.devRef .tc main_arg14) = W0 (F := Ideal) m ρ c (Proc.devRef .tc main_arg14) from by show StableHlo.after hostOps0 (W0 (F := Ideal) m ρ c) (Proc.devRef .tc main_arg14) = W0 m ρ c (Proc.devRef .tc main_arg14); not_written hostOps0)).trans rfl
theorem W11_arg15 (c : Dev nD) : W11 (F := Ideal) m ρ c (Proc.devRef .tc main_arg15) = m ((c : Thread nD τ).loc main_arg15) :=
  (((((((((((W11_of_ne m ρ c main_arg15 (by decide)).trans (show W10 (F := Ideal) m ρ c (Proc.devRef .tc main_arg15) = W9 (F := Ideal) m ρ c (Proc.devRef .tc main_arg15) from by show StableHlo.after hostOps3 (W9 (F := Ideal) m ρ c) (Proc.devRef .tc main_arg15) = W9 m ρ c (Proc.devRef .tc main_arg15); not_written hostOps3)).trans (W9_of_ne m ρ c main_arg15 (by decide))).trans (show W8 (F := Ideal) m ρ c (Proc.devRef .tc main_arg15) = W7 (F := Ideal) m ρ c (Proc.devRef .tc main_arg15) from by show StableHlo.after hostOps2 (W7 (F := Ideal) m ρ c) (Proc.devRef .tc main_arg15) = W7 m ρ c (Proc.devRef .tc main_arg15); not_written hostOps2)).trans (W7_of_ne m ρ c main_arg15 (by decide))).trans (W6_of_ne m ρ c main_arg15 (by decide))).trans (show W5 (F := Ideal) m ρ c (Proc.devRef .tc main_arg15) = W4 (F := Ideal) m ρ c (Proc.devRef .tc main_arg15) from by show StableHlo.after hostOps0_4 (W4 (F := Ideal) m ρ c) (Proc.devRef .tc main_arg15) = W4 m ρ c (Proc.devRef .tc main_arg15); not_written hostOps0_4)).trans (show W4 (F := Ideal) m ρ c (Proc.devRef .tc main_arg15) = W3 (F := Ideal) m ρ c (Proc.devRef .tc main_arg15) from by show StableHlo.after hostOps0_3 (W3 (F := Ideal) m ρ c) (Proc.devRef .tc main_arg15) = W3 m ρ c (Proc.devRef .tc main_arg15); not_written hostOps0_3)).trans (show W3 (F := Ideal) m ρ c (Proc.devRef .tc main_arg15) = W2 (F := Ideal) m ρ c (Proc.devRef .tc main_arg15) from by show StableHlo.after hostOps0_2 (W2 (F := Ideal) m ρ c) (Proc.devRef .tc main_arg15) = W2 m ρ c (Proc.devRef .tc main_arg15); not_written hostOps0_2)).trans (show W2 (F := Ideal) m ρ c (Proc.devRef .tc main_arg15) = W1 (F := Ideal) m ρ c (Proc.devRef .tc main_arg15) from by show StableHlo.after hostOps0_1 (W1 (F := Ideal) m ρ c) (Proc.devRef .tc main_arg15) = W1 m ρ c (Proc.devRef .tc main_arg15); not_written hostOps0_1)).trans (show W1 (F := Ideal) m ρ c (Proc.devRef .tc main_arg15) = W0 (F := Ideal) m ρ c (Proc.devRef .tc main_arg15) from by show StableHlo.after hostOps0 (W0 (F := Ideal) m ρ c) (Proc.devRef .tc main_arg15) = W0 m ρ c (Proc.devRef .tc main_arg15); not_written hostOps0)).trans rfl

/-! ## The normalisation columns and the column of ones -/

/-- The source-side normalisation column, where the first region finds it. -/
theorem W4_v9 (c : Dev nD) : W4 (F := Ideal) m ρ c (Proc.devRef .tc main_v9) = (colOf (normK (m ((c : Thread nD τ).loc main_arg1)))) := by
  show StableHlo.after hostOps0_3 (StableHlo.after hostOps0_2 (StableHlo.after hostOps0_1 (StableHlo.after hostOps0 (W0 (F := Ideal) m ρ c)))) (Proc.devRef .tc main_v9) = _
  rw [unw03_v9, s02_v9, s01_v7, s0_cst2, s0_v3]
  rfl
theorem W5_v9 (c : Dev nD) : W5 (F := Ideal) m ρ c (Proc.devRef .tc main_v9) = (colOf (normK (m ((c : Thread nD τ).loc main_arg1)))) := by
  show StableHlo.after hostOps0_4 (W4 (F := Ideal) m ρ c) (Proc.devRef .tc main_v9) = _
  rw [unw04_v9]
  exact W4_v9 m ρ c
/-- The destination-side normalisation column. -/
theorem W5_v12 (c : Dev nD) : W5 (F := Ideal) m ρ c (Proc.devRef .tc main_v12) = (colOf (normK (m ((c : Thread nD τ).loc main_arg2)))) := by
  show StableHlo.after hostOps0_4 (StableHlo.after hostOps0_3 (StableHlo.after hostOps0_2 (StableHlo.after hostOps0_1 (StableHlo.after hostOps0 (W0 (F := Ideal) m ρ c))))) (Proc.devRef .tc main_v12) = _
  rw [s04_v12, s03_v10, s02_cst3, unw02_v6, unw01_v6, s0_v6]
  rfl
theorem W5_v13 (c : Dev nD) : W5 (F := Ideal) m ρ c (Proc.devRef .tc main_v13) = onesCol := by
  show StableHlo.after hostOps0_4 (W4 (F := Ideal) m ρ c) (Proc.devRef .tc main_v13) = _
  rw [s04_v13]
theorem W5_v26 (c : Dev nD) : W5 (F := Ideal) m ρ c (Proc.devRef .tc main_v26) = rowOf256 (m ((c : Thread nD τ).loc main_arg5)) := by
  show StableHlo.after hostOps0_4 (W4 (F := Ideal) m ρ c) (Proc.devRef .tc main_v26) = _
  rw [s04_v26, W4_arg5]
/-- The first aggregate. -/
theorem W5_v25 (c : Dev nD) : W5 (F := Ideal) m ρ c (Proc.devRef .tc main_v25) = (aggK (scaledK (m ((c : Thread nD τ).loc main_arg0)) (colOf (normK (m ((c : Thread nD τ).loc main_arg1))))) (m ((c : Thread nD τ).loc main_arg1)) (m ((c : Thread nD τ).loc main_arg2))) := by
  show StableHlo.after hostOps0_4 (W4 (F := Ideal) m ρ c) (Proc.devRef .tc main_v25) = _
  rw [s04_v25, W4_arg0, W4_arg1, W4_arg2, W4_v9]

theorem W8_v12 (c : Dev nD) : W8 (F := Ideal) m ρ c (Proc.devRef .tc main_v12) = (colOf (normK (m ((c : Thread nD τ).loc main_arg2)))) := by
  show StableHlo.after hostOps2 (W7 (F := Ideal) m ρ c) (Proc.devRef .tc main_v12) = _
  rw [unw2_v12]
  exact ((W7_of_ne m ρ c main_v12 (by decide)).trans ((W6_arr m ρ c 1).trans (((dat0 (V5 m ρ) c).arrAt_in 1 rfl _).trans (A_eq0 (V5 m ρ) c 1)))).trans (W5_v12 m ρ c)
theorem W8_v9 (c : Dev nD) : W8 (F := Ideal) m ρ c (Proc.devRef .tc main_v9) = (colOf (normK (m ((c : Thread nD τ).loc main_arg1)))) := by
  show StableHlo.after hostOps2 (W7 (F := Ideal) m ρ c) (Proc.devRef .tc main_v9) = _
  rw [unw2_v9]
  exact ((W7_of_ne m ρ c main_v9 (by decide)).trans ((W6_arr m ρ c 4).trans (((dat0 (V5 m ρ) c).arrAt_in 4 rfl _).trans (A_eq0 (V5 m ρ) c 4)))).trans (W5_v9 m ρ c)
theorem W8_v13 (c : Dev nD) : W8 (F := Ideal) m ρ c (Proc.devRef .tc main_v13) = onesCol := by
  show StableHlo.after hostOps2 (W7 (F := Ideal) m ρ c) (Proc.devRef .tc main_v13) = _
  rw [unw2_v13]
  exact ((W7_of_ne m ρ c main_v13 (by decide)).trans (W6_of_ne m ρ c main_v13 (by decide))).trans (W5_v13 m ρ c)
theorem W10_v12 (c : Dev nD) : W10 (F := Ideal) m ρ c (Proc.devRef .tc main_v12) = (colOf (normK (m ((c : Thread nD τ).loc main_arg2)))) := by
  show StableHlo.after hostOps3 (W9 (F := Ideal) m ρ c) (Proc.devRef .tc main_v12) = _
  rw [unw3_v12]
  exact ((W9_arr m ρ c 1).trans (((dat2 (V8 m ρ) c).arrAt_in 1 rfl _).trans (A_eq2 (V8 m ρ) c 1))).trans (W8_v12 m ρ c)
theorem W10_v13 (c : Dev nD) : W10 (F := Ideal) m ρ c (Proc.devRef .tc main_v13) = onesCol := by
  show StableHlo.after hostOps3 (W9 (F := Ideal) m ρ c) (Proc.devRef .tc main_v13) = _
  rw [unw3_v13]
  exact (W9_of_ne m ρ c main_v13 (by decide)).trans (W8_v13 m ρ c)

/-! ## What each region leaves, and what the stretch after it makes of that -/

/-- The first region's output: the first layer's rows, already scaled for the next gather. -/
theorem W6_v27 (c : Dev nD) : W6 (F := Ideal) m ρ c (Proc.devRef .tc main_v27) = (Regions.conv0 (aggK (scaledK (m ((c : Thread nD τ).loc main_arg0)) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg4)) (rowOf256 (m ((c : Thread nD τ).loc main_arg5))) (colOf (normK (m ((c : Thread nD τ).loc main_arg1))))) := by
  refine (W6_arr m ρ c 5).trans ?_
  rw [Regions.array0 (V5 m ρ) Cert.KernelEntries.conv256_entry c]
  show Regions.conv0 (W5 (F := Ideal) m ρ c (Proc.devRef .tc main_v25)) (W5 (F := Ideal) m ρ c (Proc.devRef .tc main_v12)) (W5 (F := Ideal) m ρ c (Proc.devRef .tc main_arg4)) (W5 (F := Ideal) m ρ c (Proc.devRef .tc main_v26)) (W5 (F := Ideal) m ρ c (Proc.devRef .tc main_v9)) = _
  rw [W5_v25, W5_v12, W5_arg4, W5_v26, W5_v9]
/-- The second region's output: those rows times the second weight matrix. -/
theorem W7_v28 (c : Dev nD) : W7 (F := Ideal) m ρ c (Proc.devRef .tc main_v28) = (Regions.product (Regions.conv0 (aggK (scaledK (m ((c : Thread nD τ).loc main_arg0)) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg4)) (rowOf256 (m ((c : Thread nD τ).loc main_arg5))) (colOf (normK (m ((c : Thread nD τ).loc main_arg1))))) (m ((c : Thread nD τ).loc main_arg6))) := by
  refine (W7_arr m ρ c 2).trans ?_
  rw [Regions.array1 (V6 m ρ) Cert.KernelEntries.matmul_entry c]
  show Regions.product (W6 (F := Ideal) m ρ c (Proc.devRef .tc main_v27)) (W6 (F := Ideal) m ρ c (Proc.devRef .tc main_arg6)) = _
  rw [W6_v27, W6_arg6]
/-- The second aggregate, of the products. -/
theorem W8_v38 (c : Dev nD) : W8 (F := Ideal) m ρ c (Proc.devRef .tc main_v38) = (aggK (Regions.product (Regions.conv0 (aggK (scaledK (m ((c : Thread nD τ).loc main_arg0)) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg4)) (rowOf256 (m ((c : Thread nD τ).loc main_arg5))) (colOf (normK (m ((c : Thread nD τ).loc main_arg1))))) (m ((c : Thread nD τ).loc main_arg6))) (m ((c : Thread nD τ).loc main_arg1)) (m ((c : Thread nD τ).loc main_arg2))) := by
  show StableHlo.after hostOps2 (W7 (F := Ideal) m ρ c) (Proc.devRef .tc main_v38) = _
  rw [s2_v38, W7_v28, W7_arg1, W7_arg2]
theorem W8_v39 (c : Dev nD) : W8 (F := Ideal) m ρ c (Proc.devRef .tc main_v39) = rowOf128 (m ((c : Thread nD τ).loc main_arg7)) := by
  show StableHlo.after hostOps2 (W7 (F := Ideal) m ρ c) (Proc.devRef .tc main_v39) = _
  rw [s2_v39, W7_arg7]
/-- The third region's output: the second layer's rows, scaled for the next gather. -/
theorem W9_v40 (c : Dev nD) : W9 (F := Ideal) m ρ c (Proc.devRef .tc main_v40) = (Regions.post2 (aggK (Regions.product (Regions.conv0 (aggK (scaledK (m ((c : Thread nD τ).loc main_arg0)) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg4)) (rowOf256 (m ((c : Thread nD τ).loc main_arg5))) (colOf (normK (m ((c : Thread nD τ).loc main_arg1))))) (m ((c : Thread nD τ).loc main_arg6))) (m ((c : Thread nD τ).loc main_arg1)) (m ((c : Thread nD τ).loc main_arg2))) (colOf (normK (m ((c : Thread nD τ).loc main_arg2)))) (rowOf128 (m ((c : Thread nD τ).loc main_arg7))) (colOf (normK (m ((c : Thread nD τ).loc main_arg1))))) := by
  refine (W9_arr m ρ c 4).trans ?_
  rw [Regions.array2 (V8 m ρ) Cert.KernelEntries.postagg_entry c]
  show Regions.post2 (W8 (F := Ideal) m ρ c (Proc.devRef .tc main_v38)) (W8 (F := Ideal) m ρ c (Proc.devRef .tc main_v12)) (W8 (F := Ideal) m ρ c (Proc.devRef .tc main_v39)) (W8 (F := Ideal) m ρ c (Proc.devRef .tc main_v9)) = _
  rw [W8_v38, W8_v12, W8_v39, W8_v9]
/-- The third aggregate. -/
theorem W10_v50 (c : Dev nD) : W10 (F := Ideal) m ρ c (Proc.devRef .tc main_v50) = (aggK (Regions.post2 (aggK (Regions.product (Regions.conv0 (aggK (scaledK (m ((c : Thread nD τ).loc main_arg0)) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg4)) (rowOf256 (m ((c : Thread nD τ).loc main_arg5))) (colOf (normK (m ((c : Thread nD τ).loc main_arg1))))) (m ((c : Thread nD τ).loc main_arg6))) (m ((c : Thread nD τ).loc main_arg1)) (m ((c : Thread nD τ).loc main_arg2))) (colOf (normK (m ((c : Thread nD τ).loc main_arg2)))) (rowOf128 (m ((c : Thread nD τ).loc main_arg7))) (colOf (normK (m ((c : Thread nD τ).loc main_arg1))))) (m ((c : Thread nD τ).loc main_arg1)) (m ((c : Thread nD τ).loc main_arg2))) := by
  show StableHlo.after hostOps3 (W9 (F := Ideal) m ρ c) (Proc.devRef .tc main_v50) = _
  rw [s3_v50, W9_v40, W9_arg1, W9_arg2]
theorem W10_v51 (c : Dev nD) : W10 (F := Ideal) m ρ c (Proc.devRef .tc main_v51) = rowOf128 (m ((c : Thread nD τ).loc main_arg9)) := by
  show StableHlo.after hostOps3 (W9 (F := Ideal) m ρ c) (Proc.devRef .tc main_v51) = _
  rw [s3_v51, W9_arg9]
/-- The fourth region's output: the third layer's rows. -/
theorem W11_v52 (c : Dev nD) : W11 (F := Ideal) m ρ c (Proc.devRef .tc main_v52) = (Regions.conv3 (aggK (Regions.post2 (aggK (Regions.product (Regions.conv0 (aggK (scaledK (m ((c : Thread nD τ).loc main_arg0)) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg4)) (rowOf256 (m ((c : Thread nD τ).loc main_arg5))) (colOf (normK (m ((c : Thread nD τ).loc main_arg1))))) (m ((c : Thread nD τ).loc main_arg6))) (m ((c : Thread nD τ).loc main_arg1)) (m ((c : Thread nD τ).loc main_arg2))) (colOf (normK (m ((c : Thread nD τ).loc main_arg2)))) (rowOf128 (m ((c : Thread nD τ).loc main_arg7))) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg8)) (rowOf128 (m ((c : Thread nD τ).loc main_arg9))) onesCol) := by
  refine (W11_arr m ρ c 5).trans ?_
  rw [Regions.array3 (V10 m ρ) Cert.KernelEntries.conv128_entry c]
  show Regions.conv3 (W10 (F := Ideal) m ρ c (Proc.devRef .tc main_v50)) (W10 (F := Ideal) m ρ c (Proc.devRef .tc main_v12)) (W10 (F := Ideal) m ρ c (Proc.devRef .tc main_arg8)) (W10 (F := Ideal) m ρ c (Proc.devRef .tc main_v51)) (W10 (F := Ideal) m ρ c (Proc.devRef .tc main_v13)) = _
  rw [W10_v50, W10_v12, W10_arg8, W10_v51, W10_v13]
/-- The per-graph sums: the program's first result, where the last region finds it. -/
theorem W12_v55 (c : Dev nD) : W12 (F := Ideal) m ρ c (Proc.devRef .tc main_v55) = (poolK (m ((c : Thread nD τ).loc main_arg3)) (Regions.conv3 (aggK (Regions.post2 (aggK (Regions.product (Regions.conv0 (aggK (scaledK (m ((c : Thread nD τ).loc main_arg0)) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg4)) (rowOf256 (m ((c : Thread nD τ).loc main_arg5))) (colOf (normK (m ((c : Thread nD τ).loc main_arg1))))) (m ((c : Thread nD τ).loc main_arg6))) (m ((c : Thread nD τ).loc main_arg1)) (m ((c : Thread nD τ).loc main_arg2))) (colOf (normK (m ((c : Thread nD τ).loc main_arg2)))) (rowOf128 (m ((c : Thread nD τ).loc main_arg7))) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg8)) (rowOf128 (m ((c : Thread nD τ).loc main_arg9))) onesCol)) := by
  show StableHlo.after hostOps4 (W11 (F := Ideal) m ρ c) (Proc.devRef .tc main_v55) = _
  rw [s4_v55, W11_v52, W11_arg3]
theorem W12_v56 (c : Dev nD) : W12 (F := Ideal) m ρ c (Proc.devRef .tc main_v56) = rowOf128 (m ((c : Thread nD τ).loc main_arg14)) := by
  show StableHlo.after hostOps4 (W11 (F := Ideal) m ρ c) (Proc.devRef .tc main_v56) = _
  rw [s4_v56, W11_arg14]
theorem W12_v57 (c : Dev nD) : W12 (F := Ideal) m ρ c (Proc.devRef .tc main_v57) = rowOf128 (m ((c : Thread nD τ).loc main_arg15)) := by
  show StableHlo.after hostOps4 (W11 (F := Ideal) m ρ c) (Proc.devRef .tc main_v57) = _
  rw [s4_v57, W11_arg15]
theorem W12_v58 (c : Dev nD) : W12 (F := Ideal) m ρ c (Proc.devRef .tc main_v58) = rowOf128 (m ((c : Thread nD τ).loc main_arg11)) := by
  show StableHlo.after hostOps4 (W11 (F := Ideal) m ρ c) (Proc.devRef .tc main_v58) = _
  rw [s4_v58, W11_arg11]
theorem W12_v59 (c : Dev nD) : W12 (F := Ideal) m ρ c (Proc.devRef .tc main_v59) = rowOf10 (m ((c : Thread nD τ).loc main_arg13)) := by
  show StableHlo.after hostOps4 (W11 (F := Ideal) m ρ c) (Proc.devRef .tc main_v59) = _
  rw [s4_v59, W11_arg13]

/-! ## The two results -/

/-- The first result: the per-graph sums. -/
theorem result0 (c : Dev nD) : W13 (F := Ideal) m ρ c (Proc.devRef .tc main_v55) = (poolK (m ((c : Thread nD τ).loc main_arg3)) (Regions.conv3 (aggK (Regions.post2 (aggK (Regions.product (Regions.conv0 (aggK (scaledK (m ((c : Thread nD τ).loc main_arg0)) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg4)) (rowOf256 (m ((c : Thread nD τ).loc main_arg5))) (colOf (normK (m ((c : Thread nD τ).loc main_arg1))))) (m ((c : Thread nD τ).loc main_arg6))) (m ((c : Thread nD τ).loc main_arg1)) (m ((c : Thread nD τ).loc main_arg2))) (colOf (normK (m ((c : Thread nD τ).loc main_arg2)))) (rowOf128 (m ((c : Thread nD τ).loc main_arg7))) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg8)) (rowOf128 (m ((c : Thread nD τ).loc main_arg9))) onesCol)) :=
  ((W13_arr m ρ c 0).trans (((dat4 (V12 m ρ) c).arrAt_in 0 rfl _).trans (A_eq4 (V12 m ρ) c 0))).trans (W12_v55 m ρ c)
/-- The second result: the log-probabilities the last region leaves. -/
theorem result1 (c : Dev nD) : W13 (F := Ideal) m ρ c (Proc.devRef .tc main_v60) = (k4_pay1 (F := Ideal) (k4_pay2 (F := Ideal) (poolK (m ((c : Thread nD τ).loc main_arg3)) (Regions.conv3 (aggK (Regions.post2 (aggK (Regions.product (Regions.conv0 (aggK (scaledK (m ((c : Thread nD τ).loc main_arg0)) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg4)) (rowOf256 (m ((c : Thread nD τ).loc main_arg5))) (colOf (normK (m ((c : Thread nD τ).loc main_arg1))))) (m ((c : Thread nD τ).loc main_arg6))) (m ((c : Thread nD τ).loc main_arg1)) (m ((c : Thread nD τ).loc main_arg2))) (colOf (normK (m ((c : Thread nD τ).loc main_arg2)))) (rowOf128 (m ((c : Thread nD τ).loc main_arg7))) (colOf (normK (m ((c : Thread nD τ).loc main_arg1))))) (m ((c : Thread nD τ).loc main_arg1)) (m ((c : Thread nD τ).loc main_arg2))) (colOf (normK (m ((c : Thread nD τ).loc main_arg2)))) (m ((c : Thread nD τ).loc main_arg8)) (rowOf128 (m ((c : Thread nD τ).loc main_arg9))) onesCol)) (rowOf128 (m ((c : Thread nD τ).loc main_arg14))) (rowOf128 (m ((c : Thread nD τ).loc main_arg15))) (m ((c : Thread nD τ).loc main_arg10)) (rowOf128 (m ((c : Thread nD τ).loc main_arg11))) (m ((c : Thread nD τ).loc main_arg12))) (rowOf10 (m ((c : Thread nD τ).loc main_arg13)))) := by
  refine (W13_arr m ρ c 7).trans ?_
  rw [Regions.array4 (V12 m ρ) c]
  show k4_pay1 (F := Ideal) (k4_pay2 (F := Ideal) (W12 (F := Ideal) m ρ c (Proc.devRef .tc main_v55)) (W12 (F := Ideal) m ρ c (Proc.devRef .tc main_v56)) (W12 (F := Ideal) m ρ c (Proc.devRef .tc main_v57)) (W12 (F := Ideal) m ρ c (Proc.devRef .tc main_arg10)) (W12 (F := Ideal) m ρ c (Proc.devRef .tc main_v58)) (W12 (F := Ideal) m ρ c (Proc.devRef .tc main_arg12))) (W12 (F := Ideal) m ρ c (Proc.devRef .tc main_v59)) = _
  rw [W12_v55, W12_v56, W12_v57, W12_arg10, W12_v58, W12_arg12, W12_v59]

end Cert.KernelIdeal.Chain

end
-- ==== Proof.LibScatterAddReindex.lean ====
/-
  The accumulating scatter on the extended reals, read at an index and carried across a re-indexing of the updates.

  At the ideal instance the host's scatter with an `add` body gives, at operand index `i`, the operand's element plus
  the sum of the update elements whose result index is `i` (start index plus window coordinate on every axis, when that
  is inside the operand). Two such scatters over ONE index array, with different layouts of operand and updates (for
  instance one the transpose of the other), agree at a pair of operand indices `i`, `i'` as soon as the operands agree
  there and a bijection of the update indices carries the updates landing on `i` onto the updates landing on `i'`, with
  equal update elements: the two sums are one sum, re-indexed.
-/
import Idealize.ShloMosaic.PureOps.Ideal
import Idealize.ShloMosaic.PureOps.Contract

namespace Cert.Lib

open Idealize.ShloMosaic

variable {w : Nat} {s si u : Shape}

/-- An update index lands at `i` exactly when its start plus window coordinate is, on every operand axis, the
    coordinate of `i`. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have hv : (d.start j idx a + (d.window j a : Int)).toNat = (i a).val := congrArg Fin.val e'
      rw [← hv]; exact (Int.toNat_of_nonneg (h a).1).symm
    · intro e
      congr 1
      funext a
      apply Fin.ext
      show (d.start j idx a + (d.window j a : Int)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- The host's accumulating scatter at the ideal instance is the exact sum. -/
theorem hostScatterAdd_ideal {φ : FTy} (d : ScatterDims s si u) (x : FVec Ideal s φ) (idx : IVec si w) (upd : FVec Ideal u φ) :
    Host.scatterAdd (F := Ideal) d x idx upd = Ideal.hostScatterAdd d x idx upd := rfl

/-- TWO LAYOUTS OF ONE ACCUMULATION. Operands that agree at `i` / `i'`, and a bijection `e` of the update indices under
    which landing on `i` is landing on `i'` and the update elements correspond: the two scatters agree at `i` / `i'`. -/
theorem hostScatterAdd_reindex {s' u' : Shape} (d : ScatterDims s si u) (d' : ScatterDims s' si u')
    (x : s.Idx → EReal) (x' : s'.Idx → EReal) (idx : IVec si w) (upd : u.Idx → EReal) (upd' : u'.Idx → EReal)
    (e : u.Idx ≃ u'.Idx) (i : s.Idx) (i' : s'.Idx)
    (hx : x i = x' i') (hupd : ∀ j, upd j = upd' (e j))
    (hres : ∀ j, d.resultIdx? j idx = some i ↔ d'.resultIdx? (e j) idx = some i') :
    Ideal.hostScatterAdd d x idx upd i = Ideal.hostScatterAdd d' x' idx upd' i' := by
  unfold Ideal.hostScatterAdd
  rw [hx]
  congr 1
  exact Finset.sum_equiv e
    (fun j => by simp only [Finset.mem_filter, Finset.mem_univ, true_and]; exact hres j) (fun j _ => hupd j)

end Cert.Lib
-- ==== Proof.LibScatterRowsCols.lean ====
/-
  Where an update lands, for the two layouts of a scatter along one axis of a matrix.

  ROWS: operand [N, C], M scalar indices given as an [M, 1] array, updates [M, C]: update (r, c) lands at (idx r, c).
  COLUMNS: operand [C, N], the same indices, updates [C, M]: update (c, r) lands at (c, idx r).
  In both the index word is read signed and is not clamped: an update whose index is negative or at least N is dropped.
  So the accumulating scatter by rows, read at (p, c), and by columns, read at (c, p), of updates that are transposes
  of each other onto operands that agree there, are the same number on the extended reals.
-/
import Idealize.ShloMosaic.Lib.ValueIdx
import proofs.«180929_j77764677861851_2_alg».proof.Proof.LibScatterAddReindex

namespace Cert.Lib

open Idealize.ShloMosaic Idealize.ShloMosaic.ValueIdx

variable {N M C w : Nat}

/-- The dimension numbers of a scatter of whole rows: the update's axis 1 is the window, the operand's axis 0 is
    inserted and is the one the index names, the index vector lies along axis 1 of the index array. -/
structure IsRowScatter (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- The dimension numbers of a scatter of whole columns: the update's axis 0 is the window, the operand's axis 1 is
    inserted and is the one the index names. -/
structure IsColScatter (d : ScatterDims ⟨2, ![C, N]⟩ ⟨2, ![M, 1]⟩ ⟨2, ![C, M]⟩) : Prop where
  uw : d.updateWindowDims = [0]
  iw : d.insertedWindowDims = [1]
  sd : d.scatterDimsToOperandDims = [1]
  iv : d.indexVectorDim = 1

private theorem mem00 : (0 : Fin 2) ∈ ([0] : List (Fin 2)) := by decide
private theorem mem10 : (1 : Fin 2) ∉ ([0] : List (Fin 2)) := by decide
private theorem mem11 : (1 : Fin 2) ∈ ([1] : List (Fin 2)) := by decide
private theorem mem01 : (0 : Fin 2) ∉ ([1] : List (Fin 2)) := by decide
private theorem kept0_1 : (1 : Fin 2) ∈ (List.finRange 2).filter (· ∉ ([0] : List (Fin 2))) := by decide
private theorem kept0_0 : (0 : Fin 2) ∉ (List.finRange 2).filter (· ∉ ([0] : List (Fin 2))) := by decide
private theorem kept1_0 : (0 : Fin 2) ∈ (List.finRange 2).filter (· ∉ ([1] : List (Fin 2))) := by decide
private theorem kept1_1 : (1 : Fin 2) ∉ (List.finRange 2).filter (· ∉ ([1] : List (Fin 2))) := by decide

/-- On the axis the index names, the window starts at the index word of the update's row, read signed. -/
theorem row_start_scat (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem00 ha

/-- On the other axis it starts at zero. -/
theorem row_start_win (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 1 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem10
  · rfl

/-- The window has no extent along the axis the index names. -/
theorem row_window_scat (d : ScatterDims ⟨2, ![N, C]⟩ ⟨2, ![M, 1]⟩ ⟨2, ![M, C]⟩) (hd : IsRowScatter d)
    (j : (⟨2, ![M, C]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept0_0
  · rfl

/-- Along the other axis the window coordinate is the update's. -/
theorem row_window_win (d : ScatterDims ⟨2, ![N, C]⟩ ⟨2, ![M, 1]⟩ ⟨2, ![M, C]⟩) (hd : IsRowScatter d)
    (j : (⟨2, ![M, C]⟩ : Shape).Idx) : d.window j 1 = (j 1).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept0_1 ha

/-- Update (r, c) of a row scatter lands at (idx r, c). -/
theorem row_resultIdx? (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) (i : (⟨2, ![N, C]⟩ : Shape).Idx) :
    d.resultIdx? j idx = some i ↔
      (idx (ix2 (j 0) (0 : Fin 1))).toInt = ((i 0).val : Int) ∧ (j 1).val = (i 1).val := by
  rw [resultIdx?_eq_some_iff]
  constructor
  · intro H
    have Ha := H 0
    have Hb := H 1
    rw [row_start_scat d hd, row_window_scat d hd] at Ha
    rw [row_start_win d hd, row_window_win d hd] at Hb
    exact ⟨by simpa using Ha, by exact_mod_cast (by simpa using Hb : ((j 1).val : Int) = ((i 1).val : Int))⟩
  · rintro ⟨Ha, Hb⟩ x
    have ea : d.start j idx 0 + (d.window j 0 : Int) = ((i 0).val : Int) := by
      rw [row_start_scat d hd, row_window_scat d hd, Ha]; simp
    have eb : d.start j idx 1 + (d.window j 1 : Int) = ((i 1).val : Int) := by
      rw [row_start_win d hd, row_window_win d hd, Hb]; simp
    match x with
    | ⟨0, _⟩ => exact ea
    | ⟨1, _⟩ => exact eb

/-- On the axis the index names, the window starts at the index word of the update's column, read signed. -/
theorem col_start_scat (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 1 = (idx (ix2 (j 1) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem11 ha

/-- On the other axis it starts at zero. -/
theorem col_start_win (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 0 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem01
  · rfl

/-- The window has no extent along the axis the index names. -/
theorem col_window_scat (d : ScatterDims ⟨2, ![C, N]⟩ ⟨2, ![M, 1]⟩ ⟨2, ![C, M]⟩) (hd : IsColScatter d)
    (j : (⟨2, ![C, M]⟩ : Shape).Idx) : d.window j 1 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept1_1
  · rfl

/-- Along the other axis the window coordinate is the update's. -/
theorem col_window_win (d : ScatterDims ⟨2, ![C, N]⟩ ⟨2, ![M, 1]⟩ ⟨2, ![C, M]⟩) (hd : IsColScatter d)
    (j : (⟨2, ![C, M]⟩ : Shape).Idx) : d.window j 0 = (j 0).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept1_0 ha

/-- Update (c, r) of a column scatter lands at (c, idx r). -/
theorem col_resultIdx? (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) (i : (⟨2, ![C, N]⟩ : Shape).Idx) :
    d.resultIdx? j idx = some i ↔
      (idx (ix2 (j 1) (0 : Fin 1))).toInt = ((i 1).val : Int) ∧ (j 0).val = (i 0).val := by
  rw [resultIdx?_eq_some_iff]
  constructor
  · intro H
    have Ha := H 1
    have Hb := H 0
    rw [col_start_scat d hd, col_window_scat d hd] at Ha
    rw [col_start_win d hd, col_window_win d hd] at Hb
    exact ⟨by simpa using Ha, by exact_mod_cast (by simpa using Hb : ((j 0).val : Int) = ((i 0).val : Int))⟩
  · rintro ⟨Ha, Hb⟩ x
    have ea : d.start j idx 1 + (d.window j 1 : Int) = ((i 1).val : Int) := by
      rw [col_start_scat d hd, col_window_scat d hd, Ha]; simp
    have eb : d.start j idx 0 + (d.window j 0 : Int) = ((i 0).val : Int) := by
      rw [col_start_win d hd, col_window_win d hd, Hb]; simp
    match x with
    | ⟨1, _⟩ => exact ea
    | ⟨0, _⟩ => exact eb

/-- The transposition of update indices, [A, B] ↔ [B, A]. -/
def swapIdx (A B : Nat) : (⟨2, ![A, B]⟩ : Shape).Idx ≃ (⟨2, ![B, A]⟩ : Shape).Idx where
  toFun j := ix2 (j 1) (j 0)
  invFun j := ix2 (j 1) (j 0)
  left_inv j := (eq_ix2 j).symm
  right_inv j := (eq_ix2 j).symm

/-- ROWS AGAINST COLUMNS: the accumulating scatter of the rows `upd` read at (p, c) is the accumulating scatter of the
    columns `upd'` read at (c, p), the updates transposes of each other and the operands equal there. -/
theorem scatterAdd_rows_eq_cols (d : ScatterDims ⟨2, ![N, C]⟩ ⟨2, ![M, 1]⟩ ⟨2, ![M, C]⟩) (hd : IsRowScatter d)
    (d' : ScatterDims ⟨2, ![C, N]⟩ ⟨2, ![M, 1]⟩ ⟨2, ![C, M]⟩) (hd' : IsColScatter d')
    (x : (⟨2, ![N, C]⟩ : Shape).Idx → EReal) (x' : (⟨2, ![C, N]⟩ : Shape).Idx → EReal) (idx : IVec ⟨2, ![M, 1]⟩ w)
    (upd : (⟨2, ![M, C]⟩ : Shape).Idx → EReal) (upd' : (⟨2, ![C, M]⟩ : Shape).Idx → EReal)
    (p : Fin N) (c : Fin C) (hx : x (ix2 p c) = x' (ix2 c p))
    (hupd : ∀ (r : Fin M) (c : Fin C), upd (ix2 r c) = upd' (ix2 c r)) :
    Ideal.hostScatterAdd d x idx upd (ix2 p c) = Ideal.hostScatterAdd d' x' idx upd' (ix2 c p) := by
  refine hostScatterAdd_reindex d d' x x' idx upd upd' (swapIdx M C) (ix2 p c) (ix2 c p) hx ?_ ?_
  · intro j
    rw [eq_ix2 j]
    exact hupd (j 0) (j 1)
  · intro j
    rw [row_resultIdx? d hd, col_resultIdx? d' hd']
    exact Iff.rfl

end Cert.Lib
-- ==== Proof.LibScatterVec.lean ====
/-
  Where an update lands, for a scatter of scalars into a vector.

  Operand [N], M scalar indices given as an [M, 1] array, updates [M]: update r lands at idx r. The index word is read
  signed and is not clamped: an update whose index is negative or at least N is dropped.
-/
import Idealize.ShloMosaic.Lib.ValueIdx
import proofs.«180929_j77764677861851_2_alg».proof.Proof.LibScatterAddReindex

namespace Cert.Lib

open Idealize.ShloMosaic Idealize.ShloMosaic.ValueIdx

variable {N M w : Nat}

/-- The dimension numbers of a scatter of scalars into a vector: no window axis in the updates, the operand's one axis
    inserted and named by the index, the index vector along axis 1 of the index array. -/
structure IsVecScatter (d : ScatterDims ⟨1, ![N]⟩ ⟨2, ![M, 1]⟩ ⟨1, ![M]⟩) : Prop where
  uw : d.updateWindowDims = []
  iw : d.insertedWindowDims = [0]
  sd : d.scatterDimsToOperandDims = [0]
  iv : d.indexVectorDim = 1

private theorem vmem00 : (0 : Fin 1) ∈ ([0] : List (Fin 1)) := by decide
private theorem vkept0 : (0 : Fin 1) ∉ (List.finRange 1).filter (· ∉ ([0] : List (Fin 1))) := by decide

/-- The window starts at the index word of the update, read signed. -/
theorem vec_start (d : ScatterDims ⟨1, ![N]⟩ ⟨2, ![M, 1]⟩ ⟨1, ![M]⟩) (hd : IsVecScatter d)
    (j : (⟨1, ![M]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd vmem00 ha

/-- The window has no extent. -/
theorem vec_window (d : ScatterDims ⟨1, ![N]⟩ ⟨2, ![M, 1]⟩ ⟨1, ![M]⟩) (hd : IsVecScatter d)
    (j : (⟨1, ![M]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha vkept0
  · rfl

/-- Update r of a scatter of scalars lands at idx r. -/
theorem vec_resultIdx? (d : ScatterDims ⟨1, ![N]⟩ ⟨2, ![M, 1]⟩ ⟨1, ![M]⟩) (hd : IsVecScatter d)
    (j : (⟨1, ![M]⟩ : Shape).Idx) (idx : IVec ⟨2, ![M, 1]⟩ w) (i : (⟨1, ![N]⟩ : Shape).Idx) :
    d.resultIdx? j idx = some i ↔ (idx (ix2 (j 0) (0 : Fin 1))).toInt = ((i 0).val : Int) := by
  rw [resultIdx?_eq_some_iff]
  constructor
  · intro H
    have Ha := H 0
    rw [vec_start d hd, vec_window d hd] at Ha
    simpa using Ha
  · intro Ha x
    have ea : d.start j idx 0 + (d.window j 0 : Int) = ((i 0).val : Int) := by
      rw [vec_start d hd, vec_window d hd, Ha]; simp
    match x with
    | ⟨0, _⟩ => exact ea

end Cert.Lib
-- ==== Proof.LibScatterSum.lean ====
/-
  The accumulating scatter of whole rows, and of scalars into a vector, read at an entry as a sum over the update rows.

  For an index array with one index per update row, the entry (p, q) of a row scatter-add is the operand's entry plus
  the sum, over the update rows whose index word read signed is p, of the update's entry in column q; the entry p of a
  scatter-add of scalars is the operand's entry plus the sum of the updates whose index word is p. Rows whose index is
  negative or past the operand's last row match no p and contribute nothing.
-/
import proofs.«180929_j77764677861851_2_alg».proof.Proof.LibScatterRowsCols
import proofs.«180929_j77764677861851_2_alg».proof.Proof.LibScatterVec

namespace Cert.Lib

open Idealize.ShloMosaic Idealize.ShloMosaic.ValueIdx Finset

variable {N M C w : Nat}

/-- The row and the column of an entry of an [M, C] array, as numbers below M and C. -/
def rowOf (j : (⟨2, ![M, C]⟩ : Shape).Idx) : Fin M := j 0
def colOf (j : (⟨2, ![M, C]⟩ : Shape).Idx) : Fin C := j 1
/-- The position of an entry of an [M] array, as a number below M. -/
def posOf (j : (⟨1, ![M]⟩ : Shape).Idx) : Fin M := j 0

/-- A sum over the entries of an [M, C] array that lie in column q and whose row satisfies P is the sum over those rows. -/
theorem sum_rows_filter {A : Type*} [AddCommMonoid A] (P : Fin M → Prop) [DecidablePred P] (q : Fin C)
    (f : (⟨2, ![M, C]⟩ : Shape).Idx → A) :
    ∑ j ∈ univ.filter (fun j : (⟨2, ![M, C]⟩ : Shape).Idx => P (rowOf j) ∧ (colOf j).val = q.val), f j
      = ∑ r ∈ univ.filter P, f (ix2 r q) := by
  symm
  refine Finset.sum_bij' (fun r _ => ix2 r q) (fun j _ => rowOf j) ?_ ?_ ?_ ?_ ?_
  · intro r hr
    simp only [mem_filter, mem_univ, true_and] at hr ⊢
    exact ⟨hr, rfl⟩
  · intro j hj
    simp only [mem_filter, mem_univ, true_and] at hj ⊢
    exact hj.1
  · intro r _; rfl
  · intro j hj
    simp only [mem_filter, mem_univ, true_and] at hj
    have e : colOf j = q := Fin.ext hj.2
    rw [← e]
    exact (eq_ix2 j).symm
  · intro r _; rfl

/-- A sum over the entries of an [M] array whose position satisfies P is the sum over those positions. -/
theorem sum_entries_filter {A : Type*} [AddCommMonoid A] (P : Fin M → Prop) [DecidablePred P]
    (f : (⟨1, ![M]⟩ : Shape).Idx → A) :
    ∑ j ∈ univ.filter (fun j : (⟨1, ![M]⟩ : Shape).Idx => P (posOf j)), f j = ∑ r ∈ univ.filter P, f (ix1 r) := by
  symm
  refine Finset.sum_bij' (fun r _ => ix1 r) (fun j _ => posOf j) ?_ ?_ ?_ ?_ ?_
  · intro r hr
    simp only [mem_filter, mem_univ, true_and] at hr ⊢
    exact hr
  · intro j hj
    simp only [mem_filter, mem_univ, true_and] at hj ⊢
    exact hj
  · intro r _; rfl
  · intro j _; exact (eq_ix1 j).symm
  · intro r _; rfl

/-- A row scatter-add at the ideal instance, read at (p, q). -/
theorem rowScatterAdd_apply {φ : FTy} (d : ScatterDims ⟨2, ![N, C]⟩ ⟨2, ![M, 1]⟩ ⟨2, ![M, C]⟩) (hd : IsRowScatter d)
    (x : FVec Ideal ⟨2, ![N, C]⟩ φ) (idx : IVec ⟨2, ![M, 1]⟩ w) (upd : FVec Ideal ⟨2, ![M, C]⟩ φ) (p : Fin N) (q : Fin C) :
    Host.scatterAdd (F := Ideal) d x idx upd (ix2 p q)
      = x (ix2 p q) + ∑ r ∈ univ.filter (fun r : Fin M => (idx (ix2 r (0 : Fin 1))).toInt = (p.val : Int)), upd (ix2 r q) := by
  rw [hostScatterAdd_ideal]
  unfold Ideal.hostScatterAdd
  congr 1
  rw [← sum_rows_filter (fun r : Fin M => (idx (ix2 r (0 : Fin 1))).toInt = (p.val : Int)) q upd]
  refine Finset.sum_congr ?_ (fun _ _ => rfl)
  ext j
  simp only [mem_filter, mem_univ, true_and]
  exact row_resultIdx? d hd j idx (ix2 p q)

/-- A scatter-add of scalars into a vector at the ideal instance, read at p. -/
theorem vecScatterAdd_apply {φ : FTy} (d : ScatterDims ⟨1, ![N]⟩ ⟨2, ![M, 1]⟩ ⟨1, ![M]⟩) (hd : IsVecScatter d)
    (x : FVec Ideal ⟨1, ![N]⟩ φ) (idx : IVec ⟨2, ![M, 1]⟩ w) (upd : FVec Ideal ⟨1, ![M]⟩ φ) (p : Fin N) :
    Host.scatterAdd (F := Ideal) d x idx upd (ix1 p)
      = x (ix1 p) + ∑ r ∈ univ.filter (fun r : Fin M => (idx (ix2 r (0 : Fin 1))).toInt = (p.val : Int)), upd (ix1 r) := by
  rw [hostScatterAdd_ideal]
  unfold Ideal.hostScatterAdd
  congr 1
  rw [← sum_entries_filter (fun r : Fin M => (idx (ix2 r (0 : Fin 1))).toInt = (p.val : Int)) upd]
  refine Finset.sum_congr ?_ (fun _ _ => rfl)
  ext j
  simp only [mem_filter, mem_univ, true_and]
  exact vec_resultIdx? d hd j idx (ix1 p)

end Cert.Lib
-- ==== Proof.LibGatherRows.lean ====
/-
  A gather of whole rows of a matrix, and of entries of a vector, by one index per row of an [M, 1] index array,
  read at an index.

  ROWS: operand [N, C], indices [M, 1], result [M, C]: entry (e, j) is the operand at (clamp (idx e), j).
  ENTRIES: operand [N], the same indices, result [M]: entry e is the operand at clamp (idx e).
  In both the index word is read signed and clamped into [0, N − 1] (a negative word to 0), the same clamp for the
  two layouts: a row gathered from a matrix and an entry gathered from a vector by one index array come from one row.
-/
import Idealize.ShloMosaic.Lib.ValueIdx

namespace Cert.Lib

open Idealize.ShloMosaic Idealize.ShloMosaic.ValueIdx

variable {N M C w : Nat} {α : Type}

/-- The row the index word of entry `e` names, read signed and clamped into the operand. -/
def clampRow (N : Nat) (hN : 0 < N) (idx : IVec ⟨2, ![M, 1]⟩ w) (e : Fin M) : Fin N :=
  ⟨min (idx (ix2 e (0 : Fin 1))).toInt.toNat (N - 1), by omega⟩

/-- A word that is a row number, read signed, clamps to that row. -/
theorem clampRow_of_toInt (hN : 0 < N) (idx : IVec ⟨2, ![M, 1]⟩ w) (e : Fin M) (p : Fin N)
    (h : (idx (ix2 e (0 : Fin 1))).toInt = (p.val : Int)) : clampRow N hN idx e = p := by
  apply Fin.ext
  show min (idx (ix2 e (0 : Fin 1))).toInt.toNat (N - 1) = p.val
  rw [h, Int.toNat_natCast]
  have := p.isLt
  omega

/-- The clamped row depends only on the index words. -/
theorem clampRow_congr (hN : 0 < N) (idx idx' : IVec ⟨2, ![M, 1]⟩ w) (e : Fin M)
    (h : idx (ix2 e (0 : Fin 1)) = idx' (ix2 e (0 : Fin 1))) : clampRow N hN idx e = clampRow N hN idx' e := by
  apply Fin.ext
  show min (idx (ix2 e (0 : Fin 1))).toInt.toNat (N - 1) = min (idx' (ix2 e (0 : Fin 1))).toInt.toNat (N - 1)
  rw [h]

/-- The dimension numbers of a gather of whole rows, as a record over given sizes. -/
abbrev rowDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem rowDims_gather_apply (hN : 0 < N) (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowDims N M C wf) x idx (ix2 e j) = x (ix2 (clampRow N hN idx e) j) := by
  unfold Host.gather
  congr 1
  funext a
  refine Fin.ext ?_
  match a with
  | ⟨0, _⟩ =>
    show (rowDims N M C wf).start (ix2 e j) idx 0 + (rowDims N M C wf).batchCoord (ix2 e j) 0 + (rowDims N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M C wf).startIndexMap from List.mem_singleton.mpr rfl)]
    have hsi : (rowDims N M C wf).siIdx (ix2 e j) ⟨List.idxOf (0 : Fin 2) (rowDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M C wf).start (ix2 e j) idx 1 + (rowDims N M C wf).batchCoord (ix2 e j) 1 + (rowDims N M C wf).offCoord (ix2 e j) 1 = j.val
    rw [GatherDims.batchCoord_eq_zero _ _ _ List.not_mem_nil]
    unfold GatherDims.start GatherDims.offCoord
    rw [dif_neg (show ¬ (1 : Fin 2) ∈ (rowDims N M C wf).startIndexMap from (by decide : ¬ (1 : Fin 2) ∈ ([0] : List (Fin 2)))),
      dif_pos (show (1 : Fin 2) ∈ (rowDims N M C wf).sKept from
        (by decide : (1 : Fin 2) ∈ (List.finRange 2).filter (· ∉ (([0] : List (Fin 2)) ++ []))))]
    simp only [Nat.zero_add, Nat.add_zero]
    rfl

theorem vecDims_gather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN idx e)) := by
  unfold Host.gather
  congr 1
  funext a
  refine Fin.ext ?_
  match a with
  | ⟨0, _⟩ =>
    show (vecDims N M wf).start (ix1 e) idx 0 + (vecDims N M wf).batchCoord (ix1 e) 0 + (vecDims N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N M wf).startIndexMap from List.mem_singleton.mpr rfl)]
    have hsi : (vecDims N M wf).siIdx (ix1 e) ⟨List.idxOf (0 : Fin 1) (vecDims N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The dimension numbers of a gather of whole rows. -/
structure IsRowGather (d : GatherDims ⟨2, ![N, C]⟩ ⟨2, ![M, 1]⟩ ⟨2, ![M, C]⟩) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, C]

/-- The dimension numbers of a gather of entries of a vector. -/
structure IsVecGather (d : GatherDims ⟨1, ![N]⟩ ⟨2, ![M, 1]⟩ ⟨1, ![M]⟩) : Prop where
  od : d.offsetDims = []
  cs : d.collapsedSliceDims = [0]
  ob : d.operandBatchingDims = []
  sb : d.startIndicesBatchingDims = []
  sm : d.startIndexMap = [0]
  iv : d.indexVectorDim = 1
  ss : d.sliceSizes = ![1]

/-- A gather of rows read at (e, j): the operand at (the clamped row idx e, j). -/
theorem row_gather_apply (hN : 0 < N) (d : GatherDims ⟨2, ![N, C]⟩ ⟨2, ![M, 1]⟩ ⟨2, ![M, C]⟩) (hd : IsRowGather d)
    (x : (⟨2, ![N, C]⟩ : Shape).Idx → α) (idx : IVec ⟨2, ![M, 1]⟩ w) (e : Fin M) (j : Fin C) :
    Host.gather d x idx (ix2 e j) = x (ix2 (clampRow N hN idx e) j) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact rowDims_gather_apply hN wf x idx e j

/-- A gather of entries read at e: the operand at the clamped index idx e. -/
theorem vec_gather_apply (hN : 0 < N) (d : GatherDims ⟨1, ![N]⟩ ⟨2, ![M, 1]⟩ ⟨1, ![M]⟩) (hd : IsVecGather d)
    (x : (⟨1, ![N]⟩ : Shape).Idx → α) (idx : IVec ⟨2, ![M, 1]⟩ w) (e : Fin M) :
    Host.gather d x idx (ix1 e) = x (ix1 (clampRow N hN idx e)) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact vecDims_gather_apply hN wf x idx e

end Cert.Lib
-- ==== Proof.AggEntry.lean ====
/-
  A message-passing aggregate read at an entry.

  Rows of a node array are gathered along the edges (one source index per edge) and summed at the edges' destination
  nodes (one destination index per edge).  Entry (p, q) of the result is the operand's entry plus the sum, over the
  edges whose destination word is p, of the entry in column q of the row the edge's source word names.
-/
import proofs.«180929_j77764677861851_2_alg».proof.Proof.LibScatterSum
import proofs.«180929_j77764677861851_2_alg».proof.Proof.LibGatherRows
import Idealize.ShloMosaic.Lib.ValueIdx
import Idealize.ShloMosaic.PureOps.Ideal

noncomputable section

namespace Cert.Agg

open Idealize.ShloMosaic Idealize.ShloMosaic.ValueIdx

/-- The edges arriving at node p: those whose destination index word, read signed, is p. -/
def arriving (iD : IVec ⟨2, ![800000, 1]⟩ 32) (p : Fin 50000) : Finset (Fin 800000) :=
  Finset.univ.filter fun e => (iD (ix2 e (0 : Fin 1))).toInt = (p.val : Int)

/-- The node an edge starts from: its source index word, read signed and clamped into the node range. -/
def startOf (iS : IVec ⟨2, ![800000, 1]⟩ 32) (e : Fin 800000) : Fin 50000 :=
  Cert.Lib.clampRow 50000 (by decide) iS e

/-- Rows gathered along the edges and summed at their destinations, read at (p, q): the operand's entry plus the
    sum, over the edges arriving at p, of the gathered array's entry in column q of the edge's starting node. -/
theorem agg_entry {C : Nat} (dS : ScatterDims ⟨2, ![50000, C]⟩ ⟨2, ![800000, 1]⟩ ⟨2, ![800000, C]⟩)
    (hS : Cert.Lib.IsRowScatter dS) (dG : GatherDims ⟨2, ![50000, C]⟩ ⟨2, ![800000, 1]⟩ ⟨2, ![800000, C]⟩)
    (hG : Cert.Lib.IsRowGather dG) (Z X : FVec Ideal ⟨2, ![50000, C]⟩ .f32) (iD iS : IVec ⟨2, ![800000, 1]⟩ 32)
    (p : Fin 50000) (q : Fin C) :
    Host.scatterAdd (F := Ideal) dS Z iD (Host.gather dG X iS) (ix2 p q)
      = Z (ix2 p q) + ∑ e ∈ arriving iD p, X (ix2 (startOf iS e) q) := by
  rw [Cert.Lib.rowScatterAdd_apply dS hS Z iD (Host.gather dG X iS) p q]
  unfold arriving startOf
  refine congrArg (Z (ix2 p q) + ·) (Finset.sum_congr rfl fun e _ => ?_)
  exact Cert.Lib.row_gather_apply (by decide) dG hG X iS e q

end Cert.Agg

end
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibBcastRowCol.lean ====
/-
  Rows and columns repeated by `broadcast_in_dim`, read at an entry.

  The host lays a vector down as one row (`dims = [1]`) or stands it up as one column (`dims = [0]`) and then repeats the
  row down the rows or the column along the lanes (`dims = [0, 1]`). Read at (p, q):
  * `vecRow_apply`     an [n] vector as a [1, n] row reads, at (0, k), the vector at k;
  * `vecRows_apply`    that row repeated to [m, n] reads, at (p, k), the vector at k;
  * `vecCol_apply`     an [m] vector as an [m, 1] column reads, at (p, 0), the vector at p;
  * `colSpread_apply`  an [m, 1] column repeated to [m, n] reads, at (p, q), the column at (p, 0).
  Companions of the library's `broadcastInDim_oneRow_apply` (a [1, n] row repeated to [m, n]).
-/
import Idealize.ShloMosaic.Lib.Pipeline.Value
import Idealize.ShloMosaic.Lib.ValueIdx
import Idealize.ShloMosaic.Lib.KernelVsHost

namespace Cert.LibBcastRowCol

open Idealize.ShloMosaic Idealize.ShloMosaic.ValueIdx

variable {α : Type}

/-- A vector laid down as one row reads, at (0, k), the vector at k. -/
theorem vecRow_apply {n : ℕ} (h : (⟨1, ![n]⟩ : Shape).BroadcastsInDim ⟨2, ![1, n]⟩ ![1])
    (b : (⟨1, ![n]⟩ : Shape).Idx → α) (k : Fin n) : broadcastInDim ⟨2, ![1, n]⟩ ![1] h b (ix2 (0 : Fin 1) k) = b (ix1 k) := by
  refine broadcastInDim_apply ![1] h b (ix2 (0 : Fin 1) k) (ix1 k) ?_
  intro a
  fin_cases a
  show k.val = if n = 1 then 0 else k.val
  split_ifs with hn
  · have := k.isLt; omega
  · rfl

/-- A vector repeated down the rows reads, at (p, k), the vector at k. -/
theorem vecRows_apply {m n : ℕ} (h : (⟨1, ![n]⟩ : Shape).BroadcastsInDim ⟨2, ![1, n]⟩ ![1])
    (h' : (⟨2, ![1, n]⟩ : Shape).BroadcastsInDim ⟨2, ![m, n]⟩ ![0, 1]) (b : (⟨1, ![n]⟩ : Shape).Idx → α) (p : Fin m) (k : Fin n) :
    broadcastInDim ⟨2, ![m, n]⟩ ![0, 1] h' (broadcastInDim ⟨2, ![1, n]⟩ ![1] h b) (ix2 p k) = b (ix1 k) := by
  rw [broadcastInDim_oneRow_apply, vecRow_apply]

/-- A per-row value stood up as a column reads, at (p, 0), the value of row p. -/
theorem vecCol_apply {m : ℕ} (h : (⟨1, ![m]⟩ : Shape).BroadcastsInDim ⟨2, ![m, 1]⟩ ![0])
    (u : (⟨1, ![m]⟩ : Shape).Idx → α) (p : Fin m) : broadcastInDim ⟨2, ![m, 1]⟩ ![0] h u (ix2 p (0 : Fin 1)) = u (ix1 p) := by
  refine broadcastInDim_apply ![0] h u (ix2 p (0 : Fin 1)) (ix1 p) ?_
  intro a
  fin_cases a
  show p.val = if m = 1 then 0 else p.val
  split_ifs with hm
  · have := p.isLt; omega
  · rfl

/-- A column repeated along the rows reads, at (p, q), the column at row p. -/
theorem colSpread_apply {m n : ℕ} (h : (⟨2, ![m, 1]⟩ : Shape).BroadcastsInDim ⟨2, ![m, n]⟩ ![0, 1])
    (v : (⟨2, ![m, 1]⟩ : Shape).Idx → α) (p : Fin m) (q : Fin n) :
    broadcastInDim ⟨2, ![m, n]⟩ ![0, 1] h v (ix2 p q) = v (ix2 p (0 : Fin 1)) := by
  refine broadcastInDim_apply ![0, 1] h v (ix2 p q) (ix2 p (0 : Fin 1)) ?_
  intro a
  fin_cases a
  · show p.val = if m = 1 then 0 else p.val
    split_ifs with hm
    · have := p.isLt; omega
    · rfl
  · show (0 : ℕ) = if (1 : ℕ) = 1 then 0 else _
    simp

end Cert.LibBcastRowCol
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.KernelLayout.lean ====
/-
  The host layout operations of the kernel's program, read at an entry.

  Between its launches the program reshapes a vector into one column or one row, repeats a column along the lanes,
  and splats a constant word over a whole array.  Read at an entry, each of these is the operand at the matching
  entry, or the extended real the word denotes: a column (p, 0) of a reshaped vector is the vector at p; a row (0, q)
  of a reshaped vector is the vector at q; a repeated column at (p, k) is the column at (p, 0); a splat of the word of
  1.0 is one, and a splat of the word of +0.0 is that word.
-/
import proofs.«180929_j77764677861851_2_alg».proof.KernelIdeal
import proofs.«180929_j77764677861851_2_alg».proof.Proof.Spec
import proofs.«180929_j77764677861851_2_alg».proof.Proof.LibColumnCast
import proofs.«180929_j77764677861851_2_alg».proof.Proof.LibBcastRowCol
import proofs.«180929_j77764677861851_2_alg».proof.Proof.LibHostRead
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelLayout

open Idealize.ShloMosaic Idealize.ShloMosaic.ValueIdx
open Cert.KernelIdeal Cert.KernelIdeal.Facts₀

variable [Facts₀]

/-- A 50000-vector reshaped to one column reads, at (p, 0), the vector at p. -/
theorem col_cast_entry (x : S50000.Idx → EReal) (p : Fin 50000) :
    shapeCast S50000x1 x shapeCasts_S50000_S50000x1 (ix2 p 0) = x (ix1 p) :=
  Cert.LibColumnCast.shapeCast_a_a1_apply x shapeCasts_S50000_S50000x1 p (0 : Fin 1)

/-- A 256-vector reshaped to one row reads, at (0, q), the vector at q. -/
theorem row_cast256_entry (x : S256.Idx → EReal) (q : Fin 256) :
    shapeCast S1x256 x shapeCasts_S256_S1x256 (ix2 0 q) = x (ix1 q) :=
  shapeCast_a_1a_apply x shapeCasts_S256_S1x256 (0 : Fin 1) q

/-- A 128-vector reshaped to one row reads, at (0, q), the vector at q. -/
theorem row_cast128_entry (x : S128.Idx → EReal) (q : Fin 128) :
    shapeCast S1x128 x shapeCasts_S128_S1x128 (ix2 0 q) = x (ix1 q) :=
  shapeCast_a_1a_apply x shapeCasts_S128_S1x128 (0 : Fin 1) q

/-- A 10-vector reshaped to one row reads, at (0, q), the vector at q. -/
theorem row_cast10_entry (x : S10.Idx → EReal) (q : Fin 10) :
    shapeCast S1x10 x shapeCasts_S10_S1x10 (ix2 0 q) = x (ix1 q) :=
  shapeCast_a_1a_apply x shapeCasts_S10_S1x10 (0 : Fin 1) q

/-- A 50000x1 column repeated along 128 lanes reads, at (p, k), the column at (p, 0). -/
theorem col_spread_entry (d : S50000x1.Idx → EReal) (p : Fin 50000) (k : Fin 128) :
    broadcastInDim S50000x128 ![0, 1] bcast_S50000x1_S50000x128_0_1 d (ix2 p k) = d (ix2 p 0) :=
  Cert.LibBcastRowCol.colSpread_apply bcast_S50000x1_S50000x128_0_1 d p k

/-- The splat of the word of 1.0 over a 50000x1 column reads one at every entry. -/
theorem ones_col_entry (p : Fin 50000) :
    broadcastInDim S50000x1 ![] bcast_S_S50000x1 (constant (F := Ideal) S_ .f32 0x3F800000#32) (ix2 p 0) = 1 :=
  (HostRead.splat_at bcast_S_S50000x1 0x3F800000#32 (ix2 p 0)).trans Ideal.ofBits_one_f32

/-- The splat of the word of +0.0 over a 50000x128 array reads that word at every entry. -/
theorem zeros_entry128 (p : Fin 50000) (q : Fin 128) :
    broadcastInDim S50000x128 ![] bcast_S_S50000x128 (constant (F := Ideal) S_ .f32 0x00000000#32) (ix2 p q) = Cert.Spec.zeroW :=
  HostRead.splat_at bcast_S_S50000x128 0x00000000#32 (ix2 p q)

/-- The splat of the word of +0.0 over a 128x128 array reads that word at every entry. -/
theorem zeros_entry_g (r q : Fin 128) :
    broadcastInDim S128x128 ![] bcast_S_S128x128 (constant (F := Ideal) S_ .f32 0x00000000#32) (ix2 r q) = Cert.Spec.zeroW :=
  HostRead.splat_at bcast_S_S128x128 0x00000000#32 (ix2 r q)

end Cert.KernelLayout

end
-- ==== Proof.KernelAgg.lean ====
/-
  The kernel program's message-passing aggregate, read at an entry.

  The rows of a node array are gathered along the normalised source index words and summed at the destination index
  words onto an array of zero words.  Entry (p, q) is the zero word plus the sum, over the edges arriving at p, of
  the node array's entry in column q of the edge's starting node.
-/
import proofs.«180929_j77764677861851_2_alg».proof.Proof.ChainDefs
import proofs.«180929_j77764677861851_2_alg».proof.Proof.AggEntry
import proofs.«180929_j77764677861851_2_alg».proof.Proof.KernelLayout

noncomputable section

namespace Cert.KernelAgg

open Idealize.ShloMosaic Idealize.ShloMosaic.ValueIdx
open Cert.KernelIdeal Cert.KernelIdeal.Gen

/-- The aggregate's scatter moves whole rows. -/
theorem rowScatterK : Cert.Lib.IsRowScatter scatter_S50000x128_S800000x1_S800000x128_1_0_0_1 := ⟨rfl, rfl, rfl, rfl⟩
/-- The aggregate's gather takes whole rows. -/
theorem rowGatherK : Cert.Lib.IsRowGather gather_S50000x128_S800000x1_S800000x128_1_0_n_n_0_1_1128 := ⟨rfl, rfl, rfl, rfl, rfl, rfl, rfl⟩

/-- The aggregate at (p, q): the zero word plus the sum over the arriving edges of the starting node's entry. -/
theorem aggK_entry (X : Cert.KernelIdeal.S50000x128.Idx → EReal) (x1 x2 : Cert.KernelIdeal.S800000.Idx → BitVec 32)
    (p : Fin 50000) (q : Fin 128) :
    Cert.KernelIdeal.Chain.aggK X x1 x2 (ix2 p q)
      = Cert.Spec.zeroW + ∑ e ∈ Cert.Agg.arriving (Cert.KernelIdeal.Chain.dstIdxK x2) p,
          X (ix2 (Cert.Agg.startOf (Cert.KernelIdeal.Chain.srcIdxK x1) e) q) := by
  unfold Cert.KernelIdeal.Chain.aggK
  refine (Cert.Agg.agg_entry scatter_S50000x128_S800000x1_S800000x128_1_0_0_1 rowScatterK gather_S50000x128_S800000x1_S800000x128_1_0_n_n_0_1_1128 rowGatherK _ X (Cert.KernelIdeal.Chain.dstIdxK x2)
    (Cert.KernelIdeal.Chain.srcIdxK x1) p q).trans ?_
  exact congrArg (· + _) (Cert.KernelLayout.zeros_entry128 p q)

end Cert.KernelAgg

end
-- ==== Proof.RefAgg.lean ====
/-
  The reference program's three message-passing aggregates, read at an entry.

  In each layer the rows of the scaled node array are gathered along the edges by the normalised source indices and
  summed at the destination indices onto an array of zero words.  Entry (p, k) is the zero word plus the sum, over
  the edges arriving at p, of the scaled array's entry in column k of the edge's starting node.  The three layers
  use one pair of index arrays: the later copies of the two index computations are the first ones.
-/
import proofs.«180929_j77764677861851_2_alg».proof.Proof.Gen.ReferenceIdeal.Read
import proofs.«180929_j77764677861851_2_alg».proof.Proof.Spec
import proofs.«180929_j77764677861851_2_alg».proof.Proof.AggEntry

noncomputable section

namespace Cert.RefAgg

open Idealize.ShloMosaic Idealize.ShloMosaic.ValueIdx
open Cert.ReferenceIdeal Cert.ReferenceIdeal.Gen Cert.ReferenceIdeal.Read

/-- The scatters into 128 columns move whole rows. -/
theorem rowScatter128 : Cert.Lib.IsRowScatter scatter_S50000x128_S800000x1_S800000x128_1_0_0_1 := ⟨rfl, rfl, rfl, rfl⟩
/-- The gathers from 128 columns take whole rows. -/
theorem rowGather128 : Cert.Lib.IsRowGather gather_S50000x128_S800000x1_S800000x128_1_0_n_n_0_1_1128 := ⟨rfl, rfl, rfl, rfl, rfl, rfl, rfl⟩
/-- The scatter into 256 columns moves whole rows. -/
theorem rowScatter256 : Cert.Lib.IsRowScatter scatter_S50000x256_S800000x1_S800000x256_1_0_0_1 := ⟨rfl, rfl, rfl, rfl⟩
/-- The gather from 256 columns takes whole rows. -/
theorem rowGather256 : Cert.Lib.IsRowGather gather_S50000x256_S800000x1_S800000x256_1_0_n_n_0_1_1256 := ⟨rfl, rfl, rfl, rfl, rfl, rfl, rfl⟩

section Indices

variable (x1 x2 : (⟨S800000, .i32⟩ : BufTy).Contents (Elt Ideal))

/-- The second layer's source index array is the first layer's. -/
theorem src_second : val_main_v40 (F := Ideal) x1 = val_main_v19 (F := Ideal) x1 := rfl
/-- The third layer's source index array is the first layer's. -/
theorem src_third : val_main_v61 (F := Ideal) x1 = val_main_v19 (F := Ideal) x1 := rfl
/-- The second layer's destination index array is the first layer's. -/
theorem dst_second : val_main_v43 (F := Ideal) x2 = val_main_v22 (F := Ideal) x2 := rfl
/-- The third layer's destination index array is the first layer's. -/
theorem dst_third : val_main_v64 (F := Ideal) x2 = val_main_v22 (F := Ideal) x2 := rfl

end Indices

section Aggregates

variable (x0 : (⟨S50000x128, .f32⟩ : BufTy).Contents (Elt Ideal)) (x1 x2 : (⟨S800000, .i32⟩ : BufTy).Contents (Elt Ideal))
  (x4 : (⟨S128x256, .f32⟩ : BufTy).Contents (Elt Ideal)) (x5 : (⟨S256, .f32⟩ : BufTy).Contents (Elt Ideal))
  (x6 : (⟨S256x128, .f32⟩ : BufTy).Contents (Elt Ideal)) (x7 : (⟨S128, .f32⟩ : BufTy).Contents (Elt Ideal))

/-- The first layer's aggregate at (p, k): the zero word plus the scaled features summed over the arriving edges. -/
theorem agg1_entry (p : Fin 50000) (k : Fin 128) :
    val_main_v23 (F := Ideal) x0 x1 x2 (ix2 p k)
      = Cert.Spec.zeroW + ∑ e ∈ Cert.Agg.arriving (val_main_v22 (F := Ideal) x2) p,
          val_main_v13 (F := Ideal) x0 x1 (ix2 (Cert.Agg.startOf (val_main_v19 (F := Ideal) x1) e) k) := by
  unfold val_main_v23 val_main_v20
  refine (Cert.Agg.agg_entry scatter_S50000x128_S800000x1_S800000x128_1_0_0_1 rowScatter128 gather_S50000x128_S800000x1_S800000x128_1_0_n_n_0_1_1128 rowGather128 (val_main_v21 (F := Ideal))
    (val_main_v13 (F := Ideal) x0 x1) (val_main_v22 (F := Ideal) x2) (val_main_v19 (F := Ideal) x1) p k).trans ?_
  rw [val_main_v21_apply, val_main_cst_5_apply]
  rfl

/-- The second layer's aggregate at (p, k), over 256 columns. -/
theorem agg2_entry (p : Fin 50000) (k : Fin 256) :
    val_main_v44 (F := Ideal) x0 x1 x2 x4 x5 (ix2 p k)
      = Cert.Spec.zeroW + ∑ e ∈ Cert.Agg.arriving (val_main_v22 (F := Ideal) x2) p,
          val_main_v34 (F := Ideal) x0 x1 x2 x4 x5 (ix2 (Cert.Agg.startOf (val_main_v19 (F := Ideal) x1) e) k) := by
  unfold val_main_v44 val_main_v41
  rw [src_second, dst_second]
  refine (Cert.Agg.agg_entry scatter_S50000x256_S800000x1_S800000x256_1_0_0_1 rowScatter256 gather_S50000x256_S800000x1_S800000x256_1_0_n_n_0_1_1256 rowGather256 (val_main_v42 (F := Ideal))
    (val_main_v34 (F := Ideal) x0 x1 x2 x4 x5) (val_main_v22 (F := Ideal) x2) (val_main_v19 (F := Ideal) x1) p k).trans ?_
  rw [val_main_v42_apply, val_main_cst_8_apply]
  rfl

/-- The third layer's aggregate at (p, k). -/
theorem agg3_entry (p : Fin 50000) (k : Fin 128) :
    val_main_v65 (F := Ideal) x0 x1 x2 x4 x5 x6 x7 (ix2 p k)
      = Cert.Spec.zeroW + ∑ e ∈ Cert.Agg.arriving (val_main_v22 (F := Ideal) x2) p,
          val_main_v55 (F := Ideal) x0 x1 x2 x4 x5 x6 x7 (ix2 (Cert.Agg.startOf (val_main_v19 (F := Ideal) x1) e) k) := by
  unfold val_main_v65 val_main_v62
  rw [src_third, dst_third]
  refine (Cert.Agg.agg_entry scatter_S50000x128_S800000x1_S800000x128_1_0_0_1 rowScatter128 gather_S50000x128_S800000x1_S800000x128_1_0_n_n_0_1_1128 rowGather128 (val_main_v63 (F := Ideal))
    (val_main_v55 (F := Ideal) x0 x1 x2 x4 x5 x6 x7) (val_main_v22 (F := Ideal) x2) (val_main_v19 (F := Ideal) x1) p k).trans ?_
  rw [val_main_v63_apply, val_main_cst_11_apply]
  rfl

end Aggregates

end Cert.RefAgg

end
-- ==== Proof.RefLayers.lean ====
/-
  The reference program's three graph-convolution layers, each read at one entry.

  With A the aggregate of a layer (the rows gathered along the edges and summed at their destinations, kept opaque
  here), I the destination-side normalisation and D the source-side one, layer one's output at (p, q) is
  relu((A(p, ·) · I p) @ W + b)(q) · D p, layer two's the same with its own aggregate and weights, and layer three's
  has no trailing scale.
-/
import proofs.«180929_j77764677861851_2_alg».proof.Proof.Gen.ReferenceIdeal.Read
import proofs.«180929_j77764677861851_2_alg».proof.Proof.Spec
import Idealize.ShloMosaic.Lib.ValueIdx
import Idealize.ShloMosaic.PureOps.Ideal.Laws

noncomputable section

namespace Cert.RefLayers

open Idealize.ShloMosaic Idealize.ShloMosaic.ValueIdx
open Cert.ReferenceIdeal Cert.ReferenceIdeal.Read

/-- Entry (p, k) of the source-scaled features is the feature entry times the source normalisation of node p. -/
theorem scaled_input_entry (x0 : (⟨S50000x128, .f32⟩ : BufTy).Contents (Elt Ideal))
    (x1 : (⟨S800000, .i32⟩ : BufTy).Contents (Elt Ideal)) (p : Fin 50000) (k : Fin 128) :
    val_main_v13 (F := Ideal) x0 x1 (ix2 p k) = x0 (ix2 p k) * val_main_v8 (F := Ideal) x1 (ix1 p) := by
  rw [val_main_v13_apply, val_main_v12_apply, val_main_v11_apply]
  have e : idx_main_v11 (idx_main_v12 (ix2 p k)) = ix1 p :=
    funext fun a => Fin.ext (by match a with | ⟨0, _⟩ => rfl)
  rw [e]
  rfl

/-- The destination normalisation broadcast along layer one's 128 columns reads, at (p, k), the vector's entry p. -/
theorem dstBcast1_entry (x2 : (⟨S800000, .i32⟩ : BufTy).Contents (Elt Ideal)) (p : Fin 50000) (k : Fin 128) :
    val_main_v25 (F := Ideal) x2 (ix2 p k) = val_main_v10 (F := Ideal) x2 (ix1 p) := by
  rw [val_main_v25_apply, val_main_v24_apply]
  exact congrArg _ (funext fun a => Fin.ext (by match a with | ⟨0, _⟩ => rfl))

/-- Entry (p, k) of layer one's scaled aggregate is the aggregate's entry times the destination normalisation of p. -/
theorem scaledAgg1_entry (x0 : (⟨S50000x128, .f32⟩ : BufTy).Contents (Elt Ideal)) (x1 x2 : (⟨S800000, .i32⟩ : BufTy).Contents (Elt Ideal)) (p : Fin 50000) (k : Fin 128) :
    val_main_v26 (F := Ideal) x0 x1 x2 (ix2 p k)
      = val_main_v23 (F := Ideal) x0 x1 x2 (ix2 p k) * val_main_v10 (F := Ideal) x2 (ix1 p) := by
  rw [val_main_v26_apply, dstBcast1_entry, Ideal.mulf_def]

/-- Entry (p, q) of layer one's product is the sum over k of the scaled aggregate at (p, k) times the weight at (k, q). -/
theorem product1_entry (x0 : (⟨S50000x128, .f32⟩ : BufTy).Contents (Elt Ideal)) (x1 x2 : (⟨S800000, .i32⟩ : BufTy).Contents (Elt Ideal))
    (x4 : (⟨S128x256, .f32⟩ : BufTy).Contents (Elt Ideal)) (p : Fin 50000) (q : Fin 256) :
    val_main_v27 (F := Ideal) x0 x1 x2 x4 (ix2 p q)
      = ∑ k : Fin 128, (val_main_v23 (F := Ideal) x0 x1 x2 (ix2 p k) * val_main_v10 (F := Ideal) x2 (ix1 p)) * x4 (ix2 k q) := by
  rw [val_main_v27_apply]
  refine Finset.sum_congr rfl fun k _ => ?_
  have el : lidx_main_v27 (ix2 p q) k = ix2 p k :=
    funext fun a => Fin.ext (by match a with | ⟨0, _⟩ => rfl | ⟨1, _⟩ => rfl)
  have er : ridx_main_v27 (ix2 p q) k = ix2 k q :=
    funext fun a => Fin.ext (by match a with | ⟨0, _⟩ => rfl | ⟨1, _⟩ => rfl)
  rw [el, er, scaledAgg1_entry]

/-- Layer one's bias broadcast down the rows reads, at (p, q), the bias entry q. -/
theorem bias1_entry (x5 : (⟨S256, .f32⟩ : BufTy).Contents (Elt Ideal)) (p : Fin 50000) (q : Fin 256) :
    val_main_v29 (F := Ideal) x5 (ix2 p q) = x5 (ix1 q) := by
  rw [val_main_v29_apply, val_main_v28_apply]
  exact congrArg _ (funext fun a => Fin.ext (by match a with | ⟨0, _⟩ => rfl))

/-- The array layer one clamps at is the zero word everywhere. -/
theorem zero1_entry (i : S50000x256.Idx) : val_main_call2_v0 (F := Ideal) i = Cert.Spec.zeroW := by
  rw [val_main_call2_v0_apply, val_main_call2_cst_apply, Ideal.ofBits_def]

/-- The source normalisation broadcast along layer one's 256 output columns reads, at (p, q), the vector's entry p. -/
theorem srcBcast1_entry (x1 : (⟨S800000, .i32⟩ : BufTy).Contents (Elt Ideal)) (p : Fin 50000) (q : Fin 256) :
    val_main_v33 (F := Ideal) x1 (ix2 p q) = val_main_v8 (F := Ideal) x1 (ix1 p) := by
  rw [val_main_v33_apply, val_main_v32_apply]
  exact congrArg _ (funext fun a => Fin.ext (by match a with | ⟨0, _⟩ => rfl))

/-- Entry (p, q) of layer one's output: the dense layer on the destination-scaled aggregate, clamped at zero, times the
    source normalisation of node p. -/
theorem layer1_entry (x0 : (⟨S50000x128, .f32⟩ : BufTy).Contents (Elt Ideal)) (x1 x2 : (⟨S800000, .i32⟩ : BufTy).Contents (Elt Ideal))
    (x4 : (⟨S128x256, .f32⟩ : BufTy).Contents (Elt Ideal)) (x5 : (⟨S256, .f32⟩ : BufTy).Contents (Elt Ideal))
    (p : Fin 50000) (q : Fin 256) :
    val_main_v34 (F := Ideal) x0 x1 x2 x4 x5 (ix2 p q)
      = Cert.Spec.convEntry (val_main_v23 (F := Ideal) x0 x1 x2) (val_main_v10 (F := Ideal) x2 (ix1 p)) x4 (x5 (ix1 q)) p q
        * val_main_v8 (F := Ideal) x1 (ix1 p) := by
  rw [val_main_v34_apply, val_main_v31_apply, val_main_v30_apply, product1_entry, bias1_entry, zero1_entry,
    srcBcast1_entry, Ideal.mulf_def, Ideal.maximumf_def, Ideal.addf_def]
  unfold Cert.Spec.convEntry
  exact rfl

/-- The destination normalisation broadcast along layer two's 256 columns reads, at (p, k), the vector's entry p. -/
theorem dstBcast2_entry (x2 : (⟨S800000, .i32⟩ : BufTy).Contents (Elt Ideal)) (p : Fin 50000) (k : Fin 256) :
    val_main_v46 (F := Ideal) x2 (ix2 p k) = val_main_v10 (F := Ideal) x2 (ix1 p) := by
  rw [val_main_v46_apply, val_main_v45_apply]
  exact congrArg _ (funext fun a => Fin.ext (by match a with | ⟨0, _⟩ => rfl))

/-- Entry (p, k) of layer two's scaled aggregate is the aggregate's entry times the destination normalisation of p. -/
theorem scaledAgg2_entry (x0 : (⟨S50000x128, .f32⟩ : BufTy).Contents (Elt Ideal)) (x1 x2 : (⟨S800000, .i32⟩ : BufTy).Contents (Elt Ideal))
    (x4 : (⟨S128x256, .f32⟩ : BufTy).Contents (Elt Ideal)) (x5 : (⟨S256, .f32⟩ : BufTy).Contents (Elt Ideal)) (p : Fin 50000) (k : Fin 256) :
    val_main_v47 (F := Ideal) x0 x1 x2 x4 x5 (ix2 p k)
      = val_main_v44 (F := Ideal) x0 x1 x2 x4 x5 (ix2 p k) * val_main_v10 (F := Ideal) x2 (ix1 p) := by
  rw [val_main_v47_apply, dstBcast2_entry, Ideal.mulf_def]

/-- Entry (p, q) of layer two's product is the sum over k of the scaled aggregate at (p, k) times the weight at (k, q). -/
theorem product2_entry (x0 : (⟨S50000x128, .f32⟩ : BufTy).Contents (Elt Ideal)) (x1 x2 : (⟨S800000, .i32⟩ : BufTy).Contents (Elt Ideal))
    (x4 : (⟨S128x256, .f32⟩ : BufTy).Contents (Elt Ideal)) (x5 : (⟨S256, .f32⟩ : BufTy).Contents (Elt Ideal))
    (x6 : (⟨S256x128, .f32⟩ : BufTy).Contents (Elt Ideal)) (p : Fin 50000) (q : Fin 128) :
    val_main_v48 (F := Ideal) x0 x1 x2 x4 x5 x6 (ix2 p q)
      = ∑ k : Fin 256, (val_main_v44 (F := Ideal) x0 x1 x2 x4 x5 (ix2 p k) * val_main_v10 (F := Ideal) x2 (ix1 p)) * x6 (ix2 k q) := by
  rw [val_main_v48_apply]
  refine Finset.sum_congr rfl fun k _ => ?_
  have el : lidx_main_v48 (ix2 p q) k = ix2 p k :=
    funext fun a => Fin.ext (by match a with | ⟨0, _⟩ => rfl | ⟨1, _⟩ => rfl)
  have er : ridx_main_v48 (ix2 p q) k = ix2 k q :=
    funext fun a => Fin.ext (by match a with | ⟨0, _⟩ => rfl | ⟨1, _⟩ => rfl)
  rw [el, er, scaledAgg2_entry]

/-- Layer two's bias broadcast down the rows reads, at (p, q), the bias entry q. -/
theorem bias2_entry (x7 : (⟨S128, .f32⟩ : BufTy).Contents (Elt Ideal)) (p : Fin 50000) (q : Fin 128) :
    val_main_v50 (F := Ideal) x7 (ix2 p q) = x7 (ix1 q) := by
  rw [val_main_v50_apply, val_main_v49_apply]
  exact congrArg _ (funext fun a => Fin.ext (by match a with | ⟨0, _⟩ => rfl))

/-- The array layer two clamps at is the zero word everywhere. -/
theorem zero2_entry (i : S50000x128.Idx) : val_main_call3_v0 (F := Ideal) i = Cert.Spec.zeroW := by
  rw [val_main_call3_v0_apply, val_main_call3_cst_apply, Ideal.ofBits_def]

/-- The source normalisation broadcast along layer two's 128 output columns reads, at (p, q), the vector's entry p. -/
theorem srcBcast2_entry (x1 : (⟨S800000, .i32⟩ : BufTy).Contents (Elt Ideal)) (p : Fin 50000) (q : Fin 128) :
    val_main_v54 (F := Ideal) x1 (ix2 p q) = val_main_v8 (F := Ideal) x1 (ix1 p) := by
  rw [val_main_v54_apply, val_main_v53_apply]
  exact congrArg _ (funext fun a => Fin.ext (by match a with | ⟨0, _⟩ => rfl))

/-- Entry (p, q) of layer two's output: the dense layer on the destination-scaled aggregate, clamped at zero, times the
    source normalisation of node p. -/
theorem layer2_entry (x0 : (⟨S50000x128, .f32⟩ : BufTy).Contents (Elt Ideal)) (x1 x2 : (⟨S800000, .i32⟩ : BufTy).Contents (Elt Ideal))
    (x4 : (⟨S128x256, .f32⟩ : BufTy).Contents (Elt Ideal)) (x5 : (⟨S256, .f32⟩ : BufTy).Contents (Elt Ideal))
    (x6 : (⟨S256x128, .f32⟩ : BufTy).Contents (Elt Ideal)) (x7 : (⟨S128, .f32⟩ : BufTy).Contents (Elt Ideal))
    (p : Fin 50000) (q : Fin 128) :
    val_main_v55 (F := Ideal) x0 x1 x2 x4 x5 x6 x7 (ix2 p q)
      = Cert.Spec.convEntry (val_main_v44 (F := Ideal) x0 x1 x2 x4 x5) (val_main_v10 (F := Ideal) x2 (ix1 p)) x6 (x7 (ix1 q)) p q
        * val_main_v8 (F := Ideal) x1 (ix1 p) := by
  rw [val_main_v55_apply, val_main_v52_apply, val_main_v51_apply, product2_entry, bias2_entry, zero2_entry,
    srcBcast2_entry, Ideal.mulf_def, Ideal.maximumf_def, Ideal.addf_def]
  unfold Cert.Spec.convEntry
  exact rfl

/-- The destination normalisation broadcast along layer three's 128 columns reads, at (p, k), the vector's entry p. -/
theorem dstBcast3_entry (x2 : (⟨S800000, .i32⟩ : BufTy).Contents (Elt Ideal)) (p : Fin 50000) (k : Fin 128) :
    val_main_v67 (F := Ideal) x2 (ix2 p k) = val_main_v10 (F := Ideal) x2 (ix1 p) := by
  rw [val_main_v67_apply, val_main_v66_apply]
  exact congrArg _ (funext fun a => Fin.ext (by match a with | ⟨0, _⟩ => rfl))

/-- Entry (p, k) of layer three's scaled aggregate is the aggregate's entry times the destination normalisation of p. -/
theorem scaledAgg3_entry (x0 : (⟨S50000x128, .f32⟩ : BufTy).Contents (Elt Ideal)) (x1 x2 : (⟨S800000, .i32⟩ : BufTy).Contents (Elt Ideal))
    (x4 : (⟨S128x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (p : Fin 50000) (k : Fin 128) :
    val_main_v68 (F := Ideal) x0 x1 x2 x4 x5 x6 x7 (ix2 p k)
      = val_main_v65 (F := Ideal) x0 x1 x2 x4 x5 x6 x7 (ix2 p k) * val_main_v10 (F := Ideal) x2 (ix1 p) := by
  rw [val_main_v68_apply, dstBcast3_entry, Ideal.mulf_def]

/-- Entry (p, q) of layer three's product is the sum over k of the scaled aggregate at (p, k) times the weight at (k, q). -/
theorem product3_entry (x0 : (⟨S50000x128, .f32⟩ : BufTy).Contents (Elt Ideal)) (x1 x2 : (⟨S800000, .i32⟩ : BufTy).Contents (Elt Ideal))
    (x4 : (⟨S128x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal))
    (x8 : (⟨S128x128, .f32⟩ : BufTy).Contents (Elt Ideal)) (p : Fin 50000) (q : Fin 128) :
    val_main_v69 (F := Ideal) x0 x1 x2 x4 x5 x6 x7 x8 (ix2 p q)
      = ∑ k : Fin 128, (val_main_v65 (F := Ideal) x0 x1 x2 x4 x5 x6 x7 (ix2 p k) * val_main_v10 (F := Ideal) x2 (ix1 p)) * x8 (ix2 k q) := by
  rw [val_main_v69_apply]
  refine Finset.sum_congr rfl fun k _ => ?_
  have el : lidx_main_v69 (ix2 p q) k = ix2 p k :=
    funext fun a => Fin.ext (by match a with | ⟨0, _⟩ => rfl | ⟨1, _⟩ => rfl)
  have er : ridx_main_v69 (ix2 p q) k = ix2 k q :=
    funext fun a => Fin.ext (by match a with | ⟨0, _⟩ => rfl | ⟨1, _⟩ => rfl)
  rw [el, er, scaledAgg3_entry]

/-- Layer three's bias broadcast down the rows reads, at (p, q), the bias entry q. -/
theorem bias3_entry (x9 : (⟨S128, .f32⟩ : BufTy).Contents (Elt Ideal)) (p : Fin 50000) (q : Fin 128) :
    val_main_v71 (F := Ideal) x9 (ix2 p q) = x9 (ix1 q) := by
  rw [val_main_v71_apply, val_main_v70_apply]
  exact congrArg _ (funext fun a => Fin.ext (by match a with | ⟨0, _⟩ => rfl))

/-- The array layer three clamps at is the zero word everywhere. -/
theorem zero3_entry (i : S50000x128.Idx) : val_main_call4_v0 (F := Ideal) i = Cert.Spec.zeroW := by
  rw [val_main_call4_v0_apply, val_main_call4_cst_apply, Ideal.ofBits_def]

/-- Entry (p, q) of layer three's output: the dense layer on the destination-scaled aggregate, clamped at zero. -/
theorem layer3_entry (x0 : (⟨S50000x128, .f32⟩ : BufTy).Contents (Elt Ideal)) (x1 x2 : (⟨S800000, .i32⟩ : BufTy).Contents (Elt Ideal))
    (x4 : (⟨S128x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (p : Fin 50000) (q : Fin 128) :
    val_main_v73 (F := Ideal) x0 x1 x2 x4 x5 x6 x7 x8 x9 (ix2 p q)
      = Cert.Spec.convEntry (val_main_v65 (F := Ideal) x0 x1 x2 x4 x5 x6 x7) (val_main_v10 (F := Ideal) x2 (ix1 p)) x8 (x9 (ix1 q)) p q := by
  rw [val_main_v73_apply, val_main_v72_apply, product3_entry, bias3_entry, zero3_entry,
    Ideal.maximumf_def, Ideal.addf_def]
  unfold Cert.Spec.convEntry
  exact rfl

end Cert.RefLayers

end
-- ==== Proof.BridgeLayer1.lean ====
/-
  The first graph-convolution layer: the kernel program's arrays are the reference program's.

  The two programs compute the degree normalisations and the two index arrays by the same host operations, so those
  arrays are equal outright.  The first aggregate is equal entry by entry (both are the zero word plus the sum, over
  the arriving edges, of the source-scaled feature entry of the starting node), and the layer's dense half, read at
  an entry on both sides, is the same clamped affine image of the aggregate's row times the outgoing scale.
-/
import proofs.«180929_j77764677861851_2_alg».proof.Proof.Gen.ReferenceIdeal.Read
import proofs.«180929_j77764677861851_2_alg».proof.Proof.ChainDefs
import proofs.«180929_j77764677861851_2_alg».proof.Proof.Region0
import proofs.«180929_j77764677861851_2_alg».proof.Proof.KernelAgg
import proofs.«180929_j77764677861851_2_alg».proof.Proof.RefAgg
import proofs.«180929_j77764677861851_2_alg».proof.Proof.RefLayers
import proofs.«180929_j77764677861851_2_alg».proof.Proof.KernelLayout

noncomputable section

namespace Cert.Bridge1

open Idealize.ShloMosaic Idealize.ShloMosaic.ValueIdx
open Cert.ReferenceIdeal Cert.ReferenceIdeal.Read

section Indices

variable (x1 x2 : (⟨S800000, .i32⟩ : BufTy).Contents (Elt Ideal))

/-- The source degree normalisation is the reference's: the same operations on the same words. -/
theorem norm_src : Cert.KernelIdeal.Chain.normK x1 = val_main_v8 (F := Ideal) x1 := rfl
/-- The destination degree normalisation is the reference's. -/
theorem norm_dst : Cert.KernelIdeal.Chain.normK x2 = val_main_v10 (F := Ideal) x2 := rfl
/-- The normalised source index array is the reference's. -/
theorem src_idx : Cert.KernelIdeal.Chain.srcIdxK x1 = val_main_v19 (F := Ideal) x1 := rfl
/-- The destination index array is the reference's. -/
theorem dst_idx : Cert.KernelIdeal.Chain.dstIdxK x2 = val_main_v22 (F := Ideal) x2 := rfl

end Indices

/-- A vector stood up as a column reads, at (p, 0), the vector at p. -/
theorem colOf_entry (v : Cert.KernelIdeal.S50000.Idx → EReal) (p : Fin 50000) : Cert.KernelIdeal.Chain.colOf v (ix2 p 0) = v (ix1 p) :=
  Cert.KernelLayout.col_cast_entry v p

/-- A 256-vector laid down as a row reads, at (0, q), the vector at q. -/
theorem rowOf256_entry (v : Cert.KernelIdeal.S256.Idx → EReal) (q : Fin 256) : Cert.KernelIdeal.Chain.rowOf256 v (ix2 0 q) = v (ix1 q) :=
  Cert.KernelLayout.row_cast256_entry v q

/-- The features scaled row by row by a vector stood up as a column: entry (s, q) is the feature entry times the
    vector's entry s. -/
theorem scaledK_entry (x0 : Cert.KernelIdeal.S50000x128.Idx → EReal) (v : Cert.KernelIdeal.S50000.Idx → EReal) (s : Fin 50000) (q : Fin 128) :
    Cert.KernelIdeal.Chain.scaledK x0 (Cert.KernelIdeal.Chain.colOf v) (ix2 s q) = x0 (ix2 s q) * v (ix1 s) := by
  unfold Cert.KernelIdeal.Chain.scaledK
  refine (mulf_apply _ _ _).trans ?_
  rw [Cert.KernelLayout.col_spread_entry, colOf_entry]

section Layer

variable (x0 : (⟨S50000x128, .f32⟩ : BufTy).Contents (Elt Ideal)) (x1 x2 : (⟨S800000, .i32⟩ : BufTy).Contents (Elt Ideal))
  (x4 : (⟨S128x256, .f32⟩ : BufTy).Contents (Elt Ideal)) (x5 : (⟨S256, .f32⟩ : BufTy).Contents (Elt Ideal))

/-- The first aggregate of the source-scaled features is the reference's, entry by entry. -/
theorem agg1_eq :
    Cert.KernelIdeal.Chain.aggK (Cert.KernelIdeal.Chain.scaledK x0 (Cert.KernelIdeal.Chain.colOf (Cert.KernelIdeal.Chain.normK x1))) x1 x2
      = val_main_v23 (F := Ideal) x0 x1 x2 := by
  funext j
  obtain ⟨p, q, rfl⟩ : ∃ (p : Fin 50000) (q : Fin 128), j = ix2 p q := ⟨j 0, j 1, eq_ix2 j⟩
  rw [Cert.KernelAgg.aggK_entry, Cert.RefAgg.agg1_entry, dst_idx, src_idx]
  refine congrArg (Cert.Spec.zeroW + ·) (Finset.sum_congr rfl fun e _ => ?_)
  rw [scaledK_entry, Cert.RefLayers.scaled_input_entry, norm_src]

/-- The first layer's output is the reference's, entry by entry. -/
theorem layer1_eq :
    Cert.KernelIdeal.Regions.conv0 (Cert.KernelIdeal.Chain.aggK (Cert.KernelIdeal.Chain.scaledK x0 (Cert.KernelIdeal.Chain.colOf (Cert.KernelIdeal.Chain.normK x1))) x1 x2)
        (Cert.KernelIdeal.Chain.colOf (Cert.KernelIdeal.Chain.normK x2)) x4 (Cert.KernelIdeal.Chain.rowOf256 x5) (Cert.KernelIdeal.Chain.colOf (Cert.KernelIdeal.Chain.normK x1))
      = val_main_v34 (F := Ideal) x0 x1 x2 x4 x5 := by
  funext j
  obtain ⟨p, q, rfl⟩ : ∃ (p : Fin 50000) (q : Fin 256), j = ix2 p q := ⟨j 0, j 1, eq_ix2 j⟩
  rw [Cert.RefLayers.layer1_entry, agg1_eq]
  show Cert.Spec.convEntry (val_main_v23 (F := Ideal) x0 x1 x2) (Cert.KernelIdeal.Chain.colOf (Cert.KernelIdeal.Chain.normK x2) (ix2 p 0)) x4
      (Cert.KernelIdeal.Chain.rowOf256 x5 (ix2 0 q)) p q * Cert.KernelIdeal.Chain.colOf (Cert.KernelIdeal.Chain.normK x1) (ix2 p 0) = _
  rw [colOf_entry, colOf_entry, rowOf256_entry, norm_dst, norm_src]

end Layer

end Cert.Bridge1

end
-- ==== Proof.Reals.lean ====
/-
  Being a real number, for an extended real: the property under which the ring laws hold.  Sums, products,
  maxima and constants of reals are reals; this is what carries the inputs' finiteness through the layers.
-/
import Mathlib.Data.EReal.Operations
import Mathlib.Algebra.BigOperators.Group.Finset.Basic
import Mathlib.Algebra.BigOperators.Ring.Finset
import Mathlib.Algebra.BigOperators.Group.Finset.Sigma
import Mathlib.Tactic.Ring

namespace Cert.Reals

/-- An extended real that is (the image of) a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Aggregating rows and then applying a dense layer is applying the layer and then aggregating, for reals: with
    `h e k` the k-th entry of the row edge `e` brings, `S` the edges arriving at a node, `d` the node's scale and `w`
    a column of weights, the sum over k of ((0 + sum over S of h e k) · d) · w k equals
    (0 + sum over S of (sum over k of h e k · w k)) · d.  Distributivity needs every term real. -/
theorem agg_reorder {ι κ : Type*} [Fintype κ] (S : Finset ι) (h : ι → κ → EReal) (w : κ → EReal) (d z : EReal)
    (hz : z = 0) (hh : ∀ e k, IsReal (h e k)) (hw : ∀ k, IsReal (w k)) (hd : IsReal d) :
    ∑ k, ((z + ∑ e ∈ S, h e k) * d) * w k = (z + ∑ e ∈ S, ∑ k, h e k * w k) * d := by
  subst hz
  choose h' hh' using hh
  choose w' hw' using hw
  obtain ⟨d', rfl⟩ := hd
  simp only [hh', hw', zero_add]
  have L : (∑ k, ((∑ e ∈ S, (h' e k : EReal)) * (d' : EReal)) * (w' k : EReal))
      = ((∑ k, ((∑ e ∈ S, h' e k) * d') * w' k : ℝ) : EReal) := by
    simp only [coe_sum, EReal.coe_mul]
  have R : ((∑ e ∈ S, ∑ k, (h' e k : EReal) * (w' k : EReal)) * (d' : EReal))
      = (((∑ e ∈ S, ∑ k, h' e k * w' k) * d' : ℝ) : EReal) := by
    simp only [coe_sum, EReal.coe_mul]
  rw [L, R]
  refine congrArg _ ?_
  simp only [Finset.sum_mul]
  rw [Finset.sum_comm]
  exact Finset.sum_congr rfl fun e _ => Finset.sum_congr rfl fun k _ => by ring

end Cert.Reals
-- ==== Proof.RefNormReal.lean ====
/-
  The reference program's two normalisation vectors are real numbers.

  Each is rsqrt(max(1, degree)), the degree of a node being the zero word plus a one for every edge whose index word
  names the node: a finite sum of ones, hence a real; clamped below at one it is a positive real, and the reciprocal
  square root of a positive real is a real.
-/
import proofs.«180929_j77764677861851_2_alg».proof.Proof.Gen.ReferenceIdeal.Read
import proofs.«180929_j77764677861851_2_alg».proof.Proof.Reals
import proofs.«180929_j77764677861851_2_alg».proof.Proof.LibScatterSum
import Idealize.ShloMosaic.Lib.ValueIdx
import Idealize.ShloMosaic.PureOps.Ideal.Laws
import Idealize.ShloMosaic.Lib.IdealHost

noncomputable section

namespace Cert.RefNormReal

open Idealize.ShloMosaic Idealize.ShloMosaic.ValueIdx
open Cert.ReferenceIdeal Cert.ReferenceIdeal.Read

/-- The reciprocal square root of a real clamped below at one is a real: the clamped value is a positive real. -/
theorem rsqrt_clip_real {x : EReal} (hx : Cert.Reals.IsReal x) : Cert.Reals.IsReal (Ideal.rsqrt (max 1 x)) := by
  obtain ⟨r, rfl⟩ := hx
  have h : max (1 : EReal) (r : EReal) = ((max 1 r : ℝ) : EReal) := by
    rw [EReal.coe_strictMono.monotone.map_max, EReal.coe_one]
  have hpos : (0 : ℝ) < max 1 r := lt_of_lt_of_le one_pos (le_max_left _ _)
  rw [h, Ideal.rsqrt_coe, if_neg (not_lt.mpr hpos.le), if_neg hpos.ne']
  exact ⟨_, rfl⟩

/-- The source degree of node p, the zero word plus a one for every edge whose source index word is p, is a real. -/
theorem srcDegree_real (x1 : (⟨S800000, .i32⟩ : BufTy).Contents (Elt Ideal)) (p : Fin 50000) :
    Cert.Reals.IsReal (val_main_v3 (F := Ideal) x1 (ix1 p)) := by
  have h := Cert.Lib.vecScatterAdd_apply (φ := .f32) (w := 32) scatter_S50000_S800000x1_S800000_n_0_0_1
    ⟨rfl, rfl, rfl, rfl⟩ (val_main_v1 (F := Ideal)) (val_main_v2 (F := Ideal) x1) (val_main_v0 (F := Ideal)) p
  unfold val_main_v3
  rw [h]
  refine Cert.Reals.IsReal.add ?_ (Cert.Reals.isReal_sum _ _ fun r _ => ?_)
  · rw [val_main_v1_apply, val_main_cst_0_apply, Ideal.ofBits_def, Ideal.ofBits_zero_f32]
    exact Cert.Reals.isReal_zero
  · rw [val_main_v0_apply, val_main_cst_apply, Ideal.ofBits_def, Ideal.ofBits_one_f32]
    exact Cert.Reals.isReal_one

/-- The source normalisation of node p, the reciprocal square root of its degree clamped below at one, is a real. -/
theorem srcNorm_real (x1 : (⟨S800000, .i32⟩ : BufTy).Contents (Elt Ideal)) (p : Fin 50000) :
    Cert.Reals.IsReal (val_main_v8 (F := Ideal) x1 (ix1 p)) := by
  rw [val_main_v8_apply, val_main_v7_apply, val_main_call0_v1_apply, val_main_call0_v0_apply, val_main_cst_2_apply,
    Ideal.hostUnary_rsqrt_def, Ideal.maximumf_def, Ideal.ofBits_def, Ideal.ofBits_one_f32]
  exact rsqrt_clip_real (srcDegree_real x1 p)

/-- The destination degree of node p, the zero word plus a one for every edge whose destination index word is p, is a real. -/
theorem dstDegree_real (x2 : (⟨S800000, .i32⟩ : BufTy).Contents (Elt Ideal)) (p : Fin 50000) :
    Cert.Reals.IsReal (val_main_v6 (F := Ideal) x2 (ix1 p)) := by
  have h := Cert.Lib.vecScatterAdd_apply (φ := .f32) (w := 32) scatter_S50000_S800000x1_S800000_n_0_0_1
    ⟨rfl, rfl, rfl, rfl⟩ (val_main_v4 (F := Ideal)) (val_main_v5 (F := Ideal) x2) (val_main_v0 (F := Ideal)) p
  unfold val_main_v6
  rw [h]
  refine Cert.Reals.IsReal.add ?_ (Cert.Reals.isReal_sum _ _ fun r _ => ?_)
  · rw [val_main_v4_apply, val_main_cst_1_apply, Ideal.ofBits_def, Ideal.ofBits_zero_f32]
    exact Cert.Reals.isReal_zero
  · rw [val_main_v0_apply, val_main_cst_apply, Ideal.ofBits_def, Ideal.ofBits_one_f32]
    exact Cert.Reals.isReal_one

/-- The destination normalisation of node p, the reciprocal square root of its degree clamped below at one, is a real. -/
theorem dstNorm_real (x2 : (⟨S800000, .i32⟩ : BufTy).Contents (Elt Ideal)) (p : Fin 50000) :
    Cert.Reals.IsReal (val_main_v10 (F := Ideal) x2 (ix1 p)) := by
  rw [val_main_v10_apply, val_main_v9_apply, val_main_call1_v1_apply, val_main_call1_v0_apply, val_main_cst_3_apply,
    Ideal.hostUnary_rsqrt_def, Ideal.maximumf_def, Ideal.ofBits_def, Ideal.ofBits_one_f32]
  exact rsqrt_clip_real (dstDegree_real x2 p)

end Cert.RefNormReal

end
-- ==== Proof.BridgeLayer2.lean ====
/-
  The second layer, where the two programs differ by real algebra.

  The reference sums the first layer's rows over the edges arriving at a node, scales the sum by the destination
  normalisation and then multiplies by the weight matrix; the kernel multiplies each row by the weight matrix first
  and sums the products over the arriving edges, then scales.  Entry by entry the two are
  sum over k of ((0 + sum over e of h(e, k)) · d) · w(k)   and   (0 + sum over e of sum over k of h(e, k) · w(k)) · d,
  equal by distributivity because every term is a real number: the first layer's outputs are maxima, sums and products
  of the (real) inputs and of the two normalisation vectors.
-/
import proofs.«180929_j77764677861851_2_alg».proof.Proof.Gen.ReferenceIdeal.Read
import proofs.«180929_j77764677861851_2_alg».proof.Proof.ChainDefs
import proofs.«180929_j77764677861851_2_alg».proof.Proof.Region1
import proofs.«180929_j77764677861851_2_alg».proof.Proof.Region2
import proofs.«180929_j77764677861851_2_alg».proof.Proof.KernelAgg
import proofs.«180929_j77764677861851_2_alg».proof.Proof.BridgeLayer1
import proofs.«180929_j77764677861851_2_alg».proof.Proof.AggEntry
import proofs.«180929_j77764677861851_2_alg».proof.Proof.RefAgg
import proofs.«180929_j77764677861851_2_alg».proof.Proof.RefLayers
import proofs.«180929_j77764677861851_2_alg».proof.Proof.RefNormReal
import proofs.«180929_j77764677861851_2_alg».proof.Proof.KernelLayout
import proofs.«180929_j77764677861851_2_alg».proof.Proof.Reals
import Idealize.ShloMosaic.Lib.ValueIdx
import Idealize.ShloMosaic.PureOps.Ideal.Laws

noncomputable section

namespace Cert.Bridge2

open Idealize.ShloMosaic Idealize.ShloMosaic.ValueIdx
open Cert.ReferenceIdeal Cert.ReferenceIdeal.Read
open Cert.Reals (IsReal)

/-- The zero word is the real number zero. -/
theorem zeroW_real : IsReal Cert.Spec.zeroW := by
  rw [show Cert.Spec.zeroW = 0 from Ideal.ofBits_zero_f32]
  exact Cert.Reals.isReal_zero

/-- Every entry of the first layer's aggregate is a real: a sum over edges of real features times real scales. -/
theorem agg1_real (x0 : (⟨S50000x128, .f32⟩ : BufTy).Contents (Elt Ideal)) (x1 x2 : (⟨S800000, .i32⟩ : BufTy).Contents (Elt Ideal)) (hx0 : ∀ j, IsReal (x0 j)) (p : Fin 50000) (k : Fin 128) :
    IsReal (val_main_v23 (F := Ideal) x0 x1 x2 (ix2 p k)) := by
  rw [Cert.RefAgg.agg1_entry]
  refine zeroW_real.add (Cert.Reals.isReal_sum _ _ fun e _ => ?_)
  rw [Cert.RefLayers.scaled_input_entry]
  exact (hx0 _).mul (Cert.RefNormReal.srcNorm_real x1 _)

/-- Every entry of the first layer's output is a real. -/
theorem layer1_real (x0 : (⟨S50000x128, .f32⟩ : BufTy).Contents (Elt Ideal)) (x1 x2 : (⟨S800000, .i32⟩ : BufTy).Contents (Elt Ideal)) (x4 : (⟨S128x256, .f32⟩ : BufTy).Contents (Elt Ideal)) (x5 : (⟨S256, .f32⟩ : BufTy).Contents (Elt Ideal))
    (hx0 : ∀ j, IsReal (x0 j)) (hx4 : ∀ j, IsReal (x4 j)) (hx5 : ∀ j, IsReal (x5 j)) (p : Fin 50000) (q : Fin 256) :
    IsReal (val_main_v34 (F := Ideal) x0 x1 x2 x4 x5 (ix2 p q)) := by
  rw [Cert.RefLayers.layer1_entry]
  unfold Cert.Spec.convEntry
  refine Cert.Reals.IsReal.mul (Cert.Reals.IsReal.max (Cert.Reals.IsReal.add
    (Cert.Reals.isReal_sum _ _ fun k _ => ?_) (hx5 _)) zeroW_real) (Cert.RefNormReal.srcNorm_real x1 p)
  exact ((agg1_real x0 x1 x2 hx0 p k).mul (Cert.RefNormReal.dstNorm_real x2 p)).mul (hx4 _)

/-- The second layer's epilogue at (p, q): the aggregate's entry times the row's incoming scale, plus the bias entry,
    clamped below at the zero word, times the row's outgoing scale. -/
theorem post2_entry (R : Cert.KernelIdeal.S50000x128.Idx → EReal) (I : Cert.KernelIdeal.S50000x1.Idx → EReal)
    (b : Cert.KernelIdeal.S1x128.Idx → EReal) (O : Cert.KernelIdeal.S50000x1.Idx → EReal) (p : Fin 50000) (q : Fin 128) :
    Cert.KernelIdeal.Regions.post2 R I b O (ix2 p q)
      = max (R (ix2 p q) * I (ix2 p 0) + b (ix2 0 q)) Cert.Spec.zeroW * O (ix2 p 0) := rfl

/-- The matrix product at (p, q) is the sum over k of left(p, k) · right(k, q). -/
theorem product_entry (A : Cert.KernelIdeal.S50000x256.Idx → EReal) (W : Cert.KernelIdeal.S256x128.Idx → EReal)
    (p : Fin 50000) (q : Fin 128) :
    Cert.KernelIdeal.Regions.product A W (ix2 p q) = ∑ k : Fin 256, A (ix2 p k) * W (ix2 k q) := rfl

/-- A vector stood up as a column reads, at (p, 0), the vector at p. -/
theorem colOf_entry (x : Cert.KernelIdeal.S50000.Idx → EReal) (p : Fin 50000) :
    Cert.KernelIdeal.Chain.colOf x (ix2 p 0) = x (ix1 p) := Cert.KernelLayout.col_cast_entry x p

/-- A 128-vector laid down as a row reads, at (0, q), the vector at q. -/
theorem rowOf128_entry (x : Cert.KernelIdeal.S128.Idx → EReal) (q : Fin 128) :
    Cert.KernelIdeal.Chain.rowOf128 x (ix2 0 q) = x (ix1 q) := Cert.KernelLayout.row_cast128_entry x q

/-- Aggregating the first layer's rows and then applying the second dense layer is applying it row by row and then
    aggregating: at (p, q), with every term real. -/
theorem reorder2 (x0 : (⟨S50000x128, .f32⟩ : BufTy).Contents (Elt Ideal)) (x1 x2 : (⟨S800000, .i32⟩ : BufTy).Contents (Elt Ideal)) (x4 : (⟨S128x256, .f32⟩ : BufTy).Contents (Elt Ideal)) (x5 : (⟨S256, .f32⟩ : BufTy).Contents (Elt Ideal)) (x6 : (⟨S256x128, .f32⟩ : BufTy).Contents (Elt Ideal))
    (hx0 : ∀ j, IsReal (x0 j)) (hx4 : ∀ j, IsReal (x4 j)) (hx5 : ∀ j, IsReal (x5 j)) (hx6 : ∀ j, IsReal (x6 j))
    (p : Fin 50000) (q : Fin 128) :
    (∑ k : Fin 256, ((Cert.Spec.zeroW + ∑ e ∈ Cert.Agg.arriving (val_main_v22 (F := Ideal) x2) p, val_main_v34 (F := Ideal) x0 x1 x2 x4 x5 (ix2 (Cert.Agg.startOf (val_main_v19 (F := Ideal) x1) e) k)) * val_main_v10 (F := Ideal) x2 (ix1 p)) * x6 (ix2 k q))
      = (Cert.Spec.zeroW + ∑ e ∈ Cert.Agg.arriving (val_main_v22 (F := Ideal) x2) p, ∑ k : Fin 256, val_main_v34 (F := Ideal) x0 x1 x2 x4 x5 (ix2 (Cert.Agg.startOf (val_main_v19 (F := Ideal) x1) e) k) * x6 (ix2 k q)) * val_main_v10 (F := Ideal) x2 (ix1 p) :=
  Cert.Reals.agg_reorder (Cert.Agg.arriving (val_main_v22 (F := Ideal) x2) p)
    (fun e k => val_main_v34 (F := Ideal) x0 x1 x2 x4 x5 (ix2 (Cert.Agg.startOf (val_main_v19 (F := Ideal) x1) e) k)) (fun k => x6 (ix2 k q)) (val_main_v10 (F := Ideal) x2 (ix1 p)) Cert.Spec.zeroW
    Ideal.ofBits_zero_f32 (fun e k => layer1_real x0 x1 x2 x4 x5 hx0 hx4 hx5 _ k) (fun k => hx6 _)
    (Cert.RefNormReal.dstNorm_real x2 p)

/-- The kernel's second layer (product, then aggregate, then scale, bias, clamp, scale) equals the reference's
    (aggregate, scale, product, bias, clamp, scale) when the inputs and the first two layers' weights are real. -/
theorem layer2_eq (x0 : (⟨S50000x128, .f32⟩ : BufTy).Contents (Elt Ideal)) (x1 x2 : (⟨S800000, .i32⟩ : BufTy).Contents (Elt Ideal)) (x4 : (⟨S128x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal))
    (hx0 : ∀ j, IsReal (x0 j)) (hx4 : ∀ j, IsReal (x4 j)) (hx5 : ∀ j, IsReal (x5 j)) (hx6 : ∀ j, IsReal (x6 j)) :
    Cert.KernelIdeal.Regions.post2
        (Cert.KernelIdeal.Chain.aggK (Cert.KernelIdeal.Regions.product (val_main_v34 (F := Ideal) x0 x1 x2 x4 x5) x6) x1 x2)
        (Cert.KernelIdeal.Chain.colOf (Cert.KernelIdeal.Chain.normK x2)) (Cert.KernelIdeal.Chain.rowOf128 x7)
        (Cert.KernelIdeal.Chain.colOf (Cert.KernelIdeal.Chain.normK x1))
      = val_main_v55 (F := Ideal) x0 x1 x2 x4 x5 x6 x7 := by
  funext j
  obtain ⟨p, q, rfl⟩ : ∃ (p : Fin 50000) (q : Fin 128), j = ix2 p q := ⟨j 0, j 1, eq_ix2 j⟩
  rw [post2_entry, colOf_entry, colOf_entry, rowOf128_entry, Cert.KernelAgg.aggK_entry,
    Cert.Bridge1.norm_dst x2, Cert.Bridge1.norm_src x1, Cert.Bridge1.src_idx x1, Cert.Bridge1.dst_idx x2,
    Cert.RefLayers.layer2_entry]
  unfold Cert.Spec.convEntry
  have hL : (∑ e ∈ Cert.Agg.arriving (val_main_v22 (F := Ideal) x2) p, Cert.KernelIdeal.Regions.product (val_main_v34 (F := Ideal) x0 x1 x2 x4 x5) x6 (ix2 (Cert.Agg.startOf (val_main_v19 (F := Ideal) x1) e) q))
      = ∑ e ∈ Cert.Agg.arriving (val_main_v22 (F := Ideal) x2) p, ∑ k : Fin 256, val_main_v34 (F := Ideal) x0 x1 x2 x4 x5 (ix2 (Cert.Agg.startOf (val_main_v19 (F := Ideal) x1) e) k) * x6 (ix2 k q) :=
    Finset.sum_congr rfl fun e _ => product_entry _ _ _ _
  have hR : (∑ k : Fin 256, (val_main_v44 (F := Ideal) x0 x1 x2 x4 x5 (ix2 p k) * val_main_v10 (F := Ideal) x2 (ix1 p)) * x6 (ix2 k q))
      = ∑ k : Fin 256, ((Cert.Spec.zeroW + ∑ e ∈ Cert.Agg.arriving (val_main_v22 (F := Ideal) x2) p, val_main_v34 (F := Ideal) x0 x1 x2 x4 x5 (ix2 (Cert.Agg.startOf (val_main_v19 (F := Ideal) x1) e) k)) * val_main_v10 (F := Ideal) x2 (ix1 p)) * x6 (ix2 k q) :=
    Finset.sum_congr rfl fun k _ => by rw [Cert.RefAgg.agg2_entry]
  rw [hL, hR, reorder2 x0 x1 x2 x4 x5 x6 hx0 hx4 hx5 hx6 p q]

end Cert.Bridge2

end
-- ==== Proof.BridgeLayer3.lean ====
/-
  The third graph-convolution layer and the pooling, kernel side against reference side.

  The kernel's last convolution region leaves, entry by entry, the clamped affine image of the destination-scaled
  aggregate times an outgoing scale; fed the aggregate of the second layer's output, the destination normalisation
  stood up as a column, the bias laid down as a row and a column of ones, that is the reference's third layer: the
  two aggregates are the same sum over the arriving edges along the same two index arrays, the column reads the
  normalisation, the row reads the bias, and the ones drop out.  The pooling of that layer is on both sides the same
  scatter-add of the same operands.
-/
import proofs.«180929_j77764677861851_2_alg».proof.Proof.Gen.ReferenceIdeal.Read
import proofs.«180929_j77764677861851_2_alg».proof.Proof.ChainDefs
import proofs.«180929_j77764677861851_2_alg».proof.Proof.Region3
import proofs.«180929_j77764677861851_2_alg».proof.Proof.KernelAgg
import proofs.«180929_j77764677861851_2_alg».proof.Proof.RefAgg
import proofs.«180929_j77764677861851_2_alg».proof.Proof.RefLayers
import proofs.«180929_j77764677861851_2_alg».proof.Proof.KernelLayout
import proofs.«180929_j77764677861851_2_alg».proof.Proof.BridgeLayer1

noncomputable section

namespace Cert.Bridge3

open Idealize.ShloMosaic Idealize.ShloMosaic.ValueIdx
open Cert.ReferenceIdeal Cert.ReferenceIdeal.Read

/-- The third layer's aggregate on the kernel side is the reference's, entry by entry: both are the zero word plus
    the second layer's output summed over the arriving edges, along the same two index arrays. -/
theorem agg3_eq (x0 : (⟨S50000x128, .f32⟩ : BufTy).Contents (Elt Ideal)) (x1 x2 : (⟨S800000, .i32⟩ : BufTy).Contents (Elt Ideal))
    (x4 : (⟨S128x256, .f32⟩ : BufTy).Contents (Elt Ideal)) (x5 : (⟨S256, .f32⟩ : BufTy).Contents (Elt Ideal))
    (x6 : (⟨S256x128, .f32⟩ : BufTy).Contents (Elt Ideal)) (x7 : (⟨S128, .f32⟩ : BufTy).Contents (Elt Ideal))
    (p : Fin 50000) (k : Fin 128) :
    KernelIdeal.Chain.aggK (val_main_v55 (F := Ideal) x0 x1 x2 x4 x5 x6 x7) x1 x2 (ix2 p k)
      = val_main_v65 (F := Ideal) x0 x1 x2 x4 x5 x6 x7 (ix2 p k) := by
  refine (Cert.KernelAgg.aggK_entry (val_main_v55 (F := Ideal) x0 x1 x2 x4 x5 x6 x7) x1 x2 p k).trans ?_
  refine Eq.trans ?_ (Cert.RefAgg.agg3_entry x0 x1 x2 x4 x5 x6 x7 p k).symm
  rw [Cert.Bridge1.src_idx x1, Cert.Bridge1.dst_idx x2]

/-- The third layer agrees: the kernel's last convolution region, fed the kernel-side aggregate of the second
    layer's output, the destination normalisation as a column, the bias as a row and the column of ones, leaves the
    reference's third layer. -/
theorem layer3_eq (x0 : (⟨S50000x128, .f32⟩ : BufTy).Contents (Elt Ideal)) (x1 x2 : (⟨S800000, .i32⟩ : BufTy).Contents (Elt Ideal))
    (x4 : (⟨S128x256, .f32⟩ : BufTy).Contents (Elt Ideal)) (x5 : (⟨S256, .f32⟩ : BufTy).Contents (Elt Ideal))
    (x6 : (⟨S256x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) :
    KernelIdeal.Regions.conv3 (KernelIdeal.Chain.aggK (val_main_v55 (F := Ideal) x0 x1 x2 x4 x5 x6 x7) x1 x2)
        (KernelIdeal.Chain.colOf (KernelIdeal.Chain.normK x2)) x8 (KernelIdeal.Chain.rowOf128 x9) KernelIdeal.Chain.onesCol
      = val_main_v73 (F := Ideal) x0 x1 x2 x4 x5 x6 x7 x8 x9 := by
  funext j
  obtain ⟨p, q, rfl⟩ : ∃ (p : Fin 50000) (q : Fin 128), j = ix2 p q := ⟨j 0, j 1, eq_ix2 j⟩
  refine Eq.trans ?_ (Cert.RefLayers.layer3_entry x0 x1 x2 x4 x5 x6 x7 x8 x9 p q).symm
  have hI : KernelIdeal.Chain.colOf (KernelIdeal.Chain.normK x2) (ix2 p 0) = val_main_v10 (F := Ideal) x2 (ix1 p) :=
    (Cert.KernelLayout.col_cast_entry (KernelIdeal.Chain.normK x2) p).trans (congrFun (Cert.Bridge1.norm_dst x2) (ix1 p))
  have hb : KernelIdeal.Chain.rowOf128 x9 (ix2 0 q) = x9 (ix1 q) := Cert.KernelLayout.row_cast128_entry x9 q
  have hO : KernelIdeal.Chain.onesCol (ix2 p 0) = 1 := Cert.KernelLayout.ones_col_entry p
  show Cert.Spec.convEntry (KernelIdeal.Chain.aggK (val_main_v55 (F := Ideal) x0 x1 x2 x4 x5 x6 x7) x1 x2)
      (KernelIdeal.Chain.colOf (KernelIdeal.Chain.normK x2) (ix2 p 0)) x8 (KernelIdeal.Chain.rowOf128 x9 (ix2 0 q)) p q
      * KernelIdeal.Chain.onesCol (ix2 p 0) = _
  rw [hI, hb, hO, mul_one]
  unfold Cert.Spec.convEntry
  refine congrArg (fun s => max (s + x9 (ix1 q)) Cert.Spec.zeroW) ?_
  refine Finset.sum_congr rfl fun k _ => ?_
  rw [agg3_eq x0 x1 x2 x4 x5 x6 x7 p k]

/-- The pooling agrees: the rows of the third layer summed at their graph index, by the same scatter-add of the same
    operands. -/
theorem pool_eq (x0 : (⟨S50000x128, .f32⟩ : BufTy).Contents (Elt Ideal)) (x1 x2 : (⟨S800000, .i32⟩ : BufTy).Contents (Elt Ideal))
    (x3 : (⟨S50000, .i32⟩ : BufTy).Contents (Elt Ideal))
    (x4 : (⟨S128x256, .f32⟩ : BufTy).Contents (Elt Ideal)) (x5 : (⟨S256, .f32⟩ : BufTy).Contents (Elt Ideal))
    (x6 : (⟨S256x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) :
    KernelIdeal.Chain.poolK x3 (val_main_v73 (F := Ideal) x0 x1 x2 x4 x5 x6 x7 x8 x9)
      = val_main_v76 (F := Ideal) x0 x1 x2 x3 x4 x5 x6 x7 x8 x9 := by
  unfold KernelIdeal.Chain.poolK val_main_v76
  rfl

end Cert.Bridge3

end
-- ==== Proof.HeadKernel.lean ====
/-
  The last kernel body, read at one entry.

  The body normalises the 128 per-graph rows column by column (the batch mean and the biased batch variance over the
  128 rows, the stabilised reciprocal square root, the affine pair), applies a dense layer clamped below at zero, a
  second dense layer with its bias, and a row-wise log-softmax: the shifted logit less the logarithm of the row's
  sum of exponentials.  Read at an entry (r, o), the stored value is the specification's `head` of the loaded arrays.

  The lemmas go bottom-up in the specification's order: each intermediate array of the body, read at an entry,
  is the specification's function of the same name.
-/
import proofs.«180929_j77764677861851_2_alg».proof.Proof.Gen.KernelIdeal.Skeleton
import proofs.«180929_j77764677861851_2_alg».proof.Proof.Spec
import proofs.«180929_j77764677861851_2_alg».proof.Proof.LibMatmulAt
import proofs.«180929_j77764677861851_2_alg».proof.Proof.LibColBroadcast
import proofs.«180929_j77764677861851_2_alg».proof.Proof.LibColumnCast
import Idealize.ShloMosaic.Lib.ValueIdx
import Idealize.ShloMosaic.Lib.Pipeline.Value
import Idealize.ShloMosaic.Lib.ValueLayout
import Idealize.ShloMosaic.PureOps.Ideal.Laws

noncomputable section

namespace Cert.HeadKernel

open Idealize.ShloMosaic Idealize.ShloMosaic.ValueIdx
open Cert.KernelIdeal Cert.KernelIdeal.Gen
open Idealize.ShloMosaic.MatmulAt Cert.LibColBroadcast Cert.LibColumnCast

/-! ### The three reductions, read at an index -/

/-- The sum of a 128x128 array down its rows, read at column c: the sum over r of the entry (r, c). -/
theorem colSum_at (x : FVec Ideal S128x128 .f32) (c : Fin 128) :
    multiReduction (F := Ideal) .add [0] S128 x 0x00000000#32 reduces_S128x128_S128 (.inl rfl) rfl (ix1 c)
      = ∑ r : Fin 128, x (ix2 r c) := by
  refine (Ideal.multiReduction_add_single x 0x00000000#32 reduces_S128x128_S128 (.inl rfl) rfl (ix1 c)).trans ?_
  show ∑ k : Fin 128, x (reduces_S128x128_S128.lift (ix1 c) k) = _
  refine Finset.sum_congr rfl fun k _ => congrArg x (funext fun ax => Fin.ext ?_)
  match ax with
  | ⟨0, _⟩ => rfl
  | ⟨1, _⟩ => rfl

/-- The sum of a 128x10 array along its rows, read at row r: the sum over o of the entry (r, o). -/
theorem rowSum_at (x : FVec Ideal S128x10 .f32) (r : Fin 128) :
    multiReduction (F := Ideal) .add [1] S128 x 0x00000000#32 reduces_S128x10_S128 (.inl rfl) rfl (ix1 r)
      = ∑ o : Fin 10, x (ix2 r o) := by
  refine (Ideal.multiReduction_add_single x 0x00000000#32 reduces_S128x10_S128 (.inl rfl) rfl (ix1 r)).trans ?_
  show ∑ k : Fin 10, x (reduces_S128x10_S128.lift (ix1 r) k) = _
  refine Finset.sum_congr rfl fun k _ => congrArg x (funext fun ax => Fin.ext ?_)
  match ax with
  | ⟨0, _⟩ => rfl
  | ⟨1, _⟩ => rfl

/-- The maximum of a 128x10 array along its rows, read at row r: the fold of max from the word of -inf over the
    ten entries (r, o). -/
theorem rowMax_at (x : FVec Ideal S128x10 .f32) (r : Fin 128) :
    multiReduction (F := Ideal) .maximumf [1] S128 x 0xFF800000#32 reduces_S128x10_S128 (.inl rfl) rfl (ix1 r)
      = (Finset.univ : Finset (Fin 10)).fold max Cert.Spec.negInfW (fun o => x (ix2 r o)) := by
  refine (Ideal.multiReduction_maximumf_single x 0xFF800000#32 reduces_S128x10_S128 (.inl rfl) rfl (ix1 r)).trans ?_
  show (Finset.univ : Finset (Fin 10)).fold max Cert.Spec.negInfW (x ∘ reduces_S128x10_S128.lift (ix1 r)) = _
  have hf : (x ∘ reduces_S128x10_S128.lift (ix1 r)) = fun o : Fin 10 => x (ix2 r o) :=
    funext fun k => congrArg x (funext fun ax => Fin.ext (by
      match ax with
      | ⟨0, _⟩ => rfl
      | ⟨1, _⟩ => rfl))
  exact congrArg (fun f => (Finset.univ : Finset (Fin 10)).fold max Cert.Spec.negInfW f) hf

/-! ### Where the operand indices of the two dense layers' products sit -/

/-- In the 128x128 by 128x128 product the left operand's index reads the result's row on its first axis. -/
theorem lhs0_h (i : S128x128.Idx) (q : dot_S128x128_S128x128_S128x128_1_0_0_1_n_n.contr.Idx) :
    (dot_S128x128_S128x128_S128x128_1_0_0_1_n_n.lhsIdx i q (0 : Fin 2)).val = (i (0 : Fin 2)).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
/-- The left operand's index reads the contraction position on its second axis. -/
theorem lhs1_h (i : S128x128.Idx) (q : dot_S128x128_S128x128_S128x128_1_0_0_1_n_n.contr.Idx) :
    (dot_S128x128_S128x128_S128x128_1_0_0_1_n_n.lhsIdx i q (1 : Fin 2)).val = (q ⟨0, by decide⟩).val :=
  dot_S128x128_S128x128_S128x128_1_0_0_1_n_n.lhsIdx_val_of_single rfl i q
/-- The right operand's index reads the contraction position on its first axis. -/
theorem rhs0_h (i : S128x128.Idx) (q : dot_S128x128_S128x128_S128x128_1_0_0_1_n_n.contr.Idx) :
    (dot_S128x128_S128x128_S128x128_1_0_0_1_n_n.rhsIdx i q (0 : Fin 2)).val = (q ⟨0, by decide⟩).val :=
  dot_S128x128_S128x128_S128x128_1_0_0_1_n_n.rhsIdx_val_of_single rfl i q
/-- The right operand's index reads the result's column on its second axis. -/
theorem rhs1_h (i : S128x128.Idx) (q : dot_S128x128_S128x128_S128x128_1_0_0_1_n_n.contr.Idx) :
    (dot_S128x128_S128x128_S128x128_1_0_0_1_n_n.rhsIdx i q (1 : Fin 2)).val = (i (1 : Fin 2)).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- In the 128x128 by 128x10 product the left operand's index reads the result's row on its first axis. -/
theorem lhs0_o (i : S128x10.Idx) (q : dot_S128x128_S128x10_S128x10_1_0_0_1_n_n.contr.Idx) :
    (dot_S128x128_S128x10_S128x10_1_0_0_1_n_n.lhsIdx i q (0 : Fin 2)).val = (i (0 : Fin 2)).val := by
  unfold DotDims.lhsIdx
  rw [dif_neg (show ¬(0 : Fin S128x128.rank) ∈ dot_S128x128_S128x10_S128x10_1_0_0_1_n_n.lhsBatch by decide), dif_pos (show (0 : Fin S128x128.rank) ∈ dot_S128x128_S128x10_S128x10_1_0_0_1_n_n.lhsNonContracting by decide)]
  rfl
/-- The left operand's index reads the contraction position on its second axis. -/
theorem lhs1_o (i : S128x10.Idx) (q : dot_S128x128_S128x10_S128x10_1_0_0_1_n_n.contr.Idx) :
    (dot_S128x128_S128x10_S128x10_1_0_0_1_n_n.lhsIdx i q (1 : Fin 2)).val = (q ⟨0, by decide⟩).val :=
  dot_S128x128_S128x10_S128x10_1_0_0_1_n_n.lhsIdx_val_of_single rfl i q
/-- The right operand's index reads the contraction position on its first axis. -/
theorem rhs0_o (i : S128x10.Idx) (q : dot_S128x128_S128x10_S128x10_1_0_0_1_n_n.contr.Idx) :
    (dot_S128x128_S128x10_S128x10_1_0_0_1_n_n.rhsIdx i q (0 : Fin 2)).val = (q ⟨0, by decide⟩).val :=
  dot_S128x128_S128x10_S128x10_1_0_0_1_n_n.rhsIdx_val_of_single rfl i q
/-- The right operand's index reads the result's column on its second axis. -/
theorem rhs1_o (i : S128x10.Idx) (q : dot_S128x128_S128x10_S128x10_1_0_0_1_n_n.contr.Idx) :
    (dot_S128x128_S128x10_S128x10_1_0_0_1_n_n.rhsIdx i q (1 : Fin 2)).val = (i (1 : Fin 2)).val := by
  unfold DotDims.rhsIdx
  rw [dif_neg (show ¬(1 : Fin S128x10.rank) ∈ dot_S128x128_S128x10_S128x10_1_0_0_1_n_n.rhsBatch by decide), dif_pos (show (1 : Fin S128x10.rank) ∈ dot_S128x128_S128x10_S128x10_1_0_0_1_n_n.rhsNonContracting by decide)]
  rfl

/-! ### The body's intermediate arrays

  The body's chain of operations is regrouped into a few named arrays, each a function of the arrays before it;
  the two payloads are these arrays composed, by unfolding. -/

/-- The column means of a 128x128 array as a 1x128 row: the sum down the rows, divided by the word of 128. -/
def meanRow (x : FVec Ideal S128x128 .f32) : FVec Ideal S1x128 .f32 :=
  divf (shapeCast S1x128 (multiReduction .add [0] S128 x 0x00000000#32 reduces_S128x128_S128 (.inl rfl) rfl) shapeCasts_S128_S1x128)
    (broadcast S1x128 (Scalar.ofBits .f32 0x43000000#32 : Ideal .f32))

/-- The array less its column means. -/
def centredA (x : FVec Ideal S128x128 .f32) : FVec Ideal S128x128 .f32 :=
  subf x (broadcastTo S128x128 (meanRow x) broadcasts_S1x128_S128x128)

/-- The reciprocal square roots of the stabilised column variances, as a 1x128 row. -/
def scaleRow (x : FVec Ideal S128x128 .f32) : FVec Ideal S1x128 .f32 :=
  rsqrt (addf (meanRow (mulf (centredA x) (centredA x))) (broadcast S1x128 (Scalar.ofBits .f32 0x3727C5AC#32 : Ideal .f32)))

/-- The batch-normalised array with its affine pair. -/
def normedA (x : FVec Ideal S128x128 .f32) (v20 v24 : FVec Ideal S1x128 .f32) : FVec Ideal S128x128 .f32 :=
  addf (mulf (mulf (centredA x) (broadcastTo S128x128 (scaleRow x) broadcasts_S1x128_S128x128))
      (broadcastTo S128x128 (shapeCast S1x128 v20 shapeCasts_S1x128_S1x128) broadcasts_S1x128_S128x128))
    (broadcastTo S128x128 (shapeCast S1x128 v24 shapeCasts_S1x128_S1x128) broadcasts_S1x128_S128x128)

/-- The hidden layer's array: the product with the first weight matrix, plus the bias row, clamped below at zero. -/
def hiddenA (n v28 : FVec Ideal S128x128 .f32) (v30 : FVec Ideal S1x128 .f32) : FVec Ideal S128x128 .f32 :=
  maximumf (addf (matmul dot_S128x128_S128x128_S128x128_1_0_0_1_n_n none n v28 (constant S128x128 .f32 0x00000000#32))
      (broadcastTo S128x128 (shapeCast S1x128 v30 shapeCasts_S1x128_S1x128) broadcasts_S1x128_S128x128))
    (broadcast S128x128 (Scalar.ofBits .f32 0x00000000#32 : Ideal .f32))

/-- The logits' array: the second product plus its bias row. -/
def logitA (m : FVec Ideal S128x10 .f32) (v38 : FVec Ideal S1x10 .f32) : FVec Ideal S128x10 .f32 :=
  addf m (broadcastTo S128x10 (shapeCast S1x10 v38 shapeCasts_S1x10_S1x10) broadcasts_S1x10_S128x10)

/-- An array less its row maxima. -/
def shiftedA (l : FVec Ideal S128x10 .f32) : FVec Ideal S128x10 .f32 :=
  subf l (broadcastTo S128x10 (shapeCast S128x1 (multiReduction .maximumf [1] S128 l 0xFF800000#32 reduces_S128x10_S128 (.inl rfl) rfl)
    shapeCasts_S128_S128x1) broadcasts_S128x1_S128x10)

/-- An array less the logarithm of its rows' sums of exponentials. -/
def lseA (s : FVec Ideal S128x10 .f32) : FVec Ideal S128x10 .f32 :=
  subf s (broadcastTo S128x10 (log (shapeCast S128x1 (multiReduction .add [1] S128 (exp s) 0x00000000#32 reduces_S128x10_S128 (.inl rfl) rfl)
    shapeCasts_S128_S128x1)) broadcasts_S128x1_S128x10)

/-- The first payload is the second product of the hidden layer's array: the body's operations regrouped. -/
theorem pay2_split (v0 : Vec Ideal S128x128 .f32) (v20 v24 : Vec Ideal S1x128 .f32) (v28 : Vec Ideal S128x128 .f32)
    (v30 : Vec Ideal S1x128 .f32) (v36 : Vec Ideal S128x10 .f32) :
    k4_pay2 (F := Ideal) v0 v20 v24 v28 v30 v36
      = matmul (φ₂ := .f32) dot_S128x128_S128x10_S128x10_1_0_0_1_n_n none
          (hiddenA (normedA (shapeCast S128x128 v0 shapeCasts_S128x128_S128x128) v20 v24) v28 v30)
          v36 (constant S128x10 .f32 0x00000000#32) := rfl

/-- The stored payload is the log-softmax chain applied to the logits' array: the body's operations regrouped. -/
theorem pay1_split (m : FVec Ideal S128x10 .f32) (v38 : Vec Ideal S1x10 .f32) :
    k4_pay1 (F := Ideal) m v38 = lseA (shiftedA (logitA m v38)) := rfl

/-! ### The intermediate arrays read at an entry -/

/-- The row of column means read at column c: the specification's column mean. -/
theorem meanRow_at (x : FVec Ideal S128x128 .f32) (c : Fin 128) :
    meanRow x (ix2 (0 : Fin 1) c) = Ideal.div (∑ r : Fin 128, x (ix2 r c)) Cert.Spec.n128W := by
  unfold meanRow
  show Ideal.div (shapeCast S1x128 (multiReduction (F := Ideal) .add [0] S128 x 0x00000000#32 reduces_S128x128_S128 (.inl rfl) rfl)
    shapeCasts_S128_S1x128 (ix2 (0 : Fin 1) c)) Cert.Spec.n128W = _
  rw [shapeCast_a_1a_apply, colSum_at]

/-- The centred array read at (r, c): the specification's centred entry. -/
theorem centredA_at (x : FVec Ideal S128x128 .f32) (r c : Fin 128) :
    centredA x (ix2 r c) = Cert.Spec.centred x r c := by
  unfold centredA Cert.Spec.centred Cert.Spec.colMean
  rw [subf_apply, broadcastTo_1b_ab_apply, meanRow_at]

/-- The scale row read at column c: the reciprocal square root of the stabilised column variance. -/
theorem scaleRow_at (x : FVec Ideal S128x128 .f32) (c : Fin 128) :
    scaleRow x (ix2 (0 : Fin 1) c) = Ideal.rsqrt (Cert.Spec.colVar x c + Cert.Spec.epsW) := by
  unfold scaleRow Cert.Spec.colVar
  show Ideal.rsqrt (meanRow (mulf (centredA x) (centredA x)) (ix2 (0 : Fin 1) c) + Cert.Spec.epsW) = _
  rw [meanRow_at]
  simp only [mulf_apply, centredA_at]

/-- The normalised array read at (r, c): the specification's normalised entry, the affine pair read off the two rows. -/
theorem normedA_at (x : FVec Ideal S128x128 .f32) (g b : FVec Ideal S1x128 .f32) (r c : Fin 128) :
    normedA x g b (ix2 r c) = Cert.Spec.normed x (fun c => g (ix2 (0 : Fin 1) c)) (fun c => b (ix2 (0 : Fin 1) c)) r c := by
  unfold normedA Cert.Spec.normed
  rw [addf_apply, mulf_apply, mulf_apply, broadcastTo_1b_ab_apply, broadcastTo_1b_ab_apply, broadcastTo_1b_ab_apply,
    shapeCast_self, shapeCast_self, scaleRow_at, centredA_at]

/-- The hidden layer's array read at (r, j): the dense layer's sum plus the bias entry, clamped below at the zero word. -/
theorem hiddenA_at (n w : FVec Ideal S128x128 .f32) (b : FVec Ideal S1x128 .f32) (r j : Fin 128) :
    hiddenA n w b (ix2 r j) = max ((∑ c : Fin 128, n (ix2 r c) * w (ix2 c j)) + b (ix2 (0 : Fin 1) j)) Cert.Spec.zeroW := by
  unfold hiddenA
  show max (matmul dot_S128x128_S128x128_S128x128_1_0_0_1_n_n none n w (constant S128x128 .f32 0x00000000#32) (ix2 r j)
    + broadcastTo S128x128 (shapeCast S1x128 b shapeCasts_S1x128_S1x128) broadcasts_S1x128_S128x128 (ix2 r j)) Cert.Spec.zeroW = _
  rw [broadcastTo_1b_ab_apply, shapeCast_self,
    matmul_zero_ix2 dot_S128x128_S128x128_S128x128_1_0_0_1_n_n rfl rfl lhs0_h lhs1_h rhs0_h rhs1_h none n w r j]

/-- The first payload read at (r, o): the sum over j of the specification's hidden entry (r, j) times the second
    weight (j, o). -/
theorem pay2_at (E : Vec Ideal S128x128 .f32) (g2 b2 : Vec Ideal S1x128 .f32) (Wf1 : Vec Ideal S128x128 .f32)
    (bf1 : Vec Ideal S1x128 .f32) (Wf2 : Vec Ideal S128x10 .f32) (r : Fin 128) (o : Fin 10) :
    k4_pay2 (F := Ideal) E g2 b2 Wf1 bf1 Wf2 (ix2 r o)
      = ∑ j : Fin 128, Cert.Spec.hidden E (fun c => g2 (ix2 (0 : Fin 1) c)) (fun c => b2 (ix2 (0 : Fin 1) c)) Wf1
          (fun j => bf1 (ix2 (0 : Fin 1) j)) r j * Wf2 (ix2 j o) := by
  rw [pay2_split, shapeCast_self]
  refine (matmul_zero_ix2 dot_S128x128_S128x10_S128x10_1_0_0_1_n_n rfl rfl lhs0_o lhs1_o rhs0_o rhs1_o none _ _ r o).trans ?_
  refine Finset.sum_congr rfl fun j _ => ?_
  rw [hiddenA_at]
  unfold Cert.Spec.hidden
  simp only [normedA_at]

/-- The logits' array read at (r, o): the product's entry plus the bias entry. -/
theorem logitA_at (m : FVec Ideal S128x10 .f32) (v : FVec Ideal S1x10 .f32) (r : Fin 128) (o : Fin 10) :
    logitA m v (ix2 r o) = m (ix2 r o) + v (ix2 (0 : Fin 1) o) := by
  unfold logitA
  rw [addf_apply, broadcastTo_1b_ab_apply, shapeCast_self]

/-- The shifted array read at (r, o): the entry less the fold of max from the word of -inf over the row. -/
theorem shiftedA_at (l : FVec Ideal S128x10 .f32) (r : Fin 128) (o : Fin 10) :
    shiftedA l (ix2 r o) = l (ix2 r o) - (Finset.univ : Finset (Fin 10)).fold max Cert.Spec.negInfW (fun o' => l (ix2 r o')) := by
  unfold shiftedA
  rw [subf_apply, broadcastTo_a1_ab_apply, shapeCast_a_a1_apply, rowMax_at]

/-- The last array read at (r, o): the entry less the logarithm of the row's sum of exponentials. -/
theorem lseA_at (s : FVec Ideal S128x10 .f32) (r : Fin 128) (o : Fin 10) :
    lseA s (ix2 r o) = s (ix2 r o) - Ideal.log (∑ o' : Fin 10, Ideal.exp (s (ix2 r o'))) := by
  unfold lseA
  rw [subf_apply, broadcastTo_a1_ab_apply]
  show s (ix2 r o) - Ideal.log (shapeCast S128x1 (multiReduction (F := Ideal) .add [1] S128 (exp s) 0x00000000#32 reduces_S128x10_S128 (.inl rfl) rfl)
    shapeCasts_S128_S128x1 (ix2 r (0 : Fin 1))) = _
  rw [shapeCast_a_a1_apply, rowSum_at]
  rfl

/-! ### The stored value -/

/-- The stored value of the last body at (r, o) is the specification's head at (r, o), the affine pair and the three
    biases read off their one-row arrays. -/
theorem head_entry (E : Vec Ideal S128x128 .f32) (g2 b2 : Vec Ideal S1x128 .f32) (Wf1 : Vec Ideal S128x128 .f32)
    (bf1 : Vec Ideal S1x128 .f32) (Wf2 : Vec Ideal S128x10 .f32) (bf2 : Vec Ideal S1x10 .f32) (r : Fin 128) (o : Fin 10) :
    k4_pay1 (F := Ideal) (k4_pay2 (F := Ideal) E g2 b2 Wf1 bf1 Wf2) bf2 (ix2 r o)
      = Cert.Spec.head E (fun c => g2 (ix2 0 c)) (fun c => b2 (ix2 0 c)) Wf1 (fun j => bf1 (ix2 0 j)) Wf2
          (fun o' => bf2 (ix2 0 o')) r o := by
  have hl : ∀ o' : Fin 10, logitA (k4_pay2 (F := Ideal) E g2 b2 Wf1 bf1 Wf2) bf2 (ix2 r o')
      = Cert.Spec.logit E (fun c => g2 (ix2 0 c)) (fun c => b2 (ix2 0 c)) Wf1 (fun j => bf1 (ix2 0 j)) Wf2
          (fun o' => bf2 (ix2 0 o')) r o' := fun o' => by
    rw [logitA_at, pay2_at]
    rfl
  have hs : ∀ o' : Fin 10, shiftedA (logitA (k4_pay2 (F := Ideal) E g2 b2 Wf1 bf1 Wf2) bf2) (ix2 r o')
      = Cert.Spec.shifted E (fun c => g2 (ix2 0 c)) (fun c => b2 (ix2 0 c)) Wf1 (fun j => bf1 (ix2 0 j)) Wf2
          (fun o' => bf2 (ix2 0 o')) r o' := fun o' => by
    rw [shiftedA_at]
    unfold Cert.Spec.shifted Cert.Spec.rowMax
    simp only [hl]
  rw [pay1_split, lseA_at]
  unfold Cert.Spec.head
  simp only [hs]

end Cert.HeadKernel

end
-- ==== Proof.HeadRef.lean ====
/-
  The reference program's second result, read entry by entry.

  From the per-graph sums E (a 128 x 128 array, kept opaque here) the reference takes each column's mean and
  variance over the 128 graphs, normalises, applies the affine pair, two dense layers and a row-wise
  log-softmax.  Each stage, read at an index, is the corresponding function of the specification; the last
  theorem says entry (r, o) of the second result is `Cert.Spec.head` there.
-/
import proofs.«180929_j77764677861851_2_alg».proof.Proof.Gen.ReferenceIdeal.Read
import proofs.«180929_j77764677861851_2_alg».proof.Proof.Spec
import Idealize.ShloMosaic.Lib.ValueIdx
import Idealize.ShloMosaic.PureOps.Ideal.Laws

noncomputable section

namespace Cert.HeadRef

open Idealize.ShloMosaic Idealize.ShloMosaic.ValueIdx
open Cert.ReferenceIdeal Cert.ReferenceIdeal.Gen Cert.ReferenceIdeal.Read

section Stages

variable (x0 : (⟨S50000x128, .f32⟩ : BufTy).Contents (Elt Ideal)) (x1 x2 : (⟨S800000, .i32⟩ : BufTy).Contents (Elt Ideal))
  (x3 : (⟨S50000, .i32⟩ : BufTy).Contents (Elt Ideal)) (x4 : (⟨S128x256, .f32⟩ : BufTy).Contents (Elt Ideal))
  (x5 : (⟨S256, .f32⟩ : BufTy).Contents (Elt Ideal)) (x6 : (⟨S256x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x128, .f32⟩ : BufTy).Contents (Elt Ideal))
  (x11 : (⟨S128, .f32⟩ : BufTy).Contents (Elt Ideal)) (x12 : (⟨S128x10, .f32⟩ : BufTy).Contents (Elt Ideal))
  (x13 : (⟨S10, .f32⟩ : BufTy).Contents (Elt Ideal)) (x14 x15 : (⟨S128, .f32⟩ : BufTy).Contents (Elt Ideal))

/-- The per-graph sums, the array every stage below starts from. -/
local notation "E" => val_main_v76 (F := Ideal) x0 x1 x2 x3 x4 x5 x6 x7 x8 x9

/-- Column c's mean: the column's sum over the 128 graphs divided by the word of 128. -/
theorem colMean_entry (c : Fin 128) :
    val_main_v79 (F := Ideal) x0 x1 x2 x3 x4 x5 x6 x7 x8 x9 (ix1 c) = Cert.Spec.colMean E c := by
  rw [val_main_v79_apply, val_main_v77_apply, val_main_v78_apply, val_main_cst_13_apply, val_main_cst_14_apply]
  have hi : ∀ k : Fin 128, idx_main_v77 (ix1 c) k = ix2 k c := fun k =>
    funext fun a => Fin.ext (by match a with | ⟨0, _⟩ => rfl | ⟨1, _⟩ => rfl)
  simp only [hi, Ideal.hostDivf_def, Ideal.ofBits_def, Ideal.ofBits_zero_f32, zero_add]
  rfl

/-- Entry (r, c) less its column's mean. -/
theorem centred_entry (r c : Fin 128) :
    val_main_v82 (F := Ideal) x0 x1 x2 x3 x4 x5 x6 x7 x8 x9 (ix2 r c) = Cert.Spec.centred E r c := by
  rw [val_main_v82_apply, val_main_v81_apply, val_main_v80_apply]
  have hi : idx_main_v80 (idx_main_v81 (ix2 r c)) = ix1 c :=
    funext fun a => Fin.ext (by match a with | ⟨0, _⟩ => rfl)
  rw [hi, colMean_entry]
  rfl

/-- Column c's variance: the sum of the squared centred entries divided by the word of 128. -/
theorem colVar_entry (c : Fin 128) :
    val_main_v86 (F := Ideal) x0 x1 x2 x3 x4 x5 x6 x7 x8 x9 (ix1 c) = Cert.Spec.colVar E c := by
  rw [val_main_v86_apply, val_main_v84_apply, val_main_v85_apply, val_main_cst_15_apply, val_main_cst_16_apply]
  have hi : ∀ k : Fin 128, idx_main_v84 (ix1 c) k = ix2 k c := fun k =>
    funext fun a => Fin.ext (by match a with | ⟨0, _⟩ => rfl | ⟨1, _⟩ => rfl)
  simp only [hi, val_main_v83_apply, centred_entry, Ideal.hostDivf_def, Ideal.mulf_def, Ideal.ofBits_def,
    Ideal.ofBits_zero_f32, zero_add]
  rfl

/-- The gain vector as a function of the column. -/
local notation "g" => fun c : Fin 128 => x14 (ix1 c)
/-- The shift vector as a function of the column. -/
local notation "b" => fun c : Fin 128 => x15 (ix1 c)

/-- The normalised entry: centred, scaled by the inverse root of the stabilised variance, then the affine pair. -/
theorem normed_entry (r c : Fin 128) :
    val_main_v101 (F := Ideal) x0 x1 x2 x3 x4 x5 x6 x7 x8 x9 x14 x15 (ix2 r c) = Cert.Spec.normed E g b r c := by
  rw [val_main_v101_apply, val_main_v98_apply, val_main_v95_apply, val_main_v89_apply, val_main_v88_apply,
    val_main_v87_apply, val_main_v94_apply, val_main_v93_apply, val_main_v92_apply, val_main_v91_apply,
    val_main_v90_apply, val_main_cst_17_apply, val_main_v97_apply, val_main_v96_apply, val_main_v100_apply,
    val_main_v99_apply]
  have h1 : idx_main_v87 (idx_main_v88 (ix2 r c)) = ix1 c := funext fun a => Fin.ext (by match a with | ⟨0, _⟩ => rfl)
  have h2 : idx_main_v93 (idx_main_v94 (ix2 r c)) = ix1 c := funext fun a => Fin.ext (by match a with | ⟨0, _⟩ => rfl)
  have h3 : idx_main_v96 (idx_main_v97 (ix2 r c)) = ix1 c := funext fun a => Fin.ext (by match a with | ⟨0, _⟩ => rfl)
  have h4 : idx_main_v99 (idx_main_v100 (ix2 r c)) = ix1 c := funext fun a => Fin.ext (by match a with | ⟨0, _⟩ => rfl)
  rw [h1, h2, h3, h4, colMean_entry, colVar_entry]
  rfl

/-- The first dense layer's bias as a function of the column. -/
local notation "bf1" => fun j : Fin 128 => x11 (ix1 j)

/-- The hidden layer: the normalised row times the first weight matrix, plus the bias, clamped below at zero. -/
theorem hidden_entry (r j : Fin 128) :
    val_main_v106 (F := Ideal) x0 x1 x2 x3 x4 x5 x6 x7 x8 x9 x10 x11 x14 x15 (ix2 r j) = Cert.Spec.hidden E g b x10 bf1 r j := by
  rw [val_main_v106_apply, val_main_v105_apply, val_main_v102_apply, val_main_v104_apply, val_main_v103_apply,
    val_main_call5_v0_apply, val_main_call5_cst_apply]
  have hl : ∀ k : Fin 128, lidx_main_v102 (ix2 r j) k = ix2 r k := fun k =>
    funext fun a => Fin.ext (by match a with | ⟨0, _⟩ => rfl | ⟨1, _⟩ => rfl)
  have hr : ∀ k : Fin 128, ridx_main_v102 (ix2 r j) k = ix2 k j := fun k =>
    funext fun a => Fin.ext (by match a with | ⟨0, _⟩ => rfl | ⟨1, _⟩ => rfl)
  have hb : idx_main_v103 (idx_main_v104 (ix2 r j)) = ix1 j := funext fun a => Fin.ext (by match a with | ⟨0, _⟩ => rfl)
  simp only [hl, hr, hb, normed_entry, Ideal.maximumf_def, Ideal.addf_def, Ideal.ofBits_def]
  rfl

/-- The second dense layer's bias as a function of the class. -/
local notation "bf2" => fun o : Fin 10 => x13 (ix1 o)

/-- A logit: the hidden row times the second weight matrix, plus the bias. -/
theorem logit_entry (r : Fin 128) (o : Fin 10) :
    val_main_v110 (F := Ideal) x0 x1 x2 x3 x4 x5 x6 x7 x8 x9 x10 x11 x12 x13 x14 x15 (ix2 r o)
      = Cert.Spec.logit E g b x10 bf1 x12 bf2 r o := by
  rw [val_main_v110_apply, val_main_v107_apply, val_main_v109_apply, val_main_v108_apply]
  have hl : ∀ k : Fin 128, lidx_main_v107 (ix2 r o) k = ix2 r k := fun k =>
    funext fun a => Fin.ext (by match a with | ⟨0, _⟩ => rfl | ⟨1, _⟩ => rfl)
  have hr : ∀ k : Fin 128, ridx_main_v107 (ix2 r o) k = ix2 k o := fun k =>
    funext fun a => Fin.ext (by match a with | ⟨0, _⟩ => rfl | ⟨1, _⟩ => rfl)
  have hb : idx_main_v108 (idx_main_v109 (ix2 r o)) = ix1 o := funext fun a => Fin.ext (by match a with | ⟨0, _⟩ => rfl)
  simp only [hl, hr, hb, hidden_entry, Ideal.addf_def]
  rfl

/-- The maximum of a value with a fold of maxima that starts from that value is the fold. -/
theorem max_fold_max_self {ι : Type} (s : Finset ι) (a : EReal) (f : ι → EReal) :
    max a (s.fold max a f) = s.fold max a f :=
  max_eq_right ((Finset.le_fold_max a).2 (Or.inl le_rfl))

/-- A row index with the class k put back on the reduced axis is (r, k). -/
theorem lift_row (h : S128x10.Reduces [1] S128) (r : Fin 128) (k : Fin (S128x10.size 1)) :
    h.lift (ix1 r) k = ix2 r (⟨k.val, k.isLt⟩ : Fin 10) :=
  funext fun c => Fin.ext (by match c with | ⟨0, _⟩ => rfl | ⟨1, _⟩ => rfl)

/-- A row's largest logit: the maximum of -inf with the fold of maxima from -inf is that fold. -/
theorem rowMax_entry (r : Fin 128) :
    val_main_call6_v2 (F := Ideal) x0 x1 x2 x3 x4 x5 x6 x7 x8 x9 x10 x11 x12 x13 x14 x15 (ix1 r)
      = Cert.Spec.rowMax E g b x10 bf1 x12 bf2 r := by
  rw [val_main_call6_v2_apply, val_main_call6_v1_apply, val_main_call6_cst_0_apply]
  unfold val_main_call6_v0
  have h : S128x10.Reduces [1] S128 := by decide
  rw [Host.reduce_eq_fold_single FloatOps.maximumf _ _ reducesTo_S128x10_S128_d1 h h_S_, val_main_call6_cst_apply]
  have hf : (val_main_v110 (F := Ideal) x0 x1 x2 x3 x4 x5 x6 x7 x8 x9 x10 x11 x12 x13 x14 x15 ∘ h.lift (ix1 r))
      = fun o : Fin 10 => Cert.Spec.logit E g b x10 bf1 x12 bf2 r o :=
    funext fun k => (congrArg (val_main_v110 (F := Ideal) x0 x1 x2 x3 x4 x5 x6 x7 x8 x9 x10 x11 x12 x13 x14 x15) (lift_row h r k)).trans
      (logit_entry x0 x1 x2 x3 x4 x5 x6 x7 x8 x9 x10 x11 x12 x13 x14 x15 r ⟨k.val, k.isLt⟩)
  refine Eq.trans ?_ (max_fold_max_self Finset.univ Cert.Spec.negInfW
    (fun o : Fin 10 => Cert.Spec.logit E g b x10 bf1 x12 bf2 r o))
  exact congrArg (fun f : Fin 10 → EReal => max Cert.Spec.negInfW (Finset.fold max Cert.Spec.negInfW f Finset.univ)) hf

/-- A logit less its row's maximum. -/
theorem shifted_entry (r : Fin 128) (o : Fin 10) :
    val_main_call6_v5 (F := Ideal) x0 x1 x2 x3 x4 x5 x6 x7 x8 x9 x10 x11 x12 x13 x14 x15 (ix2 r o)
      = Cert.Spec.shifted E g b x10 bf1 x12 bf2 r o := by
  rw [val_main_call6_v5_apply, val_main_call6_v4_apply, val_main_call6_v3_apply]
  have hi : idx_main_call6_v3 (idx_main_call6_v4 (ix2 r o)) = ix1 r := funext fun a => Fin.ext (by match a with | ⟨0, _⟩ => rfl)
  rw [hi, logit_entry, rowMax_entry]
  rfl

/-- The log-softmax entry: the shifted logit less the log of the row's sum of exponentials of shifted logits. -/
theorem head_stage (r : Fin 128) (o : Fin 10) :
    val_main_v111 (F := Ideal) x0 x1 x2 x3 x4 x5 x6 x7 x8 x9 x10 x11 x12 x13 x14 x15 (ix2 r o)
      = Cert.Spec.head E g b x10 bf1 x12 bf2 r o := by
  rw [val_main_v111_apply, val_main_call6_v10_apply, val_main_call6_v9_apply, val_main_call6_v8_apply,
    val_main_call6_v7_apply, val_main_call6_cst_1_apply]
  have hi : idx_main_call6_v8 (idx_main_call6_v10 (ix2 r o)) = ix1 r := funext fun a => Fin.ext (by match a with | ⟨0, _⟩ => rfl)
  have hk : ∀ k : Fin 10, idx_main_call6_v7 (ix1 r) k = ix2 r k := fun k =>
    funext fun a => Fin.ext (by match a with | ⟨0, _⟩ => rfl | ⟨1, _⟩ => rfl)
  simp only [hi, hk, val_main_call6_v6_apply, shifted_entry, Ideal.subf_def, Ideal.hostUnary_log_def,
    Ideal.hostUnary_exp_def, Ideal.ofBits_def, Ideal.ofBits_zero_f32, zero_add]
  rfl

end Stages

/-- Entry (r, o) of the reference's second result is the specification's head applied to the per-graph sums. -/
theorem head_entry (x0 : (⟨S50000x128, .f32⟩ : BufTy).Contents (Elt Ideal)) (x1 x2 : (⟨S800000, .i32⟩ : BufTy).Contents (Elt Ideal))
    (x3 : (⟨S50000, .i32⟩ : BufTy).Contents (Elt Ideal)) (x4 : (⟨S128x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) (x12 : (⟨S128x10, .f32⟩ : BufTy).Contents (Elt Ideal))
    (x13 : (⟨S10, .f32⟩ : BufTy).Contents (Elt Ideal)) (x14 x15 : (⟨S128, .f32⟩ : BufTy).Contents (Elt Ideal))
    (r : Fin 128) (o : Fin 10) :
    val_main_v111 (F := Ideal) x0 x1 x2 x3 x4 x5 x6 x7 x8 x9 x10 x11 x12 x13 x14 x15 (ix2 r o)
      = Cert.Spec.head (val_main_v76 (F := Ideal) x0 x1 x2 x3 x4 x5 x6 x7 x8 x9) (fun c => x14 (ix1 c)) (fun c => x15 (ix1 c)) x10
          (fun j => x11 (ix1 j)) x12 (fun o' => x13 (ix1 o')) r o :=
  head_stage x0 x1 x2 x3 x4 x5 x6 x7 x8 x9 x10 x11 x12 x13 x14 x15 r o

end Cert.HeadRef

end
-- ==== Proof.BridgeHead.lean ====
/-
  The two programs' second results agree once their per-graph sums do.

  The kernel's last body, applied to the reference's per-graph sums and to the kernel program's own reshaped bias and
  affine rows, stores the reference's second result.  Entry by entry both are the specification's `head` of the same
  per-graph sums; the kernel's row (0, c) of a vector reshaped to one row is the vector at c, which is how the reference
  reads the same vector.
-/
import proofs.«180929_j77764677861851_2_alg».proof.Proof.Gen.ReferenceIdeal.Read
import proofs.«180929_j77764677861851_2_alg».proof.Proof.Gen.KernelIdeal.Skeleton
import proofs.«180929_j77764677861851_2_alg».proof.Proof.ChainDefs
import proofs.«180929_j77764677861851_2_alg».proof.Proof.HeadKernel
import proofs.«180929_j77764677861851_2_alg».proof.Proof.HeadRef
import proofs.«180929_j77764677861851_2_alg».proof.Proof.KernelLayout

noncomputable section

namespace Cert.BridgeHead

open Idealize.ShloMosaic Idealize.ShloMosaic.ValueIdx
open Cert.ReferenceIdeal Cert.ReferenceIdeal.Gen Cert.ReferenceIdeal.Read

/-- A 128-vector laid down as one row, read back along the row, is the vector. -/
theorem rowOf128_read (x : (⟨S128, .f32⟩ : BufTy).Contents (Elt Ideal)) :
    (fun c : Fin 128 => Cert.KernelIdeal.Chain.rowOf128 x (ix2 0 c)) = fun c : Fin 128 => x (ix1 c) :=
  funext fun c => Cert.KernelLayout.row_cast128_entry x c

/-- A 10-vector laid down as one row, read back along the row, is the vector. -/
theorem rowOf10_read (x : (⟨S10, .f32⟩ : BufTy).Contents (Elt Ideal)) :
    (fun o : Fin 10 => Cert.KernelIdeal.Chain.rowOf10 x (ix2 0 o)) = fun o : Fin 10 => x (ix1 o) :=
  funext fun o => Cert.KernelLayout.row_cast10_entry x o

/-- The kernel's last body on the reference's per-graph sums, with the bias and affine vectors laid down as rows,
    stores the reference's second result: at every entry both are the specification's head of the same sums. -/
theorem head_eq (x0 : (⟨S50000x128, .f32⟩ : BufTy).Contents (Elt Ideal)) (x1 x2 : (⟨S800000, .i32⟩ : BufTy).Contents (Elt Ideal))
    (x3 : (⟨S50000, .i32⟩ : BufTy).Contents (Elt Ideal)) (x4 : (⟨S128x256, .f32⟩ : BufTy).Contents (Elt Ideal))
    (x5 : (⟨S256, .f32⟩ : BufTy).Contents (Elt Ideal)) (x6 : (⟨S256x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal))
    (x11 : (⟨S128, .f32⟩ : BufTy).Contents (Elt Ideal)) (x12 : (⟨S128x10, .f32⟩ : BufTy).Contents (Elt Ideal))
    (x13 : (⟨S10, .f32⟩ : BufTy).Contents (Elt Ideal)) (x14 x15 : (⟨S128, .f32⟩ : BufTy).Contents (Elt Ideal)) :
    Cert.KernelIdeal.Gen.k4_pay1 (F := Ideal)
        (Cert.KernelIdeal.Gen.k4_pay2 (F := Ideal) (val_main_v76 (F := Ideal) x0 x1 x2 x3 x4 x5 x6 x7 x8 x9)
          (Cert.KernelIdeal.Chain.rowOf128 x14) (Cert.KernelIdeal.Chain.rowOf128 x15) x10 (Cert.KernelIdeal.Chain.rowOf128 x11) x12)
        (Cert.KernelIdeal.Chain.rowOf10 x13)
      = val_main_v111 (F := Ideal) x0 x1 x2 x3 x4 x5 x6 x7 x8 x9 x10 x11 x12 x13 x14 x15 := by
  funext j
  obtain ⟨r, o, rfl⟩ : ∃ (r : Fin 128) (o : Fin 10), j = ix2 r o := ⟨j 0, j 1, eq_ix2 j⟩
  refine (Cert.HeadKernel.head_entry (val_main_v76 (F := Ideal) x0 x1 x2 x3 x4 x5 x6 x7 x8 x9)
    (Cert.KernelIdeal.Chain.rowOf128 x14) (Cert.KernelIdeal.Chain.rowOf128 x15) x10 (Cert.KernelIdeal.Chain.rowOf128 x11) x12
    (Cert.KernelIdeal.Chain.rowOf10 x13) r o).trans ?_
  refine Eq.trans ?_ (Cert.HeadRef.head_entry x0 x1 x2 x3 x4 x5 x6 x7 x8 x9 x10 x11 x12 x13 x14 x15 r o).symm
  rw [rowOf128_read x14, rowOf128_read x15, rowOf128_read x11, rowOf10_read x13]

end Cert.BridgeHead

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.Finite.lean ====
/-
  The finiteness precondition read back: under it every entry of the node features, of the first layer's
  weights and bias and of the second layer's weights is a real number.

  The precondition is the conjunction, as one-bit words, of "every |x| is below +inf" over the float arguments.
  A conjunction that is 1 has both conjuncts 1; an "all" that is 1 has a 1 at every index; and |x| < +inf says
  that x is a real.
-/
import proofs.«180929_j77764677861851_2_alg».proof.Defs
import proofs.«180929_j77764677861851_2_alg».proof.Proof.Reals
import proofs.«180929_j77764677861851_2_alg».proof.Proof.LibFinite
import Idealize.ShloMosaic.Lib.ReduceAll
import Idealize.ShloMosaic.Lib.Affine
import Idealize.ShloMosaic.Lib.ValueIdx

noncomputable section

namespace Cert.Finite

open Idealize.ShloMosaic Idealize.SL.Sem Cert.Reals Cert.Lib.Finite

/-- A conjunction of two one-bit scalars that reads 1 has both conjuncts reading 1. -/
theorem andi_split (x y : IVec (⟨0, ![]⟩ : Shape) 1) (e : andi x y ValueIdx.ix0 = 1#1) :
    x ValueIdx.ix0 = 1#1 ∧ y ValueIdx.ix0 = 1#1 :=
  IntOp.andi_eq_one.1 e

/-- Under the finiteness precondition every entry of the float arguments 0, 4, 5 and 6 is a real. -/
theorem real_args [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, IsReal ((m ((c.tc : Thread Cert.KernelIdeal.nD Cert.KernelIdeal.τ).loc Cert.KernelIdeal.main_arg0)) j))
    ∧ (∀ j, IsReal ((m ((c.tc : Thread Cert.KernelIdeal.nD Cert.KernelIdeal.τ).loc Cert.KernelIdeal.main_arg4)) j))
    ∧ (∀ j, IsReal ((m ((c.tc : Thread Cert.KernelIdeal.nD Cert.KernelIdeal.τ).loc Cert.KernelIdeal.main_arg5)) j))
    ∧ (∀ j, IsReal ((m ((c.tc : Thread Cert.KernelIdeal.nD Cert.KernelIdeal.τ).loc Cert.KernelIdeal.main_arg6)) j)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  -- peel the nine later conjuncts (arguments 15, 14, …, 7), then split the four that are wanted
  obtain ⟨h1, -⟩ := andi_split _ _ h0
  obtain ⟨h2, -⟩ := andi_split _ _ h1
  obtain ⟨h3, -⟩ := andi_split _ _ h2
  obtain ⟨h4, -⟩ := andi_split _ _ h3
  obtain ⟨h5, -⟩ := andi_split _ _ h4
  obtain ⟨h6, -⟩ := andi_split _ _ h5
  obtain ⟨h7, -⟩ := andi_split _ _ h6
  obtain ⟨h8, -⟩ := andi_split _ _ h7
  obtain ⟨h9, -⟩ := andi_split _ _ h8
  obtain ⟨h10, r6⟩ := andi_split _ _ h9
  obtain ⟨h11, r5⟩ := andi_split _ _ h10
  obtain ⟨r0, r4⟩ := andi_split _ _ h11
  refine ⟨fun j => ?_, fun j => ?_, fun j => ?_, fun j => ?_⟩
  · exact real_of_cmp _ (Host.reduce_andi_all _ _ _ _ _ r0 j)
  · exact real_of_cmp _ (Host.reduce_andi_all _ _ _ _ _ r4 j)
  · exact real_of_cmp _ (Host.reduce_andi_all _ _ _ _ _ r5 j)
  · exact real_of_cmp _ (Host.reduce_andi_all _ _ _ _ _ r6 j)

end Cert.Finite

end
-- ==== Proof.Final.lean ====
/-
  The claims.  The idealized kernel program runs and ends with its two result buffers at the values the chain of
  boundaries names (the per-graph sums of the third layer's rows, and the head applied to them); layer by layer
  those are the reference's stages: the first and third layers and the head by reading both sides entry by entry,
  the second layer — where the kernel multiplies by the weights before aggregating along the edges and the
  reference after — by linearity, which holds because every entry involved is a real number: the inputs are
  finite, a degree is a count, and sums, products and maxima of reals are reals.  The reference's own run ends at
  the same stages of its arguments, and the two programs' arguments agree.
-/
import proofs.«180929_j77764677861851_2_alg».proof.Defs
import proofs.«180929_j77764677861851_2_alg».proof.Proof.Gen.Kernel.Frame
import proofs.«180929_j77764677861851_2_alg».proof.Proof.Gen.KernelIdeal.Frame
import proofs.«180929_j77764677861851_2_alg».proof.Proof.Gen.ReferenceIdeal.Run
import proofs.«180929_j77764677861851_2_alg».proof.Proof.Gen.ReferenceIdeal.Read
import proofs.«180929_j77764677861851_2_alg».proof.Proof.Gen.Pre_finite_inputs
import proofs.«180929_j77764677861851_2_alg».proof.Proof.KernelRun
import proofs.«180929_j77764677861851_2_alg».proof.Proof.HostChain
import proofs.«180929_j77764677861851_2_alg».proof.Proof.BridgeLayer1
import proofs.«180929_j77764677861851_2_alg».proof.Proof.BridgeLayer2
import proofs.«180929_j77764677861851_2_alg».proof.Proof.BridgeLayer3
import proofs.«180929_j77764677861851_2_alg».proof.Proof.BridgeHead
import proofs.«180929_j77764677861851_2_alg».proof.Proof.Finite

set_option maxRecDepth 16384
set_option maxHeartbeats 1000000

noncomputable section

namespace Cert.Proof.Claims

open Idealize.ShloMosaic Idealize.SL.Sem

/-- The per-graph sums the kernel program ends with are the reference's stage of the kernel's arguments. -/
theorem sums_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W13 (F := Ideal) m ρ c (Proc.devRef .tc Cert.KernelIdeal.main_v55) = Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  obtain ⟨h0, h4, h5, h6⟩ := Cert.Finite.real_args m hpre c
  have e1 := Cert.Bridge1.layer1_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
  have e2 := Cert.Bridge2.layer2_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) h0 h4 h5 h6
  have e3 := Cert.Bridge3.layer3_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  have e4 := Cert.Bridge3.pool_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  rw [Cert.KernelIdeal.Chain.result0 m ρ c, e1, e2, e3, e4]

/-- The log-probabilities the kernel program ends with are the reference's stage of the kernel's arguments. -/
theorem logits_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.KernelIdeal.Gen.W13 (F := Ideal) m ρ c (Proc.devRef .tc Cert.KernelIdeal.main_v60) = Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  obtain ⟨h0, h4, h5, h6⟩ := Cert.Finite.real_args m hpre c
  have e1 := Cert.Bridge1.layer1_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
  have e2 := Cert.Bridge2.layer2_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) h0 h4 h5 h6
  have e3 := Cert.Bridge3.layer3_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  have e4 := Cert.Bridge3.pool_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
  have e5 := Cert.BridgeHead.head_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
  rw [Cert.KernelIdeal.Chain.result1 m ρ c, e1, e2, e3, e4, e5]

/-- The idealized kernel program's run, its results at the reference's stages of its own arguments. -/
theorem kernel_value (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v55) = Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_v60) = Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run (Cert.KernelIdeal.defs (F := Ideal)) _ _).mono
    (fun r h c => ⟨(h c).1.trans (sums_eq m ρ hpre c), (h c).2.1.trans (logits_eq m ρ hpre c), (h c).2.2⟩)
    (Cert.KernelIdeal.Results.run_results (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the program's own text read on the extended reals. -/
theorem preserves : Cert.preserves_Kernel_KernelIdeal := trivial

/-- From memories agreeing on the arguments both idealized programs run and end with equal results: the
    reference's stages of the common arguments. -/
theorem algebraic : Cert.algebraic_KernelIdeal_ReferenceIdeal := by
  intro m ρ m' ρ' hpre hagree
  refine ⟨fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), kernel_value m ρ hpre, ?_⟩
  refine (θ_run Cert.ReferenceIdeal.defs _ _).mono (fun r h c => ⟨?_, ?_, (h c).2.2⟩) (Cert.ReferenceIdeal.Value.run (F := Ideal) m' ρ')
  · obtain ⟨g0, g1, g2, g3, g4, g5, g6, g7, g8, g9, g10, g11, g12, g13, g14, g15⟩ := hagree c
    rw [(h c).1, Cert.ReferenceIdeal.Read.val_main_v76_eq, g0, g1, g2, g3, g4, g5, g6, g7, g8, g9]
  · obtain ⟨g0, g1, g2, g3, g4, g5, g6, g7, g8, g9, g10, g11, g12, g13, g14, g15⟩ := hagree c
    rw [(h c).2.1, Cert.ReferenceIdeal.Read.val_main_v111_eq, g0, g1, g2, g3, g4, g5, g6, g7, g8, g9, g10, g11, g12, g13, g14, g15]

end Cert.Proof.Claims

end
-- ==== Proof.lean ====
/-
  The certificate: a three-layer graph convolution network with per-graph pooling, batch normalisation, a two-layer
  head and a log-softmax, as five kernel regions among host operations, against the same network written with
  plain array operations.  At the ideal values the two programs return the same arrays (Proof/Final.lean); the
  kernel programs' frames are the generated ones and the reference's is its generated run.
-/
import proofs.«180929_j77764677861851_2_alg».proof.Defs
import proofs.«180929_j77764677861851_2_alg».proof.Proof.Gen.Kernel
import proofs.«180929_j77764677861851_2_alg».proof.Proof.Gen.KernelIdeal
import proofs.«180929_j77764677861851_2_alg».proof.Proof.Gen.ReferenceIdeal
import proofs.«180929_j77764677861851_2_alg».proof.Proof.Gen.Pre_finite_inputs
import proofs.«180929_j77764677861851_2_alg».proof.Proof.Final
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
